-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S1x16x2048x1 : Shape := ⟨4, ![1, 16, 2048, 1]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel
  bcast_S_S1x16x2048x1 : S_.BroadcastsInDim S1x16x2048x1 (![] : Fin 0 → Fin S1x16x2048x1.rank)
  reducesTo_S1x16x2048x1_S_d0_1_2_3 : S1x16x2048x1.ReducesTo [0, 1, 2, 3] S_

variable [Facts]

def fn_part1 {F : FTy → Type} [FloatOps F] (main_arg4 : FVec F S1x16x2048x1 .f32) (main_v13 : IVec S_ 1) (main_v16 : IVec S1x16x2048x1 1) : IVec S_ 1 :=
  let main_c_5 : IVec S_ 1 := constantI S_ 1 1#1
  let main_v17 : IVec S_ 1 := (fun x v => Host.reduce IntOp.andi x v reducesTo_S1x16x2048x1_S_d0_1_2_3 h_S_) main_v16 main_c_5
  let main_v18 : IVec S_ 1 := andi main_v13 main_v17
  let main_v19 : FVec F S1x16x2048x1 .f32 := Host.absf main_arg4
  let main_cst_6 : FVec F S_ .f32 := constant S_ .f32 0x7F800000#32
  let main_v20 : FVec F S1x16x2048x1 .f32 := broadcastInDim S1x16x2048x1 ![] bcast_S_S1x16x2048x1 main_cst_6
  let main_v21 : IVec S1x16x2048x1 1 := cmpf .olt main_v19 main_v20
  let main_c_7 : IVec S_ 1 := constantI S_ 1 1#1
  let main_v22 : IVec S_ 1 := (fun x v => Host.reduce IntOp.andi x v reducesTo_S1x16x2048x1_S_d0_1_2_3 h_S_) main_v21 main_c_7
  let main_v23 : IVec S_ 1 := andi main_v18 main_v22
  main_v23

def fn {F : FTy → Type} [FloatOps F] (main_arg0 : FVec F S1x16x2048x64 .f32) (main_arg1 : FVec F S1x16x2048x64 .f32) (main_arg2 : FVec F S1x16x2048x64 .f32) (main_arg3 : FVec F S1x16x2048x1 .f32) (main_arg4 : FVec F S1x16x2048x1 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  let main_v14 : FVec F S1x16x2048x1 .f32 := Host.absf main_arg3
  let main_cst_4 : FVec F S_ .f32 := constant S_ .f32 0x7F800000#32
  let main_v15 : FVec F S1x16x2048x1 .f32 := broadcastInDim S1x16x2048x1 ![] bcast_S_S1x16x2048x1 main_cst_4
  let main_v16 : IVec S1x16x2048x1 1 := cmpf .olt main_v14 main_v15
  fn_part1 (F := F) main_arg4 main_v13 main_v16
-- ==== Kernel.lean ====
abbrev S1x16x2048x64 : Shape := ⟨4, ![1, 16, 2048, 64]⟩
abbrev S1x16x2048x1 : Shape := ⟨4, ![1, 16, 2048, 1]⟩
abbrev S16x2048x64 : Shape := ⟨3, ![16, 2048, 64]⟩
abbrev S16x2048x1 : Shape := ⟨3, ![16, 2048, 1]⟩
abbrev S1x256x64 : Shape := ⟨3, ![1, 256, 64]⟩
abbrev S1x256x1 : Shape := ⟨3, ![1, 256, 1]⟩
abbrev S256x64 : Shape := ⟨2, ![256, 64]⟩
abbrev S256x1 : Shape := ⟨2, ![256, 1]⟩
abbrev S256 : Shape := ⟨1, ![256]⟩
abbrev S64x256 : Shape := ⟨2, ![64, 256]⟩
abbrev S256x256 : Shape := ⟨2, ![256, 256]⟩

abbrev nBuf : Space → Nat
  | .hbm => 12
  | .vmem => 14
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x1, .f32⟩
  | .hbm, ⟨4, _⟩ => ⟨S1x16x2048x1, .f32⟩
  | .hbm, ⟨5, _⟩ => ⟨S16x2048x64, .f32⟩
  | .hbm, ⟨6, _⟩ => ⟨S16x2048x64, .f32⟩
  | .hbm, ⟨7, _⟩ => ⟨S16x2048x64, .f32⟩
  | .hbm, ⟨8, _⟩ => ⟨S16x2048x1, .f32⟩
  | .hbm, ⟨9, _⟩ => ⟨S16x2048x1, .f32⟩
  | .hbm, ⟨10, _⟩ => ⟨S16x2048x64, .f32⟩
  | .hbm, ⟨11, _⟩ => ⟨S1x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x1, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S1x256x64, .f32⟩
  | .local _ .vmem, ⟨11, _⟩ => ⟨S1x256x64, .f32⟩
  | .local _ .vmem, ⟨12, _⟩ => ⟨S256x64, .f32⟩
  | .local _ .vmem, ⟨13, _⟩ => ⟨S256x1, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S1x16x2048x64_S16x2048x64 : S1x16x2048x64.ShapeCasts S16x2048x64
  shapeCasts_S1x16x2048x1_S16x2048x1 : S1x16x2048x1.ShapeCasts S16x2048x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  reduces_S256x64_S256 : S256x64.Reduces [1] S256
  shapeCasts_S256_S256x1 : S256.ShapeCasts S256x1
  broadcasts_S256x1_S256x64 : S256x1.Broadcasts S256x64
  bitsLt_bf16_f32 : FTy.bits .bf16 < FTy.bits .f32
  transposes_S256x64_p1_0_S64x256 : S256x64.Transposes [1, 0] S64x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x256 : S256x1.Broadcasts S256x256
  iota_S256x256_d0_w32 : S256x256.Iotas .tc 32 [0]
  iota_S256x256_d1_w32 : S256x256.Iotas .tc 32 [1]
  reduces_S256x256_S256 : S256x256.Reduces [1] S256
  shapeCasts_S256x64_S1x256x64 : S256x64.ShapeCasts S1x256x64
  bcast_S16x2048x64_S1x16x2048x64_1_2_3 : S16x2048x64.BroadcastsInDim S1x16x2048x64 (![1, 2, 3] : Fin 3 → Fin S1x16x2048x64.rank)
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S16x2048x64.size a
  hwx0_1 : ∀ i : grid0.Coords, EltTy.bits .f32 = 32 ∨ (Rect.block (s := S16x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x64.size a ≤ S16x2048x64.size a
  hwx0_2 : ∀ i : grid0.Coords, EltTy.bits .f32 = 32 ∨ (Rect.block (s := S16x2048x64) S1x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S16x2048x1.size a
  hwx0_3 : ∀ i : grid0.Coords, EltTy.bits .f32 = 32 ∨ (Rect.block (s := S16x2048x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S16x2048x1.size a
  hwx0_4 : ∀ i : grid0.Coords, EltTy.bits .f32 = 32 ∨ (Rect.block (s := S16x2048x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S16x2048x64.size a
  hwx0_5 : ∀ i : grid0.Coords, EltTy.bits .f32 = 32 ∨ (Rect.block (s := S16x2048x64) S1x256x64.size (cc0_transform_5 i) (hinb0_5 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S1x16x2048x64 : Shape := ⟨4, ![1, 16, 2048, 64]⟩
abbrev S1x16x2048x1 : Shape := ⟨4, ![1, 16, 2048, 1]⟩
abbrev S_ : Shape := ⟨0, ![]⟩
abbrev S1x16x2048 : Shape := ⟨3, ![1, 16, 2048]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩

abbrev nBuf : Space → Nat
  | .hbm => 107
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x1, .f32⟩
  | .hbm, ⟨4, _⟩ => ⟨S1x16x2048x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x16x2048x64, .f32⟩
  | .hbm, ⟨9, _⟩ => ⟨S_, .f32⟩
  | .hbm, ⟨10, _⟩ => ⟨S1x16x2048, .f32⟩
  | .hbm, ⟨11, _⟩ => ⟨S1x16x2048x1, .f32⟩
  | .hbm, ⟨12, _⟩ => ⟨S1x16x2048x1, .f32⟩
  | .hbm, ⟨13, _⟩ => ⟨S_, .f32⟩
  | .hbm, ⟨14, _⟩ => ⟨S1x16x2048x1, .f32⟩
  | .hbm, ⟨15, _⟩ => ⟨S1x16x2048x1, .f32⟩
  | .hbm, ⟨16, _⟩ => ⟨S1x16x2048x64, .f32⟩
  | .hbm, ⟨17, _⟩ => ⟨S1x16x2048x64, .f32⟩
  | .hbm, ⟨18, _⟩ => ⟨S1x16x2048x2048, .f32⟩
  | .hbm, ⟨19, _⟩ => ⟨S1x16x2048x2048, .f32⟩
  | .hbm, ⟨20, _⟩ => ⟨S1x16x2048x2048, .f32⟩
  | .hbm, ⟨21, _⟩ => ⟨S1x16x2048x2048, .f32⟩
  | .hbm, ⟨22, _⟩ => ⟨S1x16x2048x2048, .f32⟩
  | .hbm, ⟨23, _⟩ => ⟨S_, .f32⟩
  | .hbm, ⟨24, _⟩ => ⟨S1x16x2048x2048, .f32⟩
  | .hbm, ⟨25, _⟩ => ⟨S1x16x2048x2048, .i1⟩
  | .hbm, ⟨26, _⟩ => ⟨S_, .f32⟩
  | .hbm, ⟨27, _⟩ => ⟨S_, .f32⟩
  | .hbm, ⟨28, _⟩ => ⟨S1x16x2048x2048, .f32⟩
  | .hbm, ⟨29, _⟩ => ⟨S1x16x2048x2048, .f32⟩
  | .hbm, ⟨30, _⟩ => ⟨S_, .f32⟩
  | .hbm, ⟨31, _⟩ => ⟨S1x16x2048x2048, .f32⟩
  | .hbm, ⟨32, _⟩ => ⟨S1x16x2048x2048, .f32⟩
  | .hbm, ⟨33, _⟩ => ⟨S1x16x2048x2048, .f32⟩
  | .hbm, ⟨34, _⟩ => ⟨S_, .f32⟩
  | .hbm, ⟨35, _⟩ => ⟨S1x16x2048x2048, .f32⟩
  | .hbm, ⟨36, _⟩ => ⟨S1x16x2048x2048, .f32⟩
  | .hbm, ⟨37, _⟩ => ⟨S_, .f32⟩
  | .hbm, ⟨38, _⟩ => ⟨S1x16x2048x2048, .f32⟩
  | .hbm, ⟨39, _⟩ => ⟨S1x16x2048x2048, .f32⟩
  | .hbm, ⟨40, _⟩ => ⟨S_, .f32⟩
  | .hbm, ⟨41, _⟩ => ⟨S1x16x2048x2048, .f32⟩
  | .hbm, ⟨42, _⟩ => ⟨S1x16x2048x2048, .f32⟩
  | .hbm, ⟨43, _⟩ => ⟨S_, .f32⟩
  | .hbm, ⟨44, _⟩ => ⟨S_, .f32⟩
  | .hbm, ⟨45, _⟩ => ⟨S1x16x2048x2048, .f32⟩
  | .hbm, ⟨46, _⟩ => ⟨S1x16x2048x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x16x2048x2048, .i1⟩
  | .hbm, ⟨51, _⟩ => ⟨S_, .f32⟩
  | .hbm, ⟨52, _⟩ => ⟨S1x16x2048x2048, .f32⟩
  | .hbm, ⟨53, _⟩ => ⟨S1x16x2048x2048, .f32⟩
  | .hbm, ⟨54, _⟩ => ⟨S_, .f32⟩
  | .hbm, ⟨55, _⟩ => ⟨S1x16x2048x2048, .f32⟩
  | .hbm, ⟨56, _⟩ => ⟨S1x16x2048x2048, .i1⟩
  | .hbm, ⟨57, _⟩ => ⟨S_, .f32⟩
  | .hbm, ⟨58, _⟩ => ⟨S1x16x2048x2048, .f32⟩
  | .hbm, ⟨59, _⟩ => ⟨S1x16x2048x2048, .f32⟩
  | .hbm, ⟨60, _⟩ => ⟨S_, .f32⟩
  | .hbm, ⟨61, _⟩ => ⟨S1x16x2048x2048, .f32⟩
  | .hbm, ⟨62, _⟩ => ⟨S1x16x2048x2048, .i1⟩
  | .hbm, ⟨63, _⟩ => ⟨S_, .f32⟩
  | .hbm, ⟨64, _⟩ => ⟨S1x16x2048x2048, .f32⟩
  | .hbm, ⟨65, _⟩ => ⟨S1x16x2048x2048, .f32⟩
  | .hbm, ⟨66, _⟩ => ⟨S1x16x2048x2048, .f32⟩
  | .hbm, ⟨67, _⟩ => ⟨S1x16x2048x2048, .f32⟩
  | .hbm, ⟨68, _⟩ => ⟨S_, .i1⟩
  | .hbm, ⟨69, _⟩ => ⟨S2048x2048, .i1⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i32⟩
  | .hbm, ⟨74, _⟩ => ⟨S2048x2048, .i32⟩
  | .hbm, ⟨75, _⟩ => ⟨S2048x2048, .i1⟩
  | .hbm, ⟨76, _⟩ => ⟨S_, .i1⟩
  | .hbm, ⟨77, _⟩ => ⟨S2048x2048, .i1⟩
  | .hbm, ⟨78, _⟩ => ⟨S2048x2048, .i1⟩
  | .hbm, ⟨79, _⟩ => ⟨S1x1x2048x2048, .i1⟩
  | .hbm, ⟨80, _⟩ => ⟨S_, .f32⟩
  | .hbm, ⟨81, _⟩ => ⟨S_, .f32⟩
  | .hbm, ⟨82, _⟩ => ⟨S1x16x2048x2048, .i1⟩
  | .hbm, ⟨83, _⟩ => ⟨S1x16x2048x2048, .f32⟩
  | .hbm, ⟨84, _⟩ => ⟨S1x16x2048x2048, .f32⟩
  | .hbm, ⟨85, _⟩ => ⟨S_, .f32⟩
  | .hbm, ⟨86, _⟩ => ⟨S1x16x2048x2048, .f32⟩
  | .hbm, ⟨87, _⟩ => ⟨S1x16x2048x2048, .f32⟩
  | .hbm, ⟨88, _⟩ => ⟨S1x16x2048x2048, .f32⟩
  | .hbm, ⟨89, _⟩ => ⟨S_, .f32⟩
  | .hbm, ⟨90, _⟩ => ⟨S1x16x2048, .f32⟩
  | .hbm, ⟨91, _⟩ => ⟨S1x16x2048x1, .f32⟩
  | .hbm, ⟨92, _⟩ => ⟨S_, .f32⟩
  | .hbm, ⟨93, _⟩ => ⟨S1x16x2048x1, .f32⟩
  | .hbm, ⟨94, _⟩ => ⟨S1x16x2048x1, .f32⟩
  | .hbm, ⟨95, _⟩ => ⟨S1x16x2048x1, .f32⟩
  | .hbm, ⟨96, _⟩ => ⟨S_, .f32⟩
  | .hbm, ⟨97, _⟩ => ⟨S1x16x2048x1, .f32⟩
  | .hbm, ⟨98, _⟩ => ⟨S1x16x2048x1, .f32⟩
  | .hbm, ⟨99, _⟩ => ⟨S1x16x2048x2048, .f32⟩
  | .hbm, ⟨100, _⟩ => ⟨S1x16x2048x2048, .f32⟩
  | .hbm, ⟨101, _⟩ => ⟨S_, .f32⟩
  | .hbm, ⟨102, _⟩ => ⟨S_, .f32⟩
  | .hbm, ⟨103, _⟩ => ⟨S1x16x2048x2048, .i1⟩
  | .hbm, ⟨104, _⟩ => ⟨S1x16x2048x2048, .f32⟩
  | .hbm, ⟨105, _⟩ => ⟨S1x16x2048x2048, .f32⟩
  | .hbm, ⟨106, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_cst_7 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v23 : Ref sig .tc := ⟨.hbm, 46, rfl⟩
abbrev main_cst_9 : Ref sig .tc := ⟨.hbm, 47, rfl⟩
abbrev main_cst_10 : Ref sig .tc := ⟨.hbm, 48, rfl⟩
abbrev main_cst_11 : Ref sig .tc := ⟨.hbm, 49, rfl⟩
abbrev main_call3_v0 : Ref sig .tc := ⟨.hbm, 50, rfl⟩
abbrev main_call3_v1 : Ref sig .tc := ⟨.hbm, 51, rfl⟩
abbrev main_call3_call0_v0 : Ref sig .tc := ⟨.hbm, 52, rfl⟩
abbrev main_call3_v2 : Ref sig .tc := ⟨.hbm, 53, rfl⟩
abbrev main_call3_cst : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_call1_v0 : Ref sig .tc := ⟨.hbm, 58, rfl⟩
abbrev main_call3_v6 : Ref sig .tc := ⟨.hbm, 59, rfl⟩
abbrev main_call3_cst_0 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_call2_v0 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c : Ref sig .tc := ⟨.hbm, 68, rfl⟩
abbrev main_v27 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_c_0 : Ref sig .tc := ⟨.hbm, 76, rfl⟩
abbrev main_call4_v5 : Ref sig .tc := ⟨.hbm, 77, rfl⟩
abbrev main_v28 : Ref sig .tc := ⟨.hbm, 78, rfl⟩
abbrev main_v29 : Ref sig .tc := ⟨.hbm, 79, rfl⟩
abbrev main_cst_12 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_v30 : Ref sig .tc := ⟨.hbm, 84, rfl⟩
abbrev main_cst_13 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_14 : Ref sig .tc := ⟨.hbm, 89, rfl⟩
abbrev main_v34 : Ref sig .tc := ⟨.hbm, 90, rfl⟩
abbrev main_v35 : Ref sig .tc := ⟨.hbm, 91, rfl⟩
abbrev main_cst_15 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_16 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_cst_17 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v43 : Ref sig .tc := ⟨.hbm, 105, rfl⟩
abbrev main_v44 : Ref sig .tc := ⟨.hbm, 106, rfl⟩

abbrev nD : Nat := 1
abbrev τ : Topo := Topo.v7x

variable {F : FTy → Type} [FloatOps F]

class Facts₀ : Prop where
  reducesTo_S1x16x2048x64_S1x16x2048_d3 : S1x16x2048x64.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x64_0_1_2_3 : S1x16x2048x1.BroadcastsInDim S1x16x2048x64 (![0, 1, 2, 3] : Fin 4 → Fin S1x16x2048x64.rank)
  bcast_S1x16x2048x1_S1x16x2048x2048_0_1_2_3 : S1x16x2048x1.BroadcastsInDim S1x16x2048x2048 (![0, 1, 2, 3] : Fin 4 → Fin S1x16x2048x2048.rank)
  bcast_S_S1x16x2048x2048 : S_.BroadcastsInDim S1x16x2048x2048 (![] : Fin 0 → Fin S1x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S1x16x2048x2048_0_1_2_3 : S1x1x2048x2048.BroadcastsInDim S1x16x2048x2048 (![0, 1, 2, 3] : Fin 4 → Fin S1x16x2048x2048.rank)
  reducesTo_S1x16x2048x2048_S1x16x2048_d3 : S1x16x2048x2048.ReducesTo [3] S1x16x2048
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.KState.lean ====
/-
  The attention kernel's state between grid points.  The grid is (head, query block, key block) = 16 x 8 x 8,
  walked with the key block fastest: point n is head n / 64, query block (n / 8) % 8, key block n % 8.
  The kernel carries two scratch arrays from point to point: the running product of rates with values
  (256 x 64) and the running row sums of squared rates (256 x 1).  At key block 0 both are reset to zero;
  at a key block not past the query block (the causal condition) the point's contribution is added;
  at the last key block the quotient of the two is stored to the output block.
-/
import proofs.«123989_j65085934403863_1_alg».proof.Proof.Gen.Kernel.Skeleton
import proofs.«123989_j65085934403863_1_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-! ## The three branch conditions, as the body computes them, and in closed form over the points -/

/-- key block = 0 (the reset). -/
abbrev cond1 (i : grid0.Coords) : Prop :=
  (Scalar.cmpi .ne (Scalar.extui (Scalar.cmpi .eq (BitVec.ofNat 32 (i 2).val) 0#32)) 0#32) = 1#1
/-- key block ≤ query block (the causal condition: the block holds some key not after some query). -/
abbrev cond2 (i : grid0.Coords) : Prop :=
  (Scalar.cmpi .ne (Scalar.extui (Scalar.cmpi .sle (BitVec.ofNat 32 (i 2).val) (BitVec.ofNat 32 (i 1).val))) 0#32) = 1#1
/-- key block = 7 (the last: the output block is stored). -/
abbrev cond3 (i : grid0.Coords) : Prop := k0_cond3 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 ≤ (t.val / 8) % 8 :=
  (by decide +kernel : ∀ t : Fin grid0.N, cond2 (grid0.coords t) ↔ t.val % 8 ≤ (t.val / 8) % 8)
theorem hcond3 : ∀ t : Fin cfg0.N, cond3 (grid0.coords t) ↔ t.val % 8 = 7 :=
  (by decide +kernel : ∀ t : Fin grid0.N, cond3 (grid0.coords t) ↔ t.val % 8 = 7)

/-! ## One point's effect on the carried pair -/

/-- The carried pair after the reset: both arrays zero. -/
def zeroScr : Vec F S256x64 .f32 × Vec F S256x1 .f32 := (k0_pay1, k0_pay2)

/-- The contribution of one (query block, key block) pair added to the carried pair `s`: `x0` the query block,
    `x1` the key block, `x2` the value block, `x3` / `x4` the query rows' gain and bias. -/
def stepScr (i : grid0.Coords) (x0 x1 x2 : Vec F S1x256x64 .f32) (x3 x4 : Vec F S1x256x1 .f32)
    (s : Vec F S256x64 .f32 × Vec F S256x1 .f32) : Vec F S256x64 .f32 × Vec F S256x1 .f32 :=
  (k0_pay10 (BitVec.ofNat 32 (i 1).val) (BitVec.ofNat 32 (i 2).val) (k0_pay5 x2) (k0_pay7 x0 x1 x3 x4) (k0_pay8 x0 x1 x3 x4) s.1,
   k0_pay3 (k0_pay11 (BitVec.ofNat 32 (i 1).val) (BitVec.ofNat 32 (i 2).val) (k0_pay7 x0 x1 x3 x4) (k0_pay8 x0 x1 x3 x4) s.2))

/-- The carried pair after the body at point `n`, from the pair `s` before it: reset at key block 0, then the
    contribution added under the causal condition. -/
def bodyScr (n : ℕ) (i : grid0.Coords) (x0 x1 x2 : Vec F S1x256x64 .f32) (x3 x4 : Vec F S1x256x1 .f32)
    (s : Vec F S256x64 .f32 × Vec F S256x1 .f32) : Vec F S256x64 .f32 × Vec F S256x1 .f32 :=
  if n % 8 ≤ (n / 8) % 8 then stepScr i x0 x1 x2 x3 x4 (if n % 8 = 0 then zeroScr else s)
  else (if n % 8 = 0 then zeroScr else s)

/-- The output block stored at the last key block: the running product over the normaliser of the running sum. -/
def outOf (s : Vec F S256x64 .f32 × Vec F S256x1 .f32) : Vec F S1x256x64 .f32 := k0_pay4 s.2 s.1

/-! ## The carried pair after every point -/

/-- The carried pair after the body at point `n`, by recursion on the point, over the blocks the windows hold there. -/
def scrAt (c : Dev nD) : (n : ℕ) → n < cfg0.N → Vec F S256x64 .f32 × Vec F S256x1 .f32
  | 0, hn => bodyScr 0 (grid0.coords ⟨0, hn⟩) (iblk m c 0 ⟨0, hn⟩) (iblk m c 1 ⟨0, hn⟩) (iblk m c 2 ⟨0, hn⟩) (iblk m c 3 ⟨0, hn⟩) (iblk m c 4 ⟨0, hn⟩) zeroScr
  | n + 1, hn => bodyScr (n + 1) (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩)
      (scrAt c n (Nat.lt_of_succ_lt hn))

theorem scrAt_zero (c : Dev nD) (hn : 0 < cfg0.N) :
    scrAt m c 0 hn = bodyScr 0 (grid0.coords ⟨0, hn⟩) (iblk m c 0 ⟨0, hn⟩) (iblk m c 1 ⟨0, hn⟩) (iblk m c 2 ⟨0, hn⟩) (iblk m c 3 ⟨0, hn⟩) (iblk m c 4 ⟨0, hn⟩) zeroScr := rfl

theorem scrAt_succ (c : Dev nD) (n : ℕ) (hn : n + 1 < cfg0.N) :
    scrAt m c (n + 1) hn = bodyScr (n + 1) (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩)
      (scrAt m c n (Nat.lt_of_succ_lt hn)) := rfl

/-- At any point: the body's effect on what the point before left (at point 0 on anything: the reset discards it). -/
theorem scrAt_eq (c : Dev nD) (t : Fin cfg0.N) (s0 : Vec F S256x64 .f32 × Vec F S256x1 .f32) :
    scrAt m c t.val t.isLt = bodyScr t.val (grid0.coords t) (iblk m c 0 t) (iblk m c 1 t) (iblk m c 2 t) (iblk m c 3 t) (iblk m c 4 t)
      (if h : t.val = 0 then s0 else scrAt m c (t.val - 1) (by omega)) := by
  obtain ⟨n, hn⟩ := t
  cases n with
  | zero => simp only [scrAt_zero, bodyScr, Nat.zero_mod, if_true, dite_true]
  | succ n => simp only [scrAt_succ, Nat.add_sub_cancel, Nat.succ_ne_zero, dite_false]

/-- What output window 5's staging buffer is said to hold after point `t` (consulted only at the last key block,
    where it is stored and written back). -/
def outAt (c : Dev nD) (t : Fin cfg0.N) : Vec F S1x256x64 .f32 := outOf (scrAt m c t.val t.isLt)

end Cert.Kernel.Hand

end
-- ==== Proof.KRuns.lean ====
/-
  The attention kernel's body run once, at a point of either kind: on whole staging buffers holding the point's
  query, key, value, gain and bias blocks and on the two carried scratch arrays at a pair `s`, it ends with the
  inputs as they were and the scratch arrays at `bodyScr` of the pair; where the key block is the last it also
  leaves the output buffer at the quotient `outOf` of the new pair, elsewhere the output buffer is not touched.
-/
import proofs.«123989_j65085934403863_1_alg».proof.Proof.KState
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two scratch operands, whole scoped buffers of the kernel's own. -/
abbrev scM0 : Memref sig .tc .vmem S256x64 .f32 := Memref.whole cc0_scratch0
abbrev scM1 : Memref sig .tc .vmem S256x1 .f32 := Memref.whole cc0_scratch1

/-- The zero offsets of a whole-buffer access, as a constant function (rank 2 and rank 3). -/
theorem runs_hz2 : (![0, 0] : Fin 2 → Nat) = fun _ => 0 := funext fun a => by fin_cases a <;> rfl
theorem runs_hz3 : (![0, 0, 0] : Fin 3 → Nat) = fun _ => 0 := funext fun a => by fin_cases a <;> rfl

/-! ## The body, one run per way its three conditions fall

Every access is of a whole buffer, so a load reads the buffer's contents and a store leaves its payload; a load
after a store reads that payload back.  Each case states what the buffers hold at the end over the payloads. -/

set_option maxHeartbeats 1000000 in
/-- Key block 0, not the last: both arrays are reset and the point's contribution added to the zero pair; the output buffer is not touched. -/
theorem run_reset_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i) (hc2 : cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (stepScr i x0 x1 x2 x3 x4 zeroScr).1 ∗ owns (c : Thread nD τ) scM1 fullShare (stepScr i x0 x1 x2 x3 x4 zeroScr).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- A later key block not past the query block, not the last: the contribution is added to the carried pair; the output buffer is not touched. -/
theorem run_step_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (stepScr i x0 x1 x2 x3 x4 s).1 ∗ owns (c : Thread nD τ) scM1 fullShare (stepScr i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- A key block past the query block, not the last: nothing is stored; every buffer is handed back as found. -/
theorem run_skip_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : ¬cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare s.1 ∗ owns (c : Thread nD τ) scM1 fullShare s.2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr; · ipureintro; exact hfs0
    iexact HS0
  · iexists _; isplitr; · ipureintro; exact hfs1
    iexact HS1

set_option maxHeartbeats 1000000 in
/-- Key block 0 that is also the last: reset, contribution, and the quotient of the new pair stored to the output buffer. -/
theorem run_reset_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i) (hc2 : cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf (stepScr i x0 x1 x2 x3 x4 zeroScr))
            ∗ owns (c : Thread nD τ) scM0 fullShare (stepScr i x0 x1 x2 x3 x4 zeroScr).1 ∗ owns (c : Thread nD τ) scM1 fullShare (stepScr i x0 x1 x2 x3 x4 zeroScr).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- The last key block, not past the query block: the contribution is added, then the quotient of the new pair is stored to the output buffer. -/
theorem run_step_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf (stepScr i x0 x1 x2 x3 x4 s))
            ∗ owns (c : Thread nD τ) scM0 fullShare (stepScr i x0 x1 x2 x3 x4 s).1 ∗ owns (c : Thread nD τ) scM1 fullShare (stepScr i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- The last key block, past the query block: the carried pair is left as found and its quotient is stored to the output buffer. -/
theorem run_skip_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : ¬cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf s)
            ∗ owns (c : Thread nD τ) scM0 fullShare s.1 ∗ owns (c : Thread nD τ) scM1 fullShare s.2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr; · ipureintro; exact hfs0
    iexact HS0
  · iexists _; isplitr; · ipureintro; exact hfs1
    iexact HS1

/-! ## The two kinds of point

The point's number decides the first two conditions; a reset point always meets the causal condition
(key block 0 is never past the query block). -/

/-- A point whose key block is not the last: the output buffer is handed back as found. -/
theorem run_idle (c : Dev nD) (n : ℕ) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i ↔ n % 8 = 0) (hc2 : cond2 i ↔ n % 8 ≤ (n / 8) % 8) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (bodyScr n i x0 x1 x2 x3 x4 s).1 ∗ owns (c : Thread nD τ) scM1 fullShare (bodyScr n i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  by_cases h0 : n % 8 = 0
  · have h1 : n % 8 ≤ (n / 8) % 8 := by omega
    have e : bodyScr n i x0 x1 x2 x3 x4 s = stepScr i x0 x1 x2 x3 x4 zeroScr := by
      simp only [bodyScr, if_pos h1, if_pos h0]
    rw [e]
    exact run_reset_idle c i a3 h3 a4 h4 a5 h5 a6 h6 a7 h7 a8 h8 (hc1.mpr h0) (hc2.mpr h1) hc3 x0 x1 x2 x3 x4 s E K
  · by_cases h1 : n % 8 ≤ (n / 8) % 8
    · have e : bodyScr n i x0 x1 x2 x3 x4 s = stepScr i x0 x1 x2 x3 x4 s := by
        simp only [bodyScr, if_pos h1, if_neg h0]
      rw [e]
      exact run_step_idle c i a3 h3 a4 h4 a5 h5 a6 h6 a7 h7 a8 h8 (fun h => h0 (hc1.mp h)) (hc2.mpr h1) hc3 x0 x1 x2 x3 x4 s E K
    · have e : bodyScr n i x0 x1 x2 x3 x4 s = s := by
        simp only [bodyScr, if_neg h1, if_neg h0]
      rw [e]
      exact run_skip_idle c i a3 h3 a4 h4 a5 h5 a6 h6 a7 h7 a8 h8 (fun h => h0 (hc1.mp h)) (fun h => h1 (hc2.mp h)) hc3 x0 x1 x2 x3 x4 s E K

/-- A point whose key block is the last: the output buffer ends at the quotient of the new carried pair. -/
theorem run_flush (c : Dev nD) (n : ℕ) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i ↔ n % 8 = 0) (hc2 : cond2 i ↔ n % 8 ≤ (n / 8) % 8) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a8 fullShare (outOf (bodyScr n i x0 x1 x2 x3 x4 s))
            ∗ owns (c : Thread nD τ) scM0 fullShare (bodyScr n i x0 x1 x2 x3 x4 s).1 ∗ owns (c : Thread nD τ) scM1 fullShare (bodyScr n i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  by_cases h0 : n % 8 = 0
  · have h1 : n % 8 ≤ (n / 8) % 8 := by omega
    have e : bodyScr n i x0 x1 x2 x3 x4 s = stepScr i x0 x1 x2 x3 x4 zeroScr := by
      simp only [bodyScr, if_pos h1, if_pos h0]
    rw [e]
    exact run_reset_flush c i a3 h3 a4 h4 a5 h5 a6 h6 a7 h7 a8 h8 (hc1.mpr h0) (hc2.mpr h1) hc3 x0 x1 x2 x3 x4 s E K
  · by_cases h1 : n % 8 ≤ (n / 8) % 8
    · have e : bodyScr n i x0 x1 x2 x3 x4 s = stepScr i x0 x1 x2 x3 x4 s := by
        simp only [bodyScr, if_pos h1, if_neg h0]
      rw [e]
      exact run_step_flush c i a3 h3 a4 h4 a5 h5 a6 h6 a7 h7 a8 h8 (fun h => h0 (hc1.mp h)) (hc2.mpr h1) hc3 x0 x1 x2 x3 x4 s E K
    · have e : bodyScr n i x0 x1 x2 x3 x4 s = s := by
        simp only [bodyScr, if_neg h1, if_neg h0]
      rw [e]
      exact run_skip_flush c i a3 h3 a4 h4 a5 h5 a6 h6 a7 h7 a8 h8 (fun h => h0 (hc1.mp h)) (fun h => h1 (hc2.mp h)) hc3 x0 x1 x2 x3 x4 s E K

end Cert.Kernel.Hand

end
-- ==== Proof.KFrame.lean ====
/-
  The attention kernel's frame: the pipeline's proof data, the body obligation at every grid point, and the run.
  Before the first point the two carried scratch arrays hold anything; after point n they hold the pair
  `scrAt m c n`.  Each input window's staging buffer holds its block at every point.  The output window's
  staging buffer is stored only at the last key block of a (head, query block), where it receives the quotient
  of the carried pair and is written back; at every other point it is handed back as found.
-/
import proofs.«123989_j65085934403863_1_alg».proof.Proof.KRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last key block the output window is idle: nothing is stored into it, -/
theorem idleAt0_5 : ∀ t : Fin cfg0.N, ¬cond3 (grid0.coords t) → cfg0.idle 5 (grid0.coords t) = true := by decide +kernel
/-- and its block is not written back. -/
theorem noFlush0_5 : ∀ t : Fin cfg0.N, ¬cond3 (grid0.coords t) → (cfg0.win 5).flush t = false := by decide +kernel
/-- At the last key block it is live. -/
theorem liveAt0_5 : ∀ t : Fin cfg0.N, cond3 (grid0.coords t) → cfg0.idle 5 (grid0.coords t) = false := by decide +kernel

/-! ## The staging memrefs at a point, and the invariant the launch hands over -/

/-- Each window's current staging memref at point `t`, spelled as the pipeline passes it, and its wholeness. -/
abbrev ms0_0 (t : Fin cfg0.N) : Memref sig .tc .vmem S1x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x64 .f32 := win0_5.stage (cfg0.slots t 5)
abbrev hs0_5 (t : Fin cfg0.N) : (ms0_5 t).IsWhole := hstage0_5 ((cfg0.slots t 5).cast nbuf0_5)

/-- The invariant the launch hands the region, with the two scratch arrays as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The invariant between points -/

/-- The region invariant before position `n`: before the first point whatever the launch hands over (each scratch
    array at anything); afterwards the two scratch arrays at the pair the point before left, and the generator
    register at some state. -/
def PhiS (c : Dev nD) : (n : ℕ) → n ≤ cfg0.N → sProp 𝕄
  | 0, _ => Pipeline.ΦA spec0 c
  | n + 1, hn => iprop(iprop(owns (c : Thread nD τ) scM0 fullShare (scrAt m c n hn).1 ∗ owns (c : Thread nD τ) scM1 fullShare (scrAt m c n hn).2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried pair at that point's contents. -/
theorem PhiS_succ (c : Dev nD) (n : ℕ) (hn : n < cfg0.N) :
    PhiS m c (n + 1) hn = iprop(iprop(owns (c : Thread nD τ) scM0 fullShare (scrAt m c n hn).1 ∗ owns (c : Thread nD τ) scM1 fullShare (scrAt m c n hn).2) ∗ (∃ r, prngReg c r)) := rfl

/-- Before a point that is not the first: the carried pair at what the point before left. -/
theorem PhiS_pos (c : Dev nD) (n : ℕ) (h : n ≤ cfg0.N) (hz : n ≠ 0) :
    PhiS m c n h = iprop(iprop(owns (c : Thread nD τ) scM0 fullShare (scrAt m c (n - 1) (by omega)).1 ∗ owns (c : Thread nD τ) scM1 fullShare (scrAt m c (n - 1) (by omega)).2) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the quotient of the carried pair; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window's current staging buffer holds, when the body runs, whatever a buffer nothing has filled
    holds: the window is stored exactly at the points that write it back (the last key blocks), so no named
    contents ever pass from one point to a later one. -/
theorem before0_5 (c : Dev nD) (t : Fin cfg0.N) (d) : (dats m 0 c).before 5 t d = d := by
  obtain ⟨n, hn⟩ := t
  induction n with
  | zero => exact (dats m 0 c).before_out_reset 5 rfl ⟨0, hn⟩ (.inl rfl) d
  | succ n ih =>
    by_cases hfl : (cfg0.win 5).flush ⟨n, Nat.lt_of_succ_lt hn⟩ = true
    · exact (dats m 0 c).before_out_reset 5 rfl ⟨n + 1, hn⟩ (.inr ⟨Nat.succ_ne_zero n, hfl⟩) d
    · have hfl' := Bool.eq_false_iff.mpr hfl
      have hnc : ¬cond3 (grid0.coords ⟨n, Nat.lt_of_succ_lt hn⟩) := fun h =>
        hfl ((flush0_5 ⟨n, Nat.lt_of_succ_lt hn⟩).mpr ((hcond3 ⟨n, Nat.lt_of_succ_lt hn⟩).mp h))
      have key := (dats m 0 c).before_of_pos 5 ⟨n + 1, hn⟩ (Nat.succ_ne_zero n) ((cfg0.win 5).fetch_out rfl _) d
      simp only [Nat.add_sub_cancel] at key
      rw [key, hfl', if_neg Bool.false_ne_true]
      unfold Dat.left
      rw [idleAt0_5 ⟨n, Nat.lt_of_succ_lt hn⟩ hnc]
      exact ih (Nat.lt_of_succ_lt hn)

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' memrefs hold their blocks; the invariant hands the body the carried pair at
    what the point before left (at anything at the first point, where the reset discards it) and takes it back at
    this point's pair; at the last key block the output buffer ends at the quotient of the new pair, elsewhere it
    is handed back as found; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h3 : t.val % 8 = 7
  · rw [show (dats m 0 c).leavesExact 5 t = owns (c : Thread nD τ) (ms0_5 t) fullShare ((dats m 0 c).after 5 t) from by
      unfold Dat.leavesExact; rw [liveAt0_5 t ((hcond3 t).mpr h3)], after0_5]
    simp only [before0_0, before0_1, before0_2, before0_3, before0_4, before0_5]
    unfold outAt
    by_cases hz : t.val = 0
    · exfalso; omega
    · rw [PhiS_castSucc m c t, PhiS_pos m c _ _ hz]
      rw [scrAt_eq m c t zeroScr, dif_neg hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_flush c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) ((hcond3 t).mpr h3) (iblk m c 0 t) (iblk m c 1 t) (iblk m c 2 t) (iblk m c 3 t) (iblk m c 4 t) (scrAt m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc3 : ¬cond3 (grid0.coords t) := fun h => h3 ((hcond3 t).mp h)
    rw [Dat.leavesExact_idle (dats m 0 c) 5 t (idleAt0_5 t hc3) (noFlush0_5 t hc3)]
    simp only [before0_0, before0_1, before0_2, before0_3, before0_4, before0_5]
    by_cases hz : t.val = 0
    · rw [PhiS_castSucc m c t, PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩⟩
      rw [scrAt_eq m c t (e0, e1), dif_pos hz]
      iapply (run_idle c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) hc3 (iblk m c 0 t) (iblk m c 1 t) (iblk m c 2 t) (iblk m c 3 t) (iblk m c 4 t) (e0, e1) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [scrAt_eq m c t zeroScr, dif_neg hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_idle c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) hc3 (iblk m c 0 t) (iblk m c 1 t) (iblk m c 2 t) (iblk m c 3 t) (iblk m c 4 t) (scrAt m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the carried pair's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- From any memory with zero counters every weakly fair execution of the program on the TensorCores terminates,
    and every final state has every array of the pipeline at what the library computes from the proof data and
    every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIState.lean ====
/-
  The attention kernel's state between grid points.  The grid is (head, query block, key block) = 16 x 8 x 8,
  walked with the key block fastest: point n is head n / 64, query block (n / 8) % 8, key block n % 8.
  The kernel carries two scratch arrays from point to point: the running product of rates with values
  (256 x 64) and the running row sums of squared rates (256 x 1).  At key block 0 both are reset to zero;
  at a key block not past the query block (the causal condition) the point's contribution is added;
  at the last key block the quotient of the two is stored to the output block.
-/
import proofs.«123989_j65085934403863_1_alg».proof.Proof.Gen.KernelIdeal.Skeleton
import proofs.«123989_j65085934403863_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## The three branch conditions, as the body computes them, and in closed form over the points -/

/-- key block = 0 (the reset). -/
abbrev cond1 (i : grid0.Coords) : Prop :=
  (Scalar.cmpi .ne (Scalar.extui (Scalar.cmpi .eq (BitVec.ofNat 32 (i 2).val) 0#32)) 0#32) = 1#1
/-- key block ≤ query block (the causal condition: the block holds some key not after some query). -/
abbrev cond2 (i : grid0.Coords) : Prop :=
  (Scalar.cmpi .ne (Scalar.extui (Scalar.cmpi .sle (BitVec.ofNat 32 (i 2).val) (BitVec.ofNat 32 (i 1).val))) 0#32) = 1#1
/-- key block = 7 (the last: the output block is stored). -/
abbrev cond3 (i : grid0.Coords) : Prop := k0_cond3 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 ≤ (t.val / 8) % 8 :=
  (by decide +kernel : ∀ t : Fin grid0.N, cond2 (grid0.coords t) ↔ t.val % 8 ≤ (t.val / 8) % 8)
theorem hcond3 : ∀ t : Fin cfg0.N, cond3 (grid0.coords t) ↔ t.val % 8 = 7 :=
  (by decide +kernel : ∀ t : Fin grid0.N, cond3 (grid0.coords t) ↔ t.val % 8 = 7)

/-! ## One point's effect on the carried pair -/

/-- The carried pair after the reset: both arrays zero. -/
def zeroScr : Vec F S256x64 .f32 × Vec F S256x1 .f32 := (k0_pay1, k0_pay2)

/-- The contribution of one (query block, key block) pair added to the carried pair `s`: `x0` the query block,
    `x1` the key block, `x2` the value block, `x3` / `x4` the query rows' gain and bias. -/
def stepScr (i : grid0.Coords) (x0 x1 x2 : Vec F S1x256x64 .f32) (x3 x4 : Vec F S1x256x1 .f32)
    (s : Vec F S256x64 .f32 × Vec F S256x1 .f32) : Vec F S256x64 .f32 × Vec F S256x1 .f32 :=
  (k0_pay10 (BitVec.ofNat 32 (i 1).val) (BitVec.ofNat 32 (i 2).val) (k0_pay5 x2) (k0_pay7 x0 x1 x3 x4) (k0_pay8 x0 x1 x3 x4) s.1,
   k0_pay3 (k0_pay11 (BitVec.ofNat 32 (i 1).val) (BitVec.ofNat 32 (i 2).val) (k0_pay7 x0 x1 x3 x4) (k0_pay8 x0 x1 x3 x4) s.2))

/-- The carried pair after the body at point `n`, from the pair `s` before it: reset at key block 0, then the
    contribution added under the causal condition. -/
def bodyScr (n : ℕ) (i : grid0.Coords) (x0 x1 x2 : Vec F S1x256x64 .f32) (x3 x4 : Vec F S1x256x1 .f32)
    (s : Vec F S256x64 .f32 × Vec F S256x1 .f32) : Vec F S256x64 .f32 × Vec F S256x1 .f32 :=
  if n % 8 ≤ (n / 8) % 8 then stepScr i x0 x1 x2 x3 x4 (if n % 8 = 0 then zeroScr else s)
  else (if n % 8 = 0 then zeroScr else s)

/-- The output block stored at the last key block: the running product over the normaliser of the running sum. -/
def outOf (s : Vec F S256x64 .f32 × Vec F S256x1 .f32) : Vec F S1x256x64 .f32 := k0_pay4 s.2 s.1

/-! ## The carried pair after every point -/

/-- The carried pair after the body at point `n`, by recursion on the point, over the blocks the windows hold there. -/
def scrAt (c : Dev nD) : (n : ℕ) → n < cfg0.N → Vec F S256x64 .f32 × Vec F S256x1 .f32
  | 0, hn => bodyScr 0 (grid0.coords ⟨0, hn⟩) (iblk m c 0 ⟨0, hn⟩) (iblk m c 1 ⟨0, hn⟩) (iblk m c 2 ⟨0, hn⟩) (iblk m c 3 ⟨0, hn⟩) (iblk m c 4 ⟨0, hn⟩) zeroScr
  | n + 1, hn => bodyScr (n + 1) (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩)
      (scrAt c n (Nat.lt_of_succ_lt hn))

theorem scrAt_zero (c : Dev nD) (hn : 0 < cfg0.N) :
    scrAt m c 0 hn = bodyScr 0 (grid0.coords ⟨0, hn⟩) (iblk m c 0 ⟨0, hn⟩) (iblk m c 1 ⟨0, hn⟩) (iblk m c 2 ⟨0, hn⟩) (iblk m c 3 ⟨0, hn⟩) (iblk m c 4 ⟨0, hn⟩) zeroScr := rfl

theorem scrAt_succ (c : Dev nD) (n : ℕ) (hn : n + 1 < cfg0.N) :
    scrAt m c (n + 1) hn = bodyScr (n + 1) (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩)
      (scrAt m c n (Nat.lt_of_succ_lt hn)) := rfl

/-- At any point: the body's effect on what the point before left (at point 0 on anything: the reset discards it). -/
theorem scrAt_eq (c : Dev nD) (t : Fin cfg0.N) (s0 : Vec F S256x64 .f32 × Vec F S256x1 .f32) :
    scrAt m c t.val t.isLt = bodyScr t.val (grid0.coords t) (iblk m c 0 t) (iblk m c 1 t) (iblk m c 2 t) (iblk m c 3 t) (iblk m c 4 t)
      (if h : t.val = 0 then s0 else scrAt m c (t.val - 1) (by omega)) := by
  obtain ⟨n, hn⟩ := t
  cases n with
  | zero => simp only [scrAt_zero, bodyScr, Nat.zero_mod, if_true, dite_true]
  | succ n => simp only [scrAt_succ, Nat.add_sub_cancel, Nat.succ_ne_zero, dite_false]

/-- What output window 5's staging buffer is said to hold after point `t` (consulted only at the last key block,
    where it is stored and written back). -/
def outAt (c : Dev nD) (t : Fin cfg0.N) : Vec F S1x256x64 .f32 := outOf (scrAt m c t.val t.isLt)

end Cert.KernelIdeal.Hand

end
-- ==== Proof.KIRuns.lean ====
/-
  The attention kernel's body run once, at a point of either kind: on whole staging buffers holding the point's
  query, key, value, gain and bias blocks and on the two carried scratch arrays at a pair `s`, it ends with the
  inputs as they were and the scratch arrays at `bodyScr` of the pair; where the key block is the last it also
  leaves the output buffer at the quotient `outOf` of the new pair, elsewhere the output buffer is not touched.
-/
import proofs.«123989_j65085934403863_1_alg».proof.Proof.KIState
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two scratch operands, whole scoped buffers of the kernel's own. -/
abbrev scM0 : Memref sig .tc .vmem S256x64 .f32 := Memref.whole cc0_scratch0
abbrev scM1 : Memref sig .tc .vmem S256x1 .f32 := Memref.whole cc0_scratch1

/-- The zero offsets of a whole-buffer access, as a constant function (rank 2 and rank 3). -/
theorem runs_hz2 : (![0, 0] : Fin 2 → Nat) = fun _ => 0 := funext fun a => by fin_cases a <;> rfl
theorem runs_hz3 : (![0, 0, 0] : Fin 3 → Nat) = fun _ => 0 := funext fun a => by fin_cases a <;> rfl

/-! ## The body, one run per way its three conditions fall

Every access is of a whole buffer, so a load reads the buffer's contents and a store leaves its payload; a load
after a store reads that payload back.  Each case states what the buffers hold at the end over the payloads. -/

set_option maxHeartbeats 1000000 in
/-- Key block 0, not the last: both arrays are reset and the point's contribution added to the zero pair; the output buffer is not touched. -/
theorem run_reset_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i) (hc2 : cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (stepScr i x0 x1 x2 x3 x4 zeroScr).1 ∗ owns (c : Thread nD τ) scM1 fullShare (stepScr i x0 x1 x2 x3 x4 zeroScr).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- A later key block not past the query block, not the last: the contribution is added to the carried pair; the output buffer is not touched. -/
theorem run_step_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (stepScr i x0 x1 x2 x3 x4 s).1 ∗ owns (c : Thread nD τ) scM1 fullShare (stepScr i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- A key block past the query block, not the last: nothing is stored; every buffer is handed back as found. -/
theorem run_skip_idle (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : ¬cond2 i) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare s.1 ∗ owns (c : Thread nD τ) scM1 fullShare s.2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists d5; iexists f5; isplitr; · ipureintro; exact hf5
    iexact H5
  isplitl [HS0]
  · iexists _; isplitr; · ipureintro; exact hfs0
    iexact HS0
  · iexists _; isplitr; · ipureintro; exact hfs1
    iexact HS1

set_option maxHeartbeats 1000000 in
/-- Key block 0 that is also the last: reset, contribution, and the quotient of the new pair stored to the output buffer. -/
theorem run_reset_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i) (hc2 : cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf (stepScr i x0 x1 x2 x3 x4 zeroScr))
            ∗ owns (c : Thread nD τ) scM0 fullShare (stepScr i x0 x1 x2 x3 x4 zeroScr).1 ∗ owns (c : Thread nD τ) scM1 fullShare (stepScr i x0 x1 x2 x3 x4 zeroScr).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- The last key block, not past the query block: the contribution is added, then the quotient of the new pair is stored to the output buffer. -/
theorem run_step_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf (stepScr i x0 x1 x2 x3 x4 s))
            ∗ owns (c : Thread nD τ) scM0 fullShare (stepScr i x0 x1 x2 x3 x4 s).1 ∗ owns (c : Thread nD τ) scM1 fullShare (stepScr i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr
    swap; · iexact HS0
    ipureintro
    try sl_unfold_words
    rw [View.read_writes_eq_canon _ _ _ (fun y => ⟨_, List.mem_cons_self, View.mem_set_unit_zero runs_hz2 inb_S256x64_S256x64_0_0 y⟩)]
    rw [View.canon_cons_unit_zero (S := S256x64) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  · iexists _; isplitr
    swap; · iexact HS1
    ipureintro
    try sl_unfold_words
    rw [View.read_writes_eq_canon _ _ _ (fun y => ⟨_, List.mem_cons_self, View.mem_set_unit_zero runs_hz2 inb_S256x1_S256x1_0_0 y⟩)]
    rw [View.canon_cons_unit_zero (S := S256x1) runs_hz2]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl

set_option maxHeartbeats 1000000 in
/-- The last key block, past the query block: the carried pair is left as found and its quotient is stored to the output buffer. -/
theorem run_skip_flush (c : Dev nD) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : ¬cond1 i) (hc2 : ¬cond2 i) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ owns (c : Thread nD τ) a8 fullShare (outOf s)
            ∗ owns (c : Thread nD τ) scM0 fullShare s.1 ∗ owns (c : Thread nD τ) scM1 fullShare s.2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs0, %hfs0, HS0⟩, ⟨%fs1, %hfs1, HS1⟩, Hk⟩
  obtain rfl := h3.eq_unread hf0; obtain rfl := h4.eq_unread hf1; obtain rfl := h5.eq_unread hf2
  obtain rfl := h6.eq_unread hf3; obtain rfl := h7.eq_unread hf4
  sl_exec (disch := first | exact hc1 | exact hc2 | exact hc3)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    try sl_unfold_words
    rw [View.read_writes_eq_canon _ _ _ (fun y => ⟨_, List.mem_cons_self, View.mem_set_unit_zero runs_hz3 inb_S1x256x64_S1x256x64_0_0_0 y⟩)]
    rw [View.canon_cons_unit_zero (S := S1x256x64) runs_hz3]
    try simp only [View.readCov_cons_toLoadRect]
    try simp only [View.readAt_eq_ld, h3.read_unread, h4.read_unread, h5.read_unread, h6.read_unread, h7.read_unread, hfs0, hfs1, View.ld_unit_zero (S := S1x256x64) runs_hz3, View.ld_unit_zero (S := S1x256x1) runs_hz3, View.ld_unit_zero (S := S256x64) runs_hz2, View.ld_unit_zero (S := S256x1) runs_hz2]
    rfl
  isplitl [HS0]
  · iexists _; isplitr; · ipureintro; exact hfs0
    iexact HS0
  · iexists _; isplitr; · ipureintro; exact hfs1
    iexact HS1

/-! ## The two kinds of point

The point's number decides the first two conditions; a reset point always meets the causal condition
(key block 0 is never past the query block). -/

/-- A point whose key block is not the last: the output buffer is handed back as found. -/
theorem run_idle (c : Dev nD) (n : ℕ) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i ↔ n % 8 = 0) (hc2 : cond2 i ↔ n % 8 ≤ (n / 8) % 8) (hc3 : ¬cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4 ∗ (∃ d, owns (c : Thread nD τ) a8 fullShare d)
            ∗ owns (c : Thread nD τ) scM0 fullShare (bodyScr n i x0 x1 x2 x3 x4 s).1 ∗ owns (c : Thread nD τ) scM1 fullShare (bodyScr n i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  by_cases h0 : n % 8 = 0
  · have h1 : n % 8 ≤ (n / 8) % 8 := by omega
    have e : bodyScr n i x0 x1 x2 x3 x4 s = stepScr i x0 x1 x2 x3 x4 zeroScr := by
      simp only [bodyScr, if_pos h1, if_pos h0]
    rw [e]
    exact run_reset_idle c i a3 h3 a4 h4 a5 h5 a6 h6 a7 h7 a8 h8 (hc1.mpr h0) (hc2.mpr h1) hc3 x0 x1 x2 x3 x4 s E K
  · by_cases h1 : n % 8 ≤ (n / 8) % 8
    · have e : bodyScr n i x0 x1 x2 x3 x4 s = stepScr i x0 x1 x2 x3 x4 s := by
        simp only [bodyScr, if_pos h1, if_neg h0]
      rw [e]
      exact run_step_idle c i a3 h3 a4 h4 a5 h5 a6 h6 a7 h7 a8 h8 (fun h => h0 (hc1.mp h)) (hc2.mpr h1) hc3 x0 x1 x2 x3 x4 s E K
    · have e : bodyScr n i x0 x1 x2 x3 x4 s = s := by
        simp only [bodyScr, if_neg h1, if_neg h0]
      rw [e]
      exact run_skip_idle c i a3 h3 a4 h4 a5 h5 a6 h6 a7 h7 a8 h8 (fun h => h0 (hc1.mp h)) (fun h => h1 (hc2.mp h)) hc3 x0 x1 x2 x3 x4 s E K

/-- A point whose key block is the last: the output buffer ends at the quotient of the new carried pair. -/
theorem run_flush (c : Dev nD) (n : ℕ) (i : grid0.Coords) (a3 : Memref sig .tc .vmem S1x256x64 .f32) (h3 : a3.IsWhole) (a4 : Memref sig .tc .vmem S1x256x64 .f32) (h4 : a4.IsWhole) (a5 : Memref sig .tc .vmem S1x256x64 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x64 .f32) (h8 : a8.IsWhole)
    (hc1 : cond1 i ↔ n % 8 = 0) (hc2 : cond2 i ↔ n % 8 ≤ (n / 8) % 8) (hc3 : cond3 i)
    (x0 x1 x2 : Vec F S1x256x64 .f32) (x3 x4 : Vec F S1x256x1 .f32) (s : Vec F S256x64 .f32 × Vec F S256x1 .f32)
    (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare x3 ∗ owns (c : Thread nD τ) a7 fullShare x4 ∗ (∃ d, owns (c : Thread nD τ) a8 fullShare d)
        ∗ owns (c : Thread nD τ) scM0 fullShare s.1 ∗ owns (c : Thread nD τ) scM1 fullShare s.2
        ∗ (iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ owns (c : Thread nD τ) a8 fullShare (outOf (bodyScr n i x0 x1 x2 x3 x4 s))
            ∗ owns (c : Thread nD τ) scM0 fullShare (bodyScr n i x0 x1 x2 x3 x4 s).1 ∗ owns (c : Thread nD τ) scM1 fullShare (bodyScr n i x0 x1 x2 x3 x4 s).2) -∗ K ⟨⟩))
      ⊢ wp frame (wpE (defs₀ (F := F)) Variants.none c none) E
          (cc0__attn_kernel i a3 h3 a4 h4 a5 h5 a6 h6 a7 h7 a8 h8 scM0 (Memref.isWhole_whole _) scM1 (Memref.isWhole_whole _)) K := by
  by_cases h0 : n % 8 = 0
  · have h1 : n % 8 ≤ (n / 8) % 8 := by omega
    have e : bodyScr n i x0 x1 x2 x3 x4 s = stepScr i x0 x1 x2 x3 x4 zeroScr := by
      simp only [bodyScr, if_pos h1, if_pos h0]
    rw [e]
    exact run_reset_flush c i a3 h3 a4 h4 a5 h5 a6 h6 a7 h7 a8 h8 (hc1.mpr h0) (hc2.mpr h1) hc3 x0 x1 x2 x3 x4 s E K
  · by_cases h1 : n % 8 ≤ (n / 8) % 8
    · have e : bodyScr n i x0 x1 x2 x3 x4 s = stepScr i x0 x1 x2 x3 x4 s := by
        simp only [bodyScr, if_pos h1, if_neg h0]
      rw [e]
      exact run_step_flush c i a3 h3 a4 h4 a5 h5 a6 h6 a7 h7 a8 h8 (fun h => h0 (hc1.mp h)) (hc2.mpr h1) hc3 x0 x1 x2 x3 x4 s E K
    · have e : bodyScr n i x0 x1 x2 x3 x4 s = s := by
        simp only [bodyScr, if_neg h1, if_neg h0]
      rw [e]
      exact run_skip_flush c i a3 h3 a4 h4 a5 h5 a6 h6 a7 h7 a8 h8 (fun h => h0 (hc1.mp h)) (fun h => h1 (hc2.mp h)) hc3 x0 x1 x2 x3 x4 s E K

end Cert.KernelIdeal.Hand

end
-- ==== Proof.KIFrame.lean ====
/-
  The attention kernel's frame: the pipeline's proof data, the body obligation at every grid point, and the run.
  Before the first point the two carried scratch arrays hold anything; after point n they hold the pair
  `scrAt m c n`.  Each input window's staging buffer holds its block at every point.  The output window's
  staging buffer is stored only at the last key block of a (head, query block), where it receives the quotient
  of the carried pair and is written back; at every other point it is handed back as found.
-/
import proofs.«123989_j65085934403863_1_alg».proof.Proof.KIRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle -/

/-- The five input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last key block the output window is idle: nothing is stored into it, -/
theorem idleAt0_5 : ∀ t : Fin cfg0.N, ¬cond3 (grid0.coords t) → cfg0.idle 5 (grid0.coords t) = true := by decide +kernel
/-- and its block is not written back. -/
theorem noFlush0_5 : ∀ t : Fin cfg0.N, ¬cond3 (grid0.coords t) → (cfg0.win 5).flush t = false := by decide +kernel
/-- At the last key block it is live. -/
theorem liveAt0_5 : ∀ t : Fin cfg0.N, cond3 (grid0.coords t) → cfg0.idle 5 (grid0.coords t) = false := by decide +kernel

/-! ## The staging memrefs at a point, and the invariant the launch hands over -/

/-- Each window's current staging memref at point `t`, spelled as the pipeline passes it, and its wholeness. -/
abbrev ms0_0 (t : Fin cfg0.N) : Memref sig .tc .vmem S1x256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x64 .f32 := win0_5.stage (cfg0.slots t 5)
abbrev hs0_5 (t : Fin cfg0.N) : (ms0_5 t).IsWhole := hstage0_5 ((cfg0.slots t 5).cast nbuf0_5)

/-- The invariant the launch hands the region, with the two scratch arrays as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The invariant between points -/

/-- The region invariant before position `n`: before the first point whatever the launch hands over (each scratch
    array at anything); afterwards the two scratch arrays at the pair the point before left, and the generator
    register at some state. -/
def PhiS (c : Dev nD) : (n : ℕ) → n ≤ cfg0.N → sProp 𝕄
  | 0, _ => Pipeline.ΦA spec0 c
  | n + 1, hn => iprop(iprop(owns (c : Thread nD τ) scM0 fullShare (scrAt m c n hn).1 ∗ owns (c : Thread nD τ) scM1 fullShare (scrAt m c n hn).2) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried pair at that point's contents. -/
theorem PhiS_succ (c : Dev nD) (n : ℕ) (hn : n < cfg0.N) :
    PhiS m c (n + 1) hn = iprop(iprop(owns (c : Thread nD τ) scM0 fullShare (scrAt m c n hn).1 ∗ owns (c : Thread nD τ) scM1 fullShare (scrAt m c n hn).2) ∗ (∃ r, prngReg c r)) := rfl

/-- Before a point that is not the first: the carried pair at what the point before left. -/
theorem PhiS_pos (c : Dev nD) (n : ℕ) (h : n ≤ cfg0.N) (hz : n ≠ 0) :
    PhiS m c n h = iprop(iprop(owns (c : Thread nD τ) scM0 fullShare (scrAt m c (n - 1) (by omega)).1 ∗ owns (c : Thread nD τ) scM1 fullShare (scrAt m c (n - 1) (by omega)).2) ∗ (∃ r, prngReg c r)) := by
  cases n with
  | zero => exact absurd rfl hz
  | succ n => rfl

/-! ## The pipeline's proof data -/

/-- The proof data of the one pipeline on core `c`: the arrays as the region finds them; after the body at point `t`
    each input's buffer at its block and the output's at the quotient of the carried pair; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output window's current staging buffer holds, when the body runs, whatever a buffer nothing has filled
    holds: the window is stored exactly at the points that write it back (the last key blocks), so no named
    contents ever pass from one point to a later one. -/
theorem before0_5 (c : Dev nD) (t : Fin cfg0.N) (d) : (dats m 0 c).before 5 t d = d := by
  obtain ⟨n, hn⟩ := t
  induction n with
  | zero => exact (dats m 0 c).before_out_reset 5 rfl ⟨0, hn⟩ (.inl rfl) d
  | succ n ih =>
    by_cases hfl : (cfg0.win 5).flush ⟨n, Nat.lt_of_succ_lt hn⟩ = true
    · exact (dats m 0 c).before_out_reset 5 rfl ⟨n + 1, hn⟩ (.inr ⟨Nat.succ_ne_zero n, hfl⟩) d
    · have hfl' := Bool.eq_false_iff.mpr hfl
      have hnc : ¬cond3 (grid0.coords ⟨n, Nat.lt_of_succ_lt hn⟩) := fun h =>
        hfl ((flush0_5 ⟨n, Nat.lt_of_succ_lt hn⟩).mpr ((hcond3 ⟨n, Nat.lt_of_succ_lt hn⟩).mp h))
      have key := (dats m 0 c).before_of_pos 5 ⟨n + 1, hn⟩ (Nat.succ_ne_zero n) ((cfg0.win 5).fetch_out rfl _) d
      simp only [Nat.add_sub_cancel] at key
      rw [key, hfl', if_neg Bool.false_ne_true]
      unfold Dat.left
      rw [idleAt0_5 ⟨n, Nat.lt_of_succ_lt hn⟩ hnc]
      exact ih (Nat.lt_of_succ_lt hn)

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' memrefs hold their blocks; the invariant hands the body the carried pair at
    what the point before left (at anything at the first point, where the reset discards it) and takes it back at
    this point's pair; at the last key block the output buffer ends at the quotient of the new pair, elsewhere it
    is handed back as found; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h3 : t.val % 8 = 7
  · rw [show (dats m 0 c).leavesExact 5 t = owns (c : Thread nD τ) (ms0_5 t) fullShare ((dats m 0 c).after 5 t) from by
      unfold Dat.leavesExact; rw [liveAt0_5 t ((hcond3 t).mpr h3)], after0_5]
    simp only [before0_0, before0_1, before0_2, before0_3, before0_4, before0_5]
    unfold outAt
    by_cases hz : t.val = 0
    · exfalso; omega
    · rw [PhiS_castSucc m c t, PhiS_pos m c _ _ hz]
      rw [scrAt_eq m c t zeroScr, dif_neg hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_flush c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) ((hcond3 t).mpr h3) (iblk m c 0 t) (iblk m c 1 t) (iblk m c 2 t) (iblk m c 3 t) (iblk m c 4 t) (scrAt m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc3 : ¬cond3 (grid0.coords t) := fun h => h3 ((hcond3 t).mp h)
    rw [Dat.leavesExact_idle (dats m 0 c) 5 t (idleAt0_5 t hc3) (noFlush0_5 t hc3)]
    simp only [before0_0, before0_1, before0_2, before0_3, before0_4, before0_5]
    by_cases hz : t.val = 0
    · rw [PhiS_castSucc m c t, PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩⟩
      rw [scrAt_eq m c t (e0, e1), dif_pos hz]
      iapply (run_idle c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) hc3 (iblk m c 0 t) (iblk m c 1 t) (iblk m c 2 t) (iblk m c 3 t) (iblk m c 4 t) (e0, e1) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      rw [scrAt_eq m c t zeroScr, dif_neg hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (run_idle c t.val (grid0.coords t) (ms0_0 t) (hs0_0 t) (ms0_1 t) (hs0_1 t) (ms0_2 t) (hs0_2 t) (ms0_3 t) (hs0_3 t) (ms0_4 t) (hs0_4 t) (ms0_5 t) (hs0_5 t) (hcond1 t) (hcond2 t) hc3 (iblk m c 0 t) (iblk m c 1 t) (iblk m c 2 t) (iblk m c 3 t) (iblk m c 4 t) (scrAt m c (t.val - 1) (by omega)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the carried pair's named contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- From any memory with zero counters every weakly fair execution of the program on the TensorCores terminates,
    and every final state has every array of the pipeline at what the library computes from the proof data and
    every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIBlocks.lean ====
/-
  The blocks the windows hold at a grid point, read at an index.  Point n works on head n / 64, query block
  (n / 8) % 8 and key block n % 8; the query, gain and bias windows hold rows 256·(query block) … of that head, the
  key and value windows rows 256·(key block) …, of the launched arrays (whose leading unit axis the host drops
  before the call).
-/
import proofs.«123989_j65085934403863_1_alg».proof.Proof.KIState
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
variable (m : (ℓ : Loc nD τ sig) → Buf (Elt F) ℓ)

/-- The printed index maps in closed form over the points. -/
theorem idx_facts : ∀ t : Fin cfg0.N,
    win0_0.index t (0 : Fin 3) = t.val / 64 ∧ win0_0.index t (1 : Fin 3) = (t.val / 8) % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = t.val % 8 ∧ win0_2.index t (2 : Fin 3) = 0
    ∧ win0_3.index t (0 : Fin 3) = t.val / 64 ∧ win0_3.index t (1 : Fin 3) = (t.val / 8) % 8 ∧ win0_3.index t (2 : Fin 3) = 0
    ∧ win0_4.index t (0 : Fin 3) = t.val / 64 ∧ win0_4.index t (1 : Fin 3) = (t.val / 8) % 8 ∧ win0_4.index t (2 : Fin 3) = 0
    ∧ win0_5.index t (0 : Fin 3) = t.val / 64 ∧ win0_5.index t (1 : Fin 3) = (t.val / 8) % 8 ∧ win0_5.index t (2 : Fin 3) = 0 :=
  (by decide +kernel : ∀ t : Fin grid0.N, _)

/-! ## The arrays as the region finds them: the launched arrays with the leading unit axis dropped -/

theorem V_v0 (c : Dev nD) : (V m c main_v0 : S16x2048x64.Idx → Elt F .f32)
    = shapeCast S16x2048x64 (m ((c : Thread nD τ).loc main_arg0)) shapeCasts_S1x16x2048x64_S16x2048x64 := by
  dsimp only [Gen.V, Gen.V0]
  simp only [Gen.hostOps0, List.flatten_cons, List.flatten_nil, List.append_nil, List.cons_append, List.nil_append]
  after_results
  rfl

theorem V_v1 (c : Dev nD) : (V m c main_v1 : S16x2048x64.Idx → Elt F .f32)
    = shapeCast S16x2048x64 (m ((c : Thread nD τ).loc main_arg1)) shapeCasts_S1x16x2048x64_S16x2048x64 := by
  dsimp only [Gen.V, Gen.V0]
  simp only [Gen.hostOps0, List.flatten_cons, List.flatten_nil, List.append_nil, List.cons_append, List.nil_append]
  after_results
  rfl

theorem V_v2 (c : Dev nD) : (V m c main_v2 : S16x2048x64.Idx → Elt F .f32)
    = shapeCast S16x2048x64 (m ((c : Thread nD τ).loc main_arg2)) shapeCasts_S1x16x2048x64_S16x2048x64 := by
  dsimp only [Gen.V, Gen.V0]
  simp only [Gen.hostOps0, List.flatten_cons, List.flatten_nil, List.append_nil, List.cons_append, List.nil_append]
  after_results
  rfl

theorem V_v3 (c : Dev nD) : (V m c main_v3 : S16x2048x1.Idx → Elt F .f32)
    = shapeCast S16x2048x1 (m ((c : Thread nD τ).loc main_arg3)) shapeCasts_S1x16x2048x1_S16x2048x1 := by
  dsimp only [Gen.V, Gen.V0]
  simp only [Gen.hostOps0, List.flatten_cons, List.flatten_nil, List.append_nil, List.cons_append, List.nil_append]
  after_results
  rfl

theorem V_v4 (c : Dev nD) : (V m c main_v4 : S16x2048x1.Idx → Elt F .f32)
    = shapeCast S16x2048x1 (m ((c : Thread nD τ).loc main_arg4)) shapeCasts_S1x16x2048x1_S16x2048x1 := by
  dsimp only [Gen.V, Gen.V0]
  simp only [Gen.hostOps0, List.flatten_cons, List.flatten_nil, List.append_nil, List.cons_append, List.nil_append]
  after_results
  rfl

/-! ## Each window's block at a point, at an index -/

theorem iblk0_apply (c : Dev nD) (t : Fin cfg0.N) (z : Fin 1) (p : Fin 256) (d : Fin 64) (hh : t.val / 64 < 16) (hq : 256 * ((t.val / 8) % 8) + p.val < 2048) :
    iblk m c 0 t (ix3 z p d) = m ((c : Thread nD τ).loc main_arg0) (ix4 0 ⟨t.val / 64, hh⟩ ⟨256 * ((t.val / 8) % 8) + p.val, hq⟩ d) := by
  unfold iblk
  rw [View.read_apply]
  show V m c main_v0 (((cfg0.win 0).blk t).view.emb (ix3 z p d)) = _
  rw [V_v0]
  refine (shapeCast_dropUnit_apply _ _ _ _).trans ?_
  refine congrArg _ (funext fun a => Fin.ext ?_)
  obtain ⟨e0, e1, e2, -⟩ := idx_facts t
  match a with
  | ⟨0, _⟩ => rfl
  | ⟨1, _⟩ => show win0_0.index t (0 : Fin 3) * 1 + 1 * (z : ℕ) = t.val / 64; have := z.isLt; omega
  | ⟨2, _⟩ => show win0_0.index t (1 : Fin 3) * 256 + 1 * (p : ℕ) = 256 * ((t.val / 8) % 8) + p.val; omega
  | ⟨3, _⟩ => show win0_0.index t (2 : Fin 3) * 64 + 1 * (d : ℕ) = d.val; omega

theorem iblk1_apply (c : Dev nD) (t : Fin cfg0.N) (z : Fin 1) (p : Fin 256) (d : Fin 64) (hh : t.val / 64 < 16) (hq : 256 * (t.val % 8) + p.val < 2048) :
    iblk m c 1 t (ix3 z p d) = m ((c : Thread nD τ).loc main_arg1) (ix4 0 ⟨t.val / 64, hh⟩ ⟨256 * (t.val % 8) + p.val, hq⟩ d) := by
  unfold iblk
  rw [View.read_apply]
  show V m c main_v1 (((cfg0.win 1).blk t).view.emb (ix3 z p d)) = _
  rw [V_v1]
  refine (shapeCast_dropUnit_apply _ _ _ _).trans ?_
  refine congrArg _ (funext fun a => Fin.ext ?_)
  obtain ⟨-, -, -, e0, e1, e2, -⟩ := idx_facts t
  match a with
  | ⟨0, _⟩ => rfl
  | ⟨1, _⟩ => show win0_1.index t (0 : Fin 3) * 1 + 1 * (z : ℕ) = t.val / 64; have := z.isLt; omega
  | ⟨2, _⟩ => show win0_1.index t (1 : Fin 3) * 256 + 1 * (p : ℕ) = 256 * (t.val % 8) + p.val; omega
  | ⟨3, _⟩ => show win0_1.index t (2 : Fin 3) * 64 + 1 * (d : ℕ) = d.val; omega

theorem iblk2_apply (c : Dev nD) (t : Fin cfg0.N) (z : Fin 1) (p : Fin 256) (d : Fin 64) (hh : t.val / 64 < 16) (hq : 256 * (t.val % 8) + p.val < 2048) :
    iblk m c 2 t (ix3 z p d) = m ((c : Thread nD τ).loc main_arg2) (ix4 0 ⟨t.val / 64, hh⟩ ⟨256 * (t.val % 8) + p.val, hq⟩ d) := by
  unfold iblk
  rw [View.read_apply]
  show V m c main_v2 (((cfg0.win 2).blk t).view.emb (ix3 z p d)) = _
  rw [V_v2]
  refine (shapeCast_dropUnit_apply _ _ _ _).trans ?_
  refine congrArg _ (funext fun a => Fin.ext ?_)
  obtain ⟨-, -, -, -, -, -, e0, e1, e2, -⟩ := idx_facts t
  match a with
  | ⟨0, _⟩ => rfl
  | ⟨1, _⟩ => show win0_2.index t (0 : Fin 3) * 1 + 1 * (z : ℕ) = t.val / 64; have := z.isLt; omega
  | ⟨2, _⟩ => show win0_2.index t (1 : Fin 3) * 256 + 1 * (p : ℕ) = 256 * (t.val % 8) + p.val; omega
  | ⟨3, _⟩ => show win0_2.index t (2 : Fin 3) * 64 + 1 * (d : ℕ) = d.val; omega

theorem iblk3_apply (c : Dev nD) (t : Fin cfg0.N) (z : Fin 1) (p : Fin 256) (o : Fin 1) (hh : t.val / 64 < 16) (hq : 256 * ((t.val / 8) % 8) + p.val < 2048) :
    iblk m c 3 t (ix3 z p o) = m ((c : Thread nD τ).loc main_arg3) (ix4 0 ⟨t.val / 64, hh⟩ ⟨256 * ((t.val / 8) % 8) + p.val, hq⟩ o) := by
  unfold iblk
  rw [View.read_apply]
  show V m c main_v3 (((cfg0.win 3).blk t).view.emb (ix3 z p o)) = _
  rw [V_v3]
  refine (shapeCast_dropUnit_apply _ _ _ _).trans ?_
  refine congrArg _ (funext fun a => Fin.ext ?_)
  obtain ⟨-, -, -, -, -, -, -, -, -, e0, e1, e2, -⟩ := idx_facts t
  match a with
  | ⟨0, _⟩ => rfl
  | ⟨1, _⟩ => show win0_3.index t (0 : Fin 3) * 1 + 1 * (z : ℕ) = t.val / 64; have := z.isLt; omega
  | ⟨2, _⟩ => show win0_3.index t (1 : Fin 3) * 256 + 1 * (p : ℕ) = 256 * ((t.val / 8) % 8) + p.val; omega
  | ⟨3, _⟩ => show win0_3.index t (2 : Fin 3) * 1 + 1 * (o : ℕ) = o.val; omega

theorem iblk4_apply (c : Dev nD) (t : Fin cfg0.N) (z : Fin 1) (p : Fin 256) (o : Fin 1) (hh : t.val / 64 < 16) (hq : 256 * ((t.val / 8) % 8) + p.val < 2048) :
    iblk m c 4 t (ix3 z p o) = m ((c : Thread nD τ).loc main_arg4) (ix4 0 ⟨t.val / 64, hh⟩ ⟨256 * ((t.val / 8) % 8) + p.val, hq⟩ o) := by
  unfold iblk
  rw [View.read_apply]
  show V m c main_v4 (((cfg0.win 4).blk t).view.emb (ix3 z p o)) = _
  rw [V_v4]
  refine (shapeCast_dropUnit_apply _ _ _ _).trans ?_
  refine congrArg _ (funext fun a => Fin.ext ?_)
  obtain ⟨-, -, -, -, -, -, -, -, -, -, -, -, e0, e1, e2, -⟩ := idx_facts t
  match a with
  | ⟨0, _⟩ => rfl
  | ⟨1, _⟩ => show win0_4.index t (0 : Fin 3) * 1 + 1 * (z : ℕ) = t.val / 64; have := z.isLt; omega
  | ⟨2, _⟩ => show win0_4.index t (1 : Fin 3) * 256 + 1 * (p : ℕ) = 256 * ((t.val / 8) % 8) + p.val; omega
  | ⟨3, _⟩ => show win0_4.index t (2 : Fin 3) * 1 + 1 * (o : ℕ) = o.val; omega

end Cert.KernelIdeal.Hand

end
-- ==== Proof.Spec.lean ====
/-
  The attention layer both programs compute, as a function on the extended reals.

  For head h, query position t and key position s (positions 0..2047, 64 features):
    knormRow k   = max(sqrt(∑_d k_d²), 1e-8)            -- the key row's norm, floored
    dotRow q k   = ∑_d q_d · (k_d / knormRow k)           -- query against the normalised key
    I            = gain · dotRow q k + bias               -- input current
    lif I        = the leaky-integrate-and-fire rate 1 / (τ_ref − τ_rc · log1p(−V_th / I)) where I > V_th + ε, else 0,
                   with a −∞ replaced by 0
    score I      = lif I / 8
    rateOf       = max(score I if the key is not after the query else 0, 0)
  and the layer's output at (h, t, d) is  (∑_s rate(h,t,s) · V(h,s,d)) / (σ + sqrt(∑_s rate(h,t,s)² + 1e-20)),
  which one program computes as written (`outK`, the sums accumulated key block by key block) and the other with
  the quotient taken inside the sum (`outR`).  The normaliser is a positive real or +∞, so its inverse is a
  nonnegative real, and multiplying by a nonnegative real distributes over every sum of extended reals: the two
  arrangements agree with no assumption on the inputs.
-/
import Idealize.ShloMosaic.PureOps.Ideal
import Idealize.ShloMosaic.Lib.ValueIdx

noncomputable section

open scoped BigOperators

namespace Cert.Spec

open Idealize.ShloMosaic Idealize.ShloMosaic.ValueIdx

/-- The shape of the query, key, value and output arrays, and of the gain and bias arrays. -/
abbrev A4 : Shape := ⟨4, ![1, 16, 2048, 64]⟩
abbrev C4 : Shape := ⟨4, ![1, 16, 2048, 1]⟩

/-- A 32-bit float literal's value. -/
abbrev lit (b : BitVec 32) : EReal := Ideal.ofBits .f32 b

/-! ## One (query row, key row) pair -/

/-- The key row's Euclidean norm, floored at the literal 1e-8. -/
def knormRow (k : Fin 64 → EReal) : EReal := max (Ideal.sqrt (∑ d : Fin 64, k d * k d)) (lit 0x322BCC77#32)

/-- The query row against the normalised key row. -/
def dotRow (q k : Fin 64 → EReal) : EReal := ∑ d : Fin 64, q d * Ideal.div (k d) (knormRow k)

/-- The firing rate of input current `I`: where `I` exceeds the threshold literal, the reciprocal of
    τ_ref − τ_rc · log1p(−V_th / I); elsewhere 0; and 0 in place of −∞. -/
def lif (I : EReal) : EReal :=
  let gd : BitVec 1 := FloatOps.cmpf (F := Ideal) (φ := .f32) .ogt I (lit 0x3C23D776#32)
  let r0 : EReal := Scalar.select gd
    (Ideal.div (lit 0x3F800000#32)
      (lit 0x3B03126F#32 - lit 0x3CA3D70A#32 * Ideal.log1p (Ideal.div (lit 0xBC23D70A#32) (Scalar.select gd I (lit 0x3F800000#32)))))
    0
  Scalar.select (FloatOps.cmpf (F := Ideal) (φ := .f32) .oeq r0 (lit 0xFF800000#32)) 0 r0

/-- The rate scaled by 1/8 (the literal 0.125 = 1/sqrt 64). -/
def score (I : EReal) : EReal := lif I * lit 0x3E000000#32

/-- The masked, rectified rate of one pair: `valid` says the key is not after the query. -/
def rateOf (valid : Prop) [Decidable valid] (g bb : EReal) (q k : Fin 64 → EReal) : EReal :=
  max (if valid then score (g * dotRow q k + bb) else 0) 0

/-! ## The layer -/

variable (Q K V : A4.Idx → EReal) (g b : C4.Idx → EReal)

/-- The rate of key `s` for query `t` in head `h`. -/
def rate (h : Fin 16) (t s : Fin 2048) : EReal :=
  rateOf (s.val ≤ t.val) (g (ix4 0 h t 0)) (b (ix4 0 h t 0)) (fun d => Q (ix4 0 h t d)) (fun d => K (ix4 0 h s d))

/-- The normaliser of query `t`: σ + sqrt(∑_s rate² + 1e-20). -/
def den (h : Fin 16) (t : Fin 2048) : EReal :=
  lit 0x3A83126F#32 + Ideal.sqrt ((∑ s : Fin 2048, rate Q K g b h t s * rate Q K g b h t s) + lit 0x1E3CE508#32)

/-- The output with the quotient taken once, outside the sum over keys. -/
def outK (h : Fin 16) (t : Fin 2048) (d : Fin 64) : EReal :=
  Ideal.div (∑ s : Fin 2048, rate Q K g b h t s * V (ix4 0 h s d)) (den Q K g b h t)

/-- The output with each key's rate divided by the normaliser (and masked once more) before the sum over keys. -/
def outR (h : Fin 16) (t : Fin 2048) (d : Fin 64) : EReal :=
  ∑ s : Fin 2048, (if s.val ≤ t.val then Ideal.div (rate Q K g b h t s) (den Q K g b h t) else 0) * V (ix4 0 h s d)

/-! ## Sums over the 2048 keys, key block by key block -/

/-- Key `j` of key block `k` (8 blocks of 256). -/
def blk (k : Fin 8) (j : Fin 256) : Fin 2048 := ⟨256 * k.val + j.val, by omega⟩

/-- The sum of `f` over the first `n` key blocks, accumulated block by block from 0. -/
def partialSum (f : Fin 2048 → EReal) : ℕ → EReal
  | 0 => 0
  | n + 1 => partialSum f n + (if h : n < 8 then ∑ j : Fin 256, f (blk ⟨n, h⟩ j) else 0)

end Cert.Spec

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.SpecLaws.lean ====
/-
  Laws of the attention layer's specification on the extended reals.

  Three groups.  Scalar facts: the values of the literals the two programs spell, a value is never different from
  itself, replacing +∞ by +∞ changes nothing, dividing by 64^(1/2) is multiplying by 1/8, and a masked rectified
  rate is nonnegative and is 0 where the key is after the query.  Sums: the running sum over key blocks adds one
  block of 256 keys per step, after all 8 blocks it is the sum over the 2048 keys, and it already is that sum as
  soon as every later key contributes 0.  The joining law: the normaliser is a positive real or +∞, so dividing by
  it is multiplying by a nonnegative real, and multiplying by a nonnegative real distributes over every finite sum
  of extended reals; hence the quotient taken once outside the sum over keys equals the sum of the quotients.
  No statement assumes any input finite.
-/
import proofs.«123989_j65085934403863_1_alg».proof.Proof.Spec
import proofs.«123989_j65085934403863_1_alg».proof.Proof.LibBlockSum
import Idealize.ShloMosaic.PureOps.Ideal.Laws
import Mathlib.Analysis.SpecialFunctions.Pow.Real
import Mathlib.Data.EReal.Operations

noncomputable section

open scoped BigOperators

namespace Cert.Spec

open Idealize.ShloMosaic Idealize.ShloMosaic.ValueIdx

/-! ## Scalar facts -/

/-- The pattern of +0.0 denotes 0. -/
theorem lit_zero : lit 0x00000000#32 = 0 := by
  simp [Ideal.ofBits, Ideal.ieee]

/-- The pattern of +∞ denotes the top element. -/
theorem lit_posinf : lit 0x7F800000#32 = ⊤ := by
  simp [Ideal.ofBits, Ideal.ieee]

/-- The pattern of 64.0 denotes the real 64 = 2^23 · 2^(133 − 127 − 23). -/
theorem lit_64 : lit 0x42800000#32 = ((64 : ℝ) : EReal) := by
  simp [Ideal.ofBits, Ideal.ieee, -EReal.coe_mul]; norm_num

/-- The pattern of 0.5 denotes the real 1/2. -/
theorem lit_half : lit 0x3F000000#32 = ((1 / 2 : ℝ) : EReal) := by
  simp [Ideal.ofBits, Ideal.ieee, -EReal.coe_mul]; norm_num

/-- The pattern of 0.125 denotes the real 1/8. -/
theorem lit_eighth : lit 0x3E000000#32 = ((1 / 8 : ℝ) : EReal) := by
  simp [Ideal.ofBits, Ideal.ieee, -EReal.coe_mul]; norm_num

/-- No extended real differs from itself: the ordered "not equal" comparison of a value with itself is false. -/
theorem cmpf_one_self (x : EReal) : FloatOps.cmpf (F := Ideal) (φ := .f32) .one x x = 0#1 := by
  show Ideal.cmp .one x x = 0#1
  simp [Ideal.cmp]

/-- The unordered "not equal" comparison answers as the ordered one: false on a value and itself. -/
theorem cmpf_une_self (x : EReal) : FloatOps.cmpf (F := Ideal) (φ := .f32) .une x x = 0#1 := by
  show Ideal.cmp .une x x = 0#1
  simp [Ideal.cmp]

/-- Replacing a value by +∞ exactly where it equals +∞ leaves it as it was. -/
theorem select_posinf_self (x : EReal) :
    Scalar.select (FloatOps.cmpf (F := Ideal) (φ := .f32) .oeq x (lit 0x7F800000#32)) (lit 0x7F800000#32) x = x := by
  rw [lit_posinf]
  show Scalar.select (Ideal.cmp .oeq x ⊤) ⊤ x = x
  by_cases h : x = ⊤
  · subst h; simp [Ideal.cmp, Scalar.select]
  · simp [Ideal.cmp, Scalar.select, h]

/-- 64^(1/2) = √64 = 8, a nonzero real, so dividing by it is multiplying by 1/8. -/
theorem div_temp (x : EReal) :
    Ideal.div x (Ideal.pow (lit 0x42800000#32) (lit 0x3F000000#32)) = x * lit 0x3E000000#32 := by
  have h8 : Real.rpow 64 (1 / 2) = 8 := by
    show (64 : ℝ) ^ ((1 : ℝ) / 2) = 8
    rw [← Real.sqrt_eq_rpow, show (64 : ℝ) = 8 ^ 2 by norm_num]
    exact Real.sqrt_sq (by norm_num)
  rw [lit_64, lit_half, lit_eighth, Ideal.pow_coe_coe, h8, Ideal.div_coe (by norm_num)]

/-- A rectified rate is a maximum with 0. -/
theorem rateOf_nonneg (valid : Prop) [Decidable valid] (g bb : EReal) (q k : Fin 64 → EReal) :
    0 ≤ rateOf valid g bb q k :=
  le_max_right _ _

/-- Where the key is after the query the masked score is 0, and max 0 0 = 0. -/
theorem rateOf_false (g bb : EReal) (q k : Fin 64 → EReal) (valid : Prop) [Decidable valid] (h : ¬valid) :
    rateOf valid g bb q k = 0 := by
  rw [rateOf, if_neg h, max_self]

/-! ## The sums, key block by key block -/

/-- One step of the running sum adds the 256 keys of the next block. -/
theorem partialSum_succ (f : Fin 2048 → EReal) (n : ℕ) (h : n < 8) :
    partialSum f (n + 1) = partialSum f n + ∑ j : Fin 256, f (blk ⟨n, h⟩ j) := by
  rw [partialSum, dif_pos h]

/-- After `n` steps the running sum is the sum, over the first `n` block numbers, of each block's sum. -/
theorem partialSum_eq_range (f : Fin 2048 → EReal) (n : ℕ) :
    partialSum f n
      = ∑ k ∈ Finset.range n, (if h : k < 8 then ∑ j : Fin 256, f (blk ⟨k, h⟩ j) else 0) := by
  induction n with
  | zero => simp [partialSum]
  | succ n ih => rw [partialSum, ih, Finset.sum_range_succ]

/-- After all 8 blocks the running sum is the sum over the 2048 keys: key 256·k + j is key j of block k, and a sum
    over 8 · 256 keys regroups into 8 blocks of 256 in any additive commutative monoid. -/
theorem partialSum_all (f : Fin 2048 → EReal) : partialSum f 8 = ∑ s : Fin 2048, f s := by
  rw [partialSum_eq_range, Finset.sum_range, Cert.Lib.sum_blocks 8 256 (by norm_num) f]
  refine Finset.sum_congr rfl fun k _ => ?_
  rw [dif_pos k.isLt]
  refine Finset.sum_congr rfl fun j _ => congrArg f (Fin.ext ?_)
  show 256 * k.val + j.val = k.val * 256 + j.val
  rw [Nat.mul_comm]

/-- If every key from 256·(q+1) on contributes 0, each block after block q sums to 0, so the running sum stops
    changing after step q + 1 and already equals the sum over all keys.  Only x + 0 = x is used. -/
theorem partialSum_causal (f : Fin 2048 → EReal) (q : ℕ) (hq : q < 8)
    (hz : ∀ s : Fin 2048, 256 * (q + 1) ≤ s.val → f s = 0) : partialSum f (q + 1) = ∑ s : Fin 2048, f s := by
  have stable : ∀ m, q + 1 ≤ m → partialSum f m = partialSum f (q + 1) := by
    intro m hm
    induction m, hm using Nat.le_induction with
    | base => rfl
    | succ m hm ih =>
      have hzero : (if h : m < 8 then ∑ j : Fin 256, f (blk ⟨m, h⟩ j) else 0) = 0 := by
        split_ifs with h
        · refine Finset.sum_eq_zero fun j _ => hz _ ?_
          show 256 * (q + 1) ≤ 256 * m + j.val
          exact le_trans (Nat.mul_le_mul_left 256 hm) (Nat.le_add_right _ _)
        · rfl
      rw [partialSum, hzero, add_zero, ih]
  rw [← partialSum_all f, stable 8 (by omega)]

/-! ## The law that joins the two arrangements -/

/-- The pattern 0x3A83126F (the float nearest 1e-3) denotes the positive real 8589935 · 2^(−33). -/
theorem lit_sigma_pos : ∃ c : ℝ, 0 < c ∧ lit 0x3A83126F#32 = (c : EReal) := by
  refine ⟨8589935 * (2 : ℝ) ^ (-33 : ℤ), by positivity, ?_⟩
  simp [Ideal.ofBits, Ideal.ieee, -EReal.coe_mul]

/-- The pattern 0x1E3CE508 (the float nearest 1e-20) denotes the positive real 12379400 · 2^(−90). -/
theorem lit_eps_pos : ∃ c : ℝ, 0 < c ∧ lit 0x1E3CE508#32 = (c : EReal) := by
  refine ⟨12379400 * (2 : ℝ) ^ (-90 : ℤ), by positivity, ?_⟩
  simp [Ideal.ofBits, Ideal.ieee, -EReal.coe_mul]

/-- The square root of a nonnegative extended real is +∞ (at +∞) or a nonnegative real (at a real ≥ 0);
    −∞ is not nonnegative. -/
theorem sqrt_top_or_nonneg_real (y : EReal) (hy : 0 ≤ y) :
    Ideal.sqrt y = ⊤ ∨ ∃ r : ℝ, 0 ≤ r ∧ Ideal.sqrt y = (r : EReal) := by
  revert hy
  refine EReal.rec
    (motive := fun y => 0 ≤ y → (Ideal.sqrt y = ⊤ ∨ ∃ r : ℝ, 0 ≤ r ∧ Ideal.sqrt y = (r : EReal))) ?_ ?_ ?_ y
  · intro hy; exact absurd hy (by simp)
  · intro r hy
    have hr : 0 ≤ r := EReal.coe_nonneg.mp hy
    exact Or.inr ⟨Real.sqrt r, Real.sqrt_nonneg r, by rw [Ideal.sqrt_coe, if_neg (not_lt.mpr hr)]⟩
  · intro _; exact Or.inl rfl

/-- Multiplying by a nonnegative real distributes over a finite sum of extended reals: it does over a sum of two
    (the factor is nonnegative and not +∞), and a finite sum is built one term at a time. -/
theorem sum_mul_coe_of_nonneg {ι : Type*} (s : Finset ι) (a : ι → EReal) {r : ℝ} (hr : 0 ≤ r) :
    (∑ i ∈ s, a i) * (r : EReal) = ∑ i ∈ s, a i * (r : EReal) := by
  classical
  refine Finset.induction_on s (by simp) ?_
  intro i s hi ih
  rw [Finset.sum_insert hi, Finset.sum_insert hi,
    EReal.right_distrib_of_nonneg_of_ne_top (EReal.coe_nonneg.mpr hr) (EReal.coe_ne_top r), ih]

variable (Q K V : A4.Idx → EReal) (g b : C4.Idx → EReal) (h : Fin 16) (t : Fin 2048) (d : Fin 64)

/-- The normaliser σ + sqrt(∑ rate² + ε): every rate is ≥ 0, so the sum of squares is ≥ 0, and so is that plus
    ε > 0; its square root is +∞ or a real ≥ 0; with σ > 0 added the normaliser is +∞ or a positive real.
    Dividing by +∞ multiplies by (+∞)⁻¹ = 0; dividing by a positive real y multiplies by 1/y > 0. -/
theorem den_inv : ∃ r : ℝ, 0 ≤ r ∧ ∀ x : EReal, Ideal.div x (den Q K g b h t) = x * (r : EReal) := by
  obtain ⟨c, hc, hσ⟩ := lit_sigma_pos
  obtain ⟨e, he, hε⟩ := lit_eps_pos
  have hS : (0 : EReal)
      ≤ (∑ s : Fin 2048, rate Q K g b h t s * rate Q K g b h t s) + lit 0x1E3CE508#32 := by
    refine add_nonneg (Finset.sum_nonneg fun s _ => EReal.mul_nonneg ?_ ?_) ?_
    · exact rateOf_nonneg _ _ _ _ _
    · exact rateOf_nonneg _ _ _ _ _
    · rw [hε]; exact EReal.coe_nonneg.mpr he.le
  rw [den, hσ]
  rcases sqrt_top_or_nonneg_real _ hS with htop | ⟨r, hr, hreal⟩
  · refine ⟨0, le_rfl, fun x => ?_⟩
    rw [htop, EReal.coe_add_top, Ideal.div, if_neg EReal.top_ne_zero, EReal.inv_top, EReal.coe_zero]
  · have hpos : 0 < c + r := add_pos_of_pos_of_nonneg hc hr
    refine ⟨1 / (c + r), by positivity, fun x => ?_⟩
    rw [hreal, ← EReal.coe_add, Ideal.div_coe hpos.ne']

/-- The quotient taken once outside the sum over keys equals the sum of the masked quotients: dividing by the
    normaliser is multiplying by one nonnegative real, which distributes over the sum; a key not after the query
    contributes rate · r · V either way (multiplication commutes and associates); a key after the query has
    rate 0, and 0 · V · r = 0 = 0 · V. -/
theorem outK_eq_outR : outK Q K V g b h t d = outR Q K V g b h t d := by
  obtain ⟨r, hr, hdiv⟩ := den_inv Q K g b h t
  rw [outK, outR, hdiv, sum_mul_coe_of_nonneg _ _ hr]
  refine Finset.sum_congr rfl fun s _ => ?_
  by_cases hs : s.val ≤ t.val
  · rw [if_pos hs, hdiv, mul_right_comm]
  · have h0 : rate Q K g b h t s = 0 := rateOf_false _ _ _ _ _ hs
    simp only [if_neg hs, h0, zero_mul]

end Cert.Spec

end
-- ==== Proof.KIPay.lean ====
/-
  One (query block, key block) pair of the attention kernel, read entry by entry on the extended reals.

  At a grid point with query block a and key block b (blocks of 256 rows, 64 features) the body forms, for query row p
  and key row j of the two blocks,
    the key row's floored norm            max(sqrt(∑_d k_d²), 1e-8),
    the input current                     I = gain_p · ∑_d q_d · (k_d / norm) + bias_p,
    the firing rate of I (0 where I is not above the threshold, 0 in place of −∞), scaled by 1/8,
    kept where key position 256·b + j is not after query position 256·a + p, and rectified:
  the number `rateB` below, which is the specification's `rateOf` at those rows.  It then adds, to the running product,
  ∑_j rate(p, j) · v(j, d), and to the running row sums ∑_j rate(p, j)²; the reset leaves both zero; and the last key
  block stores the running product over σ + sqrt(running sum + 1e-20).

  Each layout operation is read at coordinates (a shape cast that drops or adds a unit axis, a kept unit column
  broadcast along the row, a transpose), each row sum as the sum over the row's columns, each product into the zero
  array as the sum over the contracted coordinate; a change of float format is the identity; the two position words
  are below 2304, so their signed comparison is the comparison of the positions; and the comparison "r ≠ r" never
  holds on the extended reals, so the select on it is its second operand.
-/
import proofs.«123989_j65085934403863_1_alg».proof.Proof.KIState
import proofs.«123989_j65085934403863_1_alg».proof.Proof.Spec
import proofs.«123989_j65085934403863_1_alg».proof.Proof.SpecLaws
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

namespace Pay

/-! ## Layout operations of a kept unit column, a row sum and a plain product, read at coordinates -/

section Layout
variable {α : Type}

/-- A vector [a] cast to the column [a, 1] reads, at (r, o), the vector at r. -/
theorem shapeCast_a_a1_apply {a : ℕ} (x : (⟨1, ![a]⟩ : Shape).Idx → α) (h : (⟨1, ![a]⟩ : Shape).ShapeCasts ⟨2, ![a, 1]⟩)
    (r : Fin a) (o : Fin 1) : shapeCast ⟨2, ![a, 1]⟩ x h (ix2 r o) = x (ix1 r) :=
  shapeCast_apply x h _ _ (by
    have ho : o.val = 0 := by omega
    rw [Shape.rowMajor_val_two, Shape.rowMajor_val_one]
    show r.val = r.val * 1 + o.val
    rw [ho, Nat.mul_one, Nat.add_zero])

/-- A column [a, 1] broadcast to [a, b] reads, at (r, c), the column at (r, 0). -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-- A sum along the rows of an [a, b] array, read at row r, is the sum over the b columns. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext ax
  apply Fin.ext
  match ax with
  | ⟨0, _⟩ => rfl
  | ⟨1, _⟩ => rfl

/-- The product of an [m, k] by a [k, n] array into the zero array, read at (r, c), is the sum over the k
    contracted coordinates of the products of the entries. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (r : Fin m) (c : Fin n) :
    FloatOps.matmul (⟨[1], [0], [0], [1], [], [], w⟩ : DotDims _ _ _) prec A B (constant (F := Ideal) ⟨2, ![m, n]⟩ .f32 0x00000000#32) (ix2 r c)
      = ∑ e : Fin k, A (ix2 r e) * B (ix2 e c) := by
  rw [Ideal.matmul_constant_zero_apply,
    ← Equiv.sum_comp (contrEquiv1 (⟨[1], [0], [0], [1], [], [], w⟩ : DotDims _ _ _) k rfl rfl).symm]
  refine Finset.sum_congr rfl fun e _ => ?_
  have c2 := contrEquiv1_symm_val
    (⟨[1], [0], [0], [1], [], [], w⟩ : DotDims ⟨2, ![m, k]⟩ ⟨2, ![k, n]⟩ ⟨2, ![m, n]⟩) k rfl rfl e
  have l2 : (⟨[1], [0], [0], [1], [], [], w⟩ : DotDims ⟨2, ![m, k]⟩ ⟨2, ![k, n]⟩ ⟨2, ![m, n]⟩).lhsIdx (ix2 r c)
      ((contrEquiv1 _ k rfl rfl).symm e) = ix2 r e := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm e) = ix2 e c := by
    funext ax; apply Fin.ext
    match ax with
    | ⟨0, _⟩ => simp [DotDims.rhsIdx]; exact c2
    | ⟨1, _⟩ => simp [DotDims.rhsIdx]; rfl
  rw [l2, r2]

/-! ## The causal mask's word -/

/-- Row p of query block a against column j of key block b (blocks of 256, fewer than 8 of them): the signed
    comparison of the two 32-bit position words is the comparison of the positions. -/
theorem mask_word (a b p j : ℕ) (ha : a < 8) (hb : b < 8) (hp : p < 256) (hj : j < 256) :
    IntOp.cmpi .sge (IntOp.addi (BitVec.ofNat 32 p) (Scalar.muli (BitVec.ofNat 32 a) 256#32))
        (IntOp.addi (BitVec.ofNat 32 j) (Scalar.muli (BitVec.ofNat 32 b) 256#32))
      = if 256 * b + j ≤ 256 * a + p then 1#1 else 0#1 := by
  have hl : Affine.IsInt (Scalar.addi (BitVec.ofNat 32 p) (Scalar.muli (BitVec.ofNat 32 a) 256#32)) ((p : Int) + (a : Int) * 256) :=
    Affine.addi (Affine.ofNat p ⟨rfl, by omega⟩) (Affine.muli (Affine.ofNat a ⟨rfl, by omega⟩) (Affine.ofNat 256 ⟨rfl, by omega⟩) ⟨rfl, by omega, by omega⟩)
      ⟨rfl, by omega, by omega⟩
  have hr : Affine.IsInt (Scalar.addi (BitVec.ofNat 32 j) (Scalar.muli (BitVec.ofNat 32 b) 256#32)) ((j : Int) + (b : Int) * 256) :=
    Affine.addi (Affine.ofNat j ⟨rfl, by omega⟩) (Affine.muli (Affine.ofNat b ⟨rfl, by omega⟩) (Affine.ofNat 256 ⟨rfl, by omega⟩) ⟨rfl, by omega, by omega⟩)
      ⟨rfl, by omega, by omega⟩
  by_cases h : 256 * b + j ≤ 256 * a + p
  · rw [if_pos h]
    exact Affine.sge_holds hl hr (by omega)
  · rw [if_neg h]
    exact eq_zero_of_ne_one (Affine.sge_fails hl hr (by omega))

/-! ## The remaining pointwise operations at an index -/

section Pointwise
variable {s : Shape} {φ : FTy}
theorem sqrt_apply (a : FVec Ideal s φ) (i : s.Idx) : sqrt a i = Ideal.sqrt (a i) := rfl
theorem log1p_apply (a : FVec Ideal s φ) (i : s.Idx) : log1p a i = Ideal.log1p (a i) := rfl
theorem cmpi_apply {w : ℕ} (p : CmpIPredicate) (a b : IVec s w) (i : s.Idx) : cmpi p a b i = IntOp.cmpi p (a i) (b i) := rfl
theorem addi_apply {w : ℕ} (a b : IVec s w) (i : s.Idx) : addi a b i = IntOp.addi (a i) (b i) := rfl
theorem ofBits_apply (b : BitVec 32) : Scalar.ofBits (F := Ideal) .f32 b = Cert.Spec.lit b := rfl
end Pointwise

/-! ## The body's two products, its transpose and its row sums, at coordinates -/

theorem matmul_qk_apply (A : FVec Ideal S256x64 .bf16) (B : FVec Ideal S64x256 .bf16) (p j : Fin 256) :
    FloatOps.matmul dot_S256x64_S64x256_S256x256_1_0_0_1_n_n none A B (constant (F := Ideal) S256x256 .f32 0x00000000#32) (ix2 p j)
      = ∑ d : Fin 64, A (ix2 p d) * B (ix2 d j) :=
  matmul_plain_apply dot_S256x64_S64x256_S256x256_1_0_0_1_n_n_wf none A B p j

theorem matmul_rv_apply (A : FVec Ideal S256x256 .bf16) (B : FVec Ideal S256x64 .bf16) (p : Fin 256) (d : Fin 64) :
    FloatOps.matmul dot_S256x256_S256x64_S256x64_1_0_0_1_n_n none A B (constant (F := Ideal) S256x64 .f32 0x00000000#32) (ix2 p d)
      = ∑ j : Fin 256, A (ix2 p j) * B (ix2 j d) :=
  matmul_plain_apply dot_S256x256_S256x64_S256x64_1_0_0_1_n_n_wf none A B p d

theorem transpose_key_apply (v : FVec Ideal S256x64 .bf16) (d : Fin 64) (j : Fin 256) :
    transpose S64x256 [1, 0] v transposes_S256x64_p1_0_S64x256 (ix2 d j) = v (ix2 j d) :=
  transpose_ix2_apply v transposes_S256x64_p1_0_S64x256 d j

/-- The input current of query row p against key row j. -/
theorem pay6_apply (x0 x1 : Vec Ideal S1x256x64 .f32) (x3 x4 : Vec Ideal S1x256x1 .f32) (p j : Fin 256) :
    k0_pay6 x0 x1 x3 x4 (ix2 p j)
      = x3 (ix3 0 p 0) * Cert.Spec.dotRow (fun d => x0 (ix3 0 p d)) (fun d => x1 (ix3 0 j d)) + x4 (ix3 0 p 0) := by
  unfold k0_pay6
  simp only [addf_apply, mulf_apply, truncf_apply, broadcastTo_a1_ab_apply, shapeCast_1ab_ab_apply, matmul_qk_apply]
  unfold Cert.Spec.dotRow
  refine congrArg (fun t => x3 (ix3 0 p 0) * t + x4 (ix3 0 p 0)) (Finset.sum_congr rfl fun d _ => congrArg (fun t => x0 (ix3 0 p d) * t) ?_)
  refine (transpose_key_apply _ d j).trans ?_
  simp only [divf_apply, maximumf_apply, sqrt_apply, truncf_apply, broadcast_apply,
    broadcastTo_a1_ab_apply, shapeCast_a_a1_apply, shapeCast_1ab_ab_apply, ofBits_apply]
  unfold Cert.Spec.knormRow
  refine congrArg (fun t => Ideal.div (x1 (ix3 0 j d)) (max (Ideal.sqrt t) (Cert.Spec.lit 0x322BCC77#32))) ?_
  refine (rowSum_apply _ reduces_S256x64_S256 _ _ j).trans ?_
  simp only [mulf_apply, shapeCast_1ab_ab_apply]

/-- Whether the current exceeds the threshold. -/
theorem pay7_apply (x0 x1 : Vec Ideal S1x256x64 .f32) (x3 x4 : Vec Ideal S1x256x1 .f32) (p j : Fin 256) :
    k0_pay7 x0 x1 x3 x4 (ix2 p j)
      = FloatOps.cmpf (F := Ideal) (φ := .f32) .ogt (k0_pay6 x0 x1 x3 x4 (ix2 p j)) (Cert.Spec.lit 0x3C23D776#32) := rfl

/-- The denominator of the rate: τ_ref − τ_rc · log1p(−V_th / I), with 1 in place of a current not above the threshold. -/
theorem pay8_apply (x0 x1 : Vec Ideal S1x256x64 .f32) (x3 x4 : Vec Ideal S1x256x1 .f32) (p j : Fin 256) :
    k0_pay8 x0 x1 x3 x4 (ix2 p j)
      = Cert.Spec.lit 0x3B03126F#32 - Cert.Spec.lit 0x3CA3D70A#32 * Ideal.log1p (Ideal.div (Cert.Spec.lit 0xBC23D70A#32)
          (Scalar.select (k0_pay7 x0 x1 x3 x4 (ix2 p j)) (k0_pay6 x0 x1 x3 x4 (ix2 p j)) (Cert.Spec.lit 0x3F800000#32))) := rfl

theorem iota_rows_apply (p j : Fin 256) : iota .tc S256x256 32 [0] iota_S256x256_d0_w32 (ix2 p j) = BitVec.ofNat 32 p.val :=
  iota_single_apply .tc S256x256 32 0 iota_S256x256_d0_w32 (ix2 p j)
theorem iota_cols_apply (p j : Fin 256) : iota .tc S256x256 32 [1] iota_S256x256_d1_w32 (ix2 p j) = BitVec.ofNat 32 j.val :=
  iota_single_apply .tc S256x256 32 1 iota_S256x256_d1_w32 (ix2 p j)

/-- A select on a decided condition's word is the choice. -/
theorem select_ite {α : Type} (c : Prop) [Decidable c] (A B : α) :
    Scalar.select (if c then 1#1 else 0#1) A B = if c then A else B := by
  by_cases h : c
  · rw [if_pos h, if_pos h]; exact select_one A B
  · rw [if_neg h, if_neg h]; exact select_zero A B

/-- One (query row, key row) pair of the block (query block a, key block b), from the threshold bits g and the
    denominators r: the rate where the bit is set, 0 in place of −∞, scaled, kept where the key is not after the
    query, and rectified. -/
theorem pay9_apply (a b : ℕ) (ha : a < 8) (hb : b < 8) (g : IVec S256x256 1) (r : FVec Ideal S256x256 .f32) (p j : Fin 256) :
    k0_pay9 (BitVec.ofNat 32 a) (BitVec.ofNat 32 b) g r (ix2 p j)
      = max (if 256 * b + j.val ≤ 256 * a + p.val then
          Scalar.select (FloatOps.cmpf (F := Ideal) (φ := .f32) .oeq
              (Scalar.select (g (ix2 p j)) (Ideal.div (Cert.Spec.lit 0x3F800000#32) (r (ix2 p j))) 0) (Cert.Spec.lit 0xFF800000#32)) 0
            (Scalar.select (g (ix2 p j)) (Ideal.div (Cert.Spec.lit 0x3F800000#32) (r (ix2 p j))) 0) * Cert.Spec.lit 0x3E000000#32
          else 0) 0 := by
  unfold k0_pay9
  simp only [maximumf_apply, select_apply, mulf_apply, divf_apply, cmpf_apply, cmpi_apply, addi_apply, broadcast_apply, ofBits_apply]
  rw [iota_rows_apply, iota_cols_apply]
  rw [mask_word a b p.val j.val ha hb p.isLt j.isLt, select_ite, Cert.Spec.cmpf_one_self, select_zero, Cert.Spec.lit_zero]

end Pay

open Pay

/-- The rate of key row j for query row p inside one (query block, key block) pair. -/
def rateB (i : grid0.Coords) (x0 x1 : Vec Ideal S1x256x64 .f32) (x3 x4 : Vec Ideal S1x256x1 .f32) (p j : Fin 256) : EReal :=
  Cert.Spec.rateOf (256 * (i 2).val + j.val ≤ 256 * (i 1).val + p.val) (x3 (ix3 0 p 0)) (x4 (ix3 0 p 0))
    (fun d => x0 (ix3 0 p d)) (fun d => x1 (ix3 0 j d))

/-- The block of rates the body forms at a point is `rateB`, pair by pair. -/
theorem rate_apply (i : grid0.Coords) (x0 x1 : Vec Ideal S1x256x64 .f32) (x3 x4 : Vec Ideal S1x256x1 .f32) (p j : Fin 256) :
    k0_pay9 (BitVec.ofNat 32 (i 1).val) (BitVec.ofNat 32 (i 2).val) (k0_pay7 x0 x1 x3 x4) (k0_pay8 x0 x1 x3 x4) (ix2 p j)
      = rateB i x0 x1 x3 x4 p j := by
  have h1 : (i 1).val < 8 := (i 1).isLt
  have h2 : (i 2).val < 8 := (i 2).isLt
  refine (pay9_apply (i 1).val (i 2).val h1 h2 _ _ p j).trans ?_
  rw [pay8_apply, pay7_apply, pay6_apply]
  rfl

/-! ## The carried pair, at coordinates -/

theorem pay5_apply (x2 : Vec Ideal S1x256x64 .f32) (j : Fin 256) (d : Fin 64) : k0_pay5 x2 (ix2 j d) = x2 (ix3 0 j d) := by
  unfold k0_pay5
  exact shapeCast_1ab_ab_apply x2 shapeCasts_S1x256x64_S256x64 j d

theorem pay3_eq (v : FVec Ideal S256x1 .f32) : k0_pay3 v = v := by
  unfold k0_pay3
  exact shapeCast_self v shapeCasts_S256x1_S256x1

/-- The running product after one pair of blocks: what it was plus the rates against the value block. -/
theorem pay10_apply (a1 a2 : BitVec 32) (v14 : FVec Ideal S256x64 .f32) (g : IVec S256x256 1) (r : FVec Ideal S256x256 .f32)
    (s : Vec Ideal S256x64 .f32) (p : Fin 256) (d : Fin 64) :
    k0_pay10 a1 a2 v14 g r s (ix2 p d) = s (ix2 p d) + ∑ j : Fin 256, k0_pay9 a1 a2 g r (ix2 p j) * v14 (ix2 j d) := by
  unfold k0_pay10
  simp only [shapeCast_self, addf_apply, matmul_rv_apply, truncf_apply]

/-- The running sum of squares after one pair of blocks: what it was plus the squared rates of the row. -/
theorem pay11_apply (a1 a2 : BitVec 32) (g : IVec S256x256 1) (r : FVec Ideal S256x256 .f32)
    (s : Vec Ideal S256x1 .f32) (p : Fin 256) (o : Fin 1) :
    k0_pay11 a1 a2 g r s (ix2 p o)
      = s (ix2 p o) + ∑ j : Fin 256, k0_pay9 a1 a2 g r (ix2 p j) * k0_pay9 a1 a2 g r (ix2 p j) := by
  unfold k0_pay11
  simp only [addf_apply, shapeCast_a_a1_apply]
  refine congrArg (fun t => s (ix2 p o) + t) ?_
  refine (rowSum_apply _ reduces_S256x256_S256 _ _ p).trans ?_
  simp only [mulf_apply]

/-- The stored output block: the running product over σ + sqrt(running sum + 1e-20), row by row. -/
theorem pay4_apply (v9 : Vec Ideal S256x1 .f32) (v13 : Vec Ideal S256x64 .f32) (z : Fin 1) (p : Fin 256) (d : Fin 64) :
    k0_pay4 v9 v13 (ix3 z p d)
      = Ideal.div (v13 (ix2 p d)) (Cert.Spec.lit 0x3A83126F#32 + Ideal.sqrt (v9 (ix2 p 0) + Cert.Spec.lit 0x1E3CE508#32)) := by
  unfold k0_pay4
  simp only [shapeCast_ab_1ab_apply, divf_apply, broadcastTo_a1_ab_apply, addf_apply, broadcast_apply, sqrt_apply, ofBits_apply]

theorem zeroScr_fst_apply (p : Fin 256) (d : Fin 64) : (zeroScr (F := Ideal)).1 (ix2 p d) = 0 := by
  show k0_pay1 (F := Ideal) (ix2 p d) = 0
  unfold k0_pay1
  simp only [shapeCast_self, broadcast_apply, ofBits_apply, Cert.Spec.lit_zero]

theorem zeroScr_snd_apply (p : Fin 256) (o : Fin 1) : (zeroScr (F := Ideal)).2 (ix2 p o) = 0 := by
  show k0_pay2 (F := Ideal) (ix2 p o) = 0
  unfold k0_pay2
  simp only [shapeCast_self, broadcast_apply, ofBits_apply, Cert.Spec.lit_zero]

theorem stepScr_fst_apply (i : grid0.Coords) (x0 x1 x2 : Vec Ideal S1x256x64 .f32) (x3 x4 : Vec Ideal S1x256x1 .f32)
    (s : Vec Ideal S256x64 .f32 × Vec Ideal S256x1 .f32) (p : Fin 256) (d : Fin 64) :
    (stepScr i x0 x1 x2 x3 x4 s).1 (ix2 p d)
      = s.1 (ix2 p d) + ∑ j : Fin 256, rateB i x0 x1 x3 x4 p j * x2 (ix3 0 j d) := by
  show k0_pay10 (BitVec.ofNat 32 (i 1).val) (BitVec.ofNat 32 (i 2).val) (k0_pay5 x2) (k0_pay7 x0 x1 x3 x4) (k0_pay8 x0 x1 x3 x4) s.1 (ix2 p d) = _
  refine (pay10_apply _ _ _ _ _ _ p d).trans ?_
  refine congrArg (fun t => s.1 (ix2 p d) + t) (Finset.sum_congr rfl fun j _ => ?_)
  rw [rate_apply, pay5_apply]

theorem stepScr_snd_apply (i : grid0.Coords) (x0 x1 x2 : Vec Ideal S1x256x64 .f32) (x3 x4 : Vec Ideal S1x256x1 .f32)
    (s : Vec Ideal S256x64 .f32 × Vec Ideal S256x1 .f32) (p : Fin 256) (o : Fin 1) :
    (stepScr i x0 x1 x2 x3 x4 s).2 (ix2 p o)
      = s.2 (ix2 p o) + ∑ j : Fin 256, rateB i x0 x1 x3 x4 p j * rateB i x0 x1 x3 x4 p j := by
  show k0_pay3 (k0_pay11 (BitVec.ofNat 32 (i 1).val) (BitVec.ofNat 32 (i 2).val) (k0_pay7 x0 x1 x3 x4) (k0_pay8 x0 x1 x3 x4) s.2) (ix2 p o) = _
  rw [pay3_eq]
  refine (pay11_apply _ _ _ _ _ p o).trans ?_
  refine congrArg (fun t => s.2 (ix2 p o) + t) (Finset.sum_congr rfl fun j _ => ?_)
  rw [rate_apply]

theorem outOf_apply (s : Vec Ideal S256x64 .f32 × Vec Ideal S256x1 .f32) (z : Fin 1) (p : Fin 256) (d : Fin 64) :
    outOf s (ix3 z p d)
      = Ideal.div (s.1 (ix2 p d)) (Cert.Spec.lit 0x3A83126F#32 + Ideal.sqrt (s.2 (ix2 p 0) + Cert.Spec.lit 0x1E3CE508#32)) :=
  pay4_apply s.2 s.1 z p d

end Cert.KernelIdeal.Hand

end
-- ==== Proof.KIAcc.lean ====
/-
  What the attention kernel's two carried arrays hold after every grid point, and what the output block stored at a
  query block's last point holds: by induction over the points, the running product and the running sum of squares
  are the sums over the key blocks met so far that are not past the query block; at the last key block these are the
  sums over ALL 2048 keys, because a key past the query's block is after the query and its rate is masked to zero.
-/
import proofs.«123989_j65085934403863_1_alg».proof.Proof.KIBlocks
import proofs.«123989_j65085934403863_1_alg».proof.Proof.Spec
import proofs.«123989_j65085934403863_1_alg».proof.Proof.SpecLaws
import proofs.«123989_j65085934403863_1_alg».proof.Proof.KIPay

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## The grid coordinates of a point -/

theorem coords_facts : ∀ t : Fin cfg0.N,
    (grid0.coords t 0).val = t.val / 64 ∧ (grid0.coords t 1).val = (t.val / 8) % 8 ∧ (grid0.coords t 2).val = t.val % 8 :=
  (by decide +kernel : ∀ t : Fin grid0.N, _)

/-- Query row `p` of query block `q`, as a position among the 2048. -/
def row (q : Fin 8) (p : Fin 256) : Fin 2048 := ⟨256 * q.val + p.val, by omega⟩

/-- The launched arrays on core `c`. -/
abbrev aQ (c : Dev nD) : Cert.Spec.A4.Idx → EReal := m ((c : Thread nD τ).loc main_arg0)
abbrev aK (c : Dev nD) : Cert.Spec.A4.Idx → EReal := m ((c : Thread nD τ).loc main_arg1)
abbrev aV (c : Dev nD) : Cert.Spec.A4.Idx → EReal := m ((c : Thread nD τ).loc main_arg2)
abbrev aG (c : Dev nD) : Cert.Spec.C4.Idx → EReal := m ((c : Thread nD τ).loc main_arg3)
abbrev aB (c : Dev nD) : Cert.Spec.C4.Idx → EReal := m ((c : Thread nD τ).loc main_arg4)

/-- The rate of key `s` for query `tq` of head `h`, over the launched arrays. -/
abbrev rt (c : Dev nD) (h : Fin 16) (tq s : Fin 2048) : EReal := Cert.Spec.rate (aQ m c) (aK m c) (aG m c) (aB m c) h tq s

theorem rateOf_congr {v1 v2 : Prop} [Decidable v1] [Decidable v2] (hv : v1 ↔ v2) (g bb : EReal) (q k : Fin 64 → EReal) :
    Cert.Spec.rateOf v1 g bb q k = Cert.Spec.rateOf v2 g bb q k := by
  unfold Cert.Spec.rateOf
  rw [if_congr hv rfl rfl]

/-- Inside the pair (query block, key block) of point `t`, the body's rate of key row `j` for query row `p` is the
    layer's rate of key 256·(key block) + j for query 256·(query block) + p. -/
theorem rateB_eq (c : Dev nD) (t : Fin cfg0.N) (h : Fin 16) (q k : Fin 8) (hh : h.val = t.val / 64) (hq : q.val = (t.val / 8) % 8)
    (hk : k.val = t.val % 8) (p j : Fin 256) :
    rateB (grid0.coords t) (iblk m c 0 t) (iblk m c 1 t) (iblk m c 3 t) (iblk m c 4 t) p j
      = rt m c h (row q p) (Cert.Spec.blk k j) := by
  obtain ⟨c0, c1, c2⟩ := coords_facts t
  have hh' : t.val / 64 < 16 := hh ▸ h.isLt
  have hq' : 256 * ((t.val / 8) % 8) + p.val < 2048 := by have := q.isLt; have := p.isLt; omega
  have hk' : 256 * (t.val % 8) + j.val < 2048 := by have := k.isLt; have := j.isLt; omega
  have eh : (⟨t.val / 64, hh'⟩ : Fin 16) = h := Fin.ext hh.symm
  have er : (⟨256 * ((t.val / 8) % 8) + p.val, hq'⟩ : Fin 2048) = row q p := Fin.ext (by show 256 * ((t.val / 8) % 8) + p.val = 256 * q.val + p.val; omega)
  have ek : (⟨256 * (t.val % 8) + j.val, hk'⟩ : Fin 2048) = Cert.Spec.blk k j := Fin.ext (by show 256 * (t.val % 8) + j.val = 256 * k.val + j.val; omega)
  unfold rateB rt Cert.Spec.rate
  rw [iblk3_apply m c t 0 p 0 hh' hq', iblk4_apply m c t 0 p 0 hh' hq', eh, er]
  have e0 : (fun d => iblk m c 0 t (ix3 0 p d)) = fun d => aQ m c (ix4 0 h (row q p) d) :=
    funext fun d => by rw [iblk0_apply m c t 0 p d hh' hq', eh, er]
  have e1 : (fun d => iblk m c 1 t (ix3 0 j d)) = fun d => aK m c (ix4 0 h (Cert.Spec.blk k j) d) :=
    funext fun d => by rw [iblk1_apply m c t 0 j d hh' hk', eh, ek]
  rw [e0, e1]
  refine rateOf_congr ?_ _ _ _ _
  show 256 * (grid0.coords t 2).val + j.val ≤ 256 * (grid0.coords t 1).val + p.val ↔ 256 * k.val + j.val ≤ 256 * q.val + p.val
  rw [c1, c2, ← hq, ← hk]

/-! ## The carried pair after every point -/

/-- The terms summed over the keys: for the running product with the values, and for the running sum of squares. -/
abbrev fAcc (c : Dev nD) (h : Fin 16) (tq : Fin 2048) (d : Fin 64) : Fin 2048 → EReal := fun s => rt m c h tq s * aV m c (ix4 0 h s d)
abbrev fSq (c : Dev nD) (h : Fin 16) (tq : Fin 2048) : Fin 2048 → EReal := fun s => rt m c h tq s * rt m c h tq s

/-- One contribution to the running product: the key block's 256 terms. -/
theorem step_acc (c : Dev nD) (t : Fin cfg0.N) (h : Fin 16) (q k : Fin 8) (hh : h.val = t.val / 64) (hq : q.val = (t.val / 8) % 8)
    (hk : k.val = t.val % 8) (s : Vec Ideal S256x64 .f32 × Vec Ideal S256x1 .f32) (p : Fin 256) (d : Fin 64) :
    (stepScr (grid0.coords t) (iblk m c 0 t) (iblk m c 1 t) (iblk m c 2 t) (iblk m c 3 t) (iblk m c 4 t) s).1 (ix2 p d)
      = s.1 (ix2 p d) + ∑ j : Fin 256, fAcc m c h (row q p) d (Cert.Spec.blk k j) := by
  have hh' : t.val / 64 < 16 := hh ▸ h.isLt
  have hk' : ∀ j : Fin 256, 256 * (t.val % 8) + j.val < 2048 := fun j => by have := k.isLt; have := j.isLt; omega
  refine (stepScr_fst_apply (grid0.coords t) (iblk m c 0 t) (iblk m c 1 t) (iblk m c 2 t) (iblk m c 3 t) (iblk m c 4 t) s p d).trans ?_
  refine congrArg _ (Finset.sum_congr rfl fun j _ => ?_)
  have eh : (⟨t.val / 64, hh'⟩ : Fin 16) = h := Fin.ext hh.symm
  have ek : (⟨256 * (t.val % 8) + j.val, hk' j⟩ : Fin 2048) = Cert.Spec.blk k j := Fin.ext (by show 256 * (t.val % 8) + j.val = 256 * k.val + j.val; omega)
  rw [rateB_eq m c t h q k hh hq hk p j, iblk2_apply m c t 0 j d hh' (hk' j), eh, ek]

/-- One contribution to the running sum of squares. -/
theorem step_sq (c : Dev nD) (t : Fin cfg0.N) (h : Fin 16) (q k : Fin 8) (hh : h.val = t.val / 64) (hq : q.val = (t.val / 8) % 8)
    (hk : k.val = t.val % 8) (s : Vec Ideal S256x64 .f32 × Vec Ideal S256x1 .f32) (p : Fin 256) (o : Fin 1) :
    (stepScr (grid0.coords t) (iblk m c 0 t) (iblk m c 1 t) (iblk m c 2 t) (iblk m c 3 t) (iblk m c 4 t) s).2 (ix2 p o)
      = s.2 (ix2 p o) + ∑ j : Fin 256, fSq m c h (row q p) (Cert.Spec.blk k j) := by
  refine (stepScr_snd_apply (grid0.coords t) (iblk m c 0 t) (iblk m c 1 t) (iblk m c 2 t) (iblk m c 3 t) (iblk m c 4 t) s p o).trans ?_
  refine congrArg _ (Finset.sum_congr rfl fun j _ => ?_)
  rw [rateB_eq m c t h q k hh hq hk p j]

/-- After point n (head h, query block q, key block n % 8) the carried pair holds, row by row, the sums over the
    key blocks 0 … min (n % 8) q: the blocks past the query block are skipped. -/
theorem scr_inv (c : Dev nD) : ∀ (n : ℕ) (hn : n < cfg0.N) (h : Fin 16) (q : Fin 8), h.val = n / 64 → q.val = (n / 8) % 8 →
    (∀ (p : Fin 256) (d : Fin 64), (scrAt m c n hn).1 (ix2 p d) = Cert.Spec.partialSum (fAcc m c h (row q p) d) (min (n % 8) q.val + 1))
    ∧ (∀ (p : Fin 256) (o : Fin 1), (scrAt m c n hn).2 (ix2 p o) = Cert.Spec.partialSum (fSq m c h (row q p)) (min (n % 8) q.val + 1)) := by
  intro n
  induction n with
  | zero =>
    intro hn h q hh hq
    have hb : scrAt m c 0 hn = stepScr (grid0.coords ⟨0, hn⟩) (iblk m c 0 ⟨0, hn⟩) (iblk m c 1 ⟨0, hn⟩) (iblk m c 2 ⟨0, hn⟩) (iblk m c 3 ⟨0, hn⟩) (iblk m c 4 ⟨0, hn⟩) zeroScr := by
      rw [scrAt_zero]; unfold bodyScr; simp only [Nat.zero_mod, Nat.zero_le, if_true]
    have e : min (0 % 8) q.val + 1 = 0 + 1 := by omega
    rw [hb, e]
    refine ⟨fun p d => ?_, fun p o => ?_⟩
    · rw [step_acc m c ⟨0, hn⟩ h q ⟨0, by omega⟩ hh hq rfl, zeroScr_fst_apply, Cert.Spec.partialSum_succ _ 0 (by omega)]; rfl
    · rw [step_sq m c ⟨0, hn⟩ h q ⟨0, by omega⟩ hh hq rfl, zeroScr_snd_apply, Cert.Spec.partialSum_succ _ 0 (by omega)]; rfl
  | succ n ih =>
    intro hn h q hh hq
    have hN : n + 1 < 1024 := lt_of_lt_of_eq hn N_0
    have hk8 : (n + 1) % 8 < 8 := Nat.mod_lt _ (by omega)
    by_cases hz : (n + 1) % 8 = 0
    · have hb : scrAt m c (n + 1) hn = stepScr (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) zeroScr := by
        rw [scrAt_succ]; unfold bodyScr; simp only [hz, Nat.zero_le, if_true]
      have e : min ((n + 1) % 8) q.val + 1 = 0 + 1 := by omega
      rw [hb, e]
      refine ⟨fun p d => ?_, fun p o => ?_⟩
      · rw [step_acc m c ⟨n + 1, hn⟩ h q ⟨0, by omega⟩ hh hq (by show 0 = (n + 1) % 8; omega), zeroScr_fst_apply, Cert.Spec.partialSum_succ _ 0 (by omega)]; rfl
      · rw [step_sq m c ⟨n + 1, hn⟩ h q ⟨0, by omega⟩ hh hq (by show 0 = (n + 1) % 8; omega), zeroScr_snd_apply, Cert.Spec.partialSum_succ _ 0 (by omega)]; rfl
    · obtain ⟨iha, ihs⟩ := ih (Nat.lt_of_succ_lt hn) h q (by omega) (by omega)
      by_cases hle : (n + 1) % 8 ≤ ((n + 1) / 8) % 8
      · have hb : scrAt m c (n + 1) hn = stepScr (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (scrAt m c n (Nat.lt_of_succ_lt hn)) := by
          rw [scrAt_succ]; unfold bodyScr; simp only [if_pos hle, if_neg hz]
        have e1 : min (n % 8) q.val + 1 = (n + 1) % 8 := by omega
        have e2 : min ((n + 1) % 8) q.val + 1 = (n + 1) % 8 + 1 := by omega
        rw [hb, e2]
        refine ⟨fun p d => ?_, fun p o => ?_⟩
        · rw [step_acc m c ⟨n + 1, hn⟩ h q ⟨(n + 1) % 8, hk8⟩ hh hq rfl, iha p d, e1, Cert.Spec.partialSum_succ _ ((n + 1) % 8) hk8]
        · rw [step_sq m c ⟨n + 1, hn⟩ h q ⟨(n + 1) % 8, hk8⟩ hh hq rfl, ihs p o, e1, Cert.Spec.partialSum_succ _ ((n + 1) % 8) hk8]
      · have hb : scrAt m c (n + 1) hn = scrAt m c n (Nat.lt_of_succ_lt hn) := by
          rw [scrAt_succ]; unfold bodyScr; simp only [if_neg hle, if_neg hz]
        have e : min ((n + 1) % 8) q.val + 1 = min (n % 8) q.val + 1 := by omega
        rw [hb, e]
        exact ⟨iha, ihs⟩

/-- THE OUTPUT BLOCK stored at the last key block of (head h, query block q): row p, feature d is the layer's output
    for query 256·q + p. The key blocks past the query block hold only keys after every query of the block, whose
    rates are zero, so the sums over the first q + 1 blocks are the sums over all the keys. -/
theorem outAt_apply (c : Dev nD) (t : Fin cfg0.N) (h7 : t.val % 8 = 7) (h : Fin 16) (q : Fin 8) (hh : h.val = t.val / 64)
    (hq : q.val = (t.val / 8) % 8) (z : Fin 1) (p : Fin 256) (d : Fin 64) :
    outAt m c t (ix3 z p d) = Cert.Spec.outK (aQ m c) (aK m c) (aV m c) (aG m c) (aB m c) h (row q p) d := by
  obtain ⟨ha, hs⟩ := scr_inv m c t.val t.isLt h q hh hq
  have hq8 : q.val < 8 := q.isLt
  have e : min (t.val % 8) q.val + 1 = q.val + 1 := by omega
  have hzero : ∀ s : Fin 2048, 256 * (q.val + 1) ≤ s.val → rt m c h (row q p) s = 0 := fun s hs' =>
    Cert.Spec.rateOf_false _ _ _ _ _ (by show ¬ s.val ≤ 256 * q.val + p.val; have := p.isLt; omega)
  unfold outAt
  rw [outOf_apply, ha p d, hs p 0, e,
    Cert.Spec.partialSum_causal _ q.val hq8 (fun s hs' => by show rt m c h (row q p) s * _ = 0; rw [hzero s hs', zero_mul]),
    Cert.Spec.partialSum_causal _ q.val hq8 (fun s hs' => by show rt m c h (row q p) s * rt m c h (row q p) s = 0; rw [hzero s hs', zero_mul])]
  rfl

end Cert.KernelIdeal.Hand

end
-- ==== Proof.KIValue.lean ====
/-
  The attention kernel's result array, read: every index of the [16, 2048, 64] output lies in the block written back
  at the last key block of its head and query block; that block holds the layer's output (the running product over
  the normaliser of the running sum of squares, both over all the keys); the host then adds a leading unit axis.
-/
import proofs.«123989_j65085934403863_1_alg».proof.Proof.KIFrame
import proofs.«123989_j65085934403863_1_alg».proof.Proof.KIAcc
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The layer's output over the launched arrays, as the [16, 2048, 64] array the call returns. -/
def G5 (c : Dev nD) : S16x2048x64.Idx → EReal := fun i =>
  Cert.Spec.outK (aQ m c) (aK m c) (aV m c) (aG m c) (aB m c) ⟨(i 0).val, (i 0).isLt⟩ ⟨(i 1).val, (i 1).isLt⟩ ⟨(i 2).val, (i 2).isLt⟩

/-- What a point at the last key block writes back is its block of that array. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  have hN : t.val < 1024 := lt_of_lt_of_eq t.isLt N_0
  show (cfg0.win 5).cut (grid0.coords t) ((dats m 0 c).after 5 t) = _
  rw [after0_5]
  funext y
  rw [View.read_apply]
  show outAt m c t y = G5 m c (((cfg0.win 5).blk t).view.emb y)
  obtain ⟨z, p, d, rfl⟩ : ∃ (z : Fin 1) (p : Fin 256) (d : Fin 64), y = ix3 z p d := ⟨y 0, y 1, y 2, eq_ix3 y⟩
  obtain ⟨-, -, -, -, -, -, -, -, -, -, -, -, -, -, -, e0, e1, e2⟩ := idx_facts t
  rw [outAt_apply m c t h7 ⟨t.val / 64, by omega⟩ ⟨(t.val / 8) % 8, by omega⟩ rfl rfl z p d]
  unfold G5
  have a0 : ((((cfg0.win 5).blk t).view.emb (ix3 z p d)) 0).val = t.val / 64 := by
    show win0_5.index t (0 : Fin 3) * 1 + 1 * (z : ℕ) = t.val / 64; have := z.isLt; omega
  have a1 : ((((cfg0.win 5).blk t).view.emb (ix3 z p d)) 1).val = 256 * ((t.val / 8) % 8) + p.val := by
    show win0_5.index t (1 : Fin 3) * 256 + 1 * (p : ℕ) = _; omega
  have a2 : ((((cfg0.win 5).blk t).view.emb (ix3 z p d)) 2).val = d.val := by
    show win0_5.index t (2 : Fin 3) * 64 + 1 * (d : ℕ) = _; omega
  refine congr (congr (congrArg _ (Fin.ext ?_)) (Fin.ext ?_)) (Fin.ext ?_)
  · exact a0.symm
  · exact a1.symm
  · exact a2.symm

/-- An index of the output array is in point `t`'s block iff each coordinate is in the block's range on its axis. -/
theorem mem_blk5 (t : Fin cfg0.N) (i : S16x2048x64.Idx) :
    i ∈ ((cfg0.win 5).blk t).view.set ↔ ∀ a : Fin 3, win0_5.index t a * S1x256x64.size a ≤ (i a).val ∧ (i a).val < win0_5.index t a * S1x256x64.size a + S1x256x64.size a := by
  show i ∈ ((View.whole main_v5).slice (win0_5.rect t)).set ↔ _
  rw [View.set_slice_whole, Rect.mem_set_unit]
  exact Iff.rfl

/-- Every index of the output array is in the block some last-key-block point writes back. -/
theorem cover5 (i : S16x2048x64.Idx) : ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 64 := (i 2).isLt
  have hN : 64 * (i 0).val + 8 * ((i 1).val / 256) + 7 < cfg0.N := by rw [show cfg0.N = 1024 from N_0]; omega
  refine ⟨⟨64 * (i 0).val + 8 * ((i 1).val / 256) + 7, hN⟩, (flush0_5 _).mpr (by show (64 * (i 0).val + 8 * ((i 1).val / 256) + 7) % 8 = 7; omega), ?_⟩
  obtain ⟨-, -, -, -, -, -, -, -, -, -, -, -, -, -, -, e0, e1, e2⟩ := idx_facts ⟨64 * (i 0).val + 8 * ((i 1).val / 256) + 7, hN⟩
  rw [mem_blk5]
  intro a
  match a with
  | ⟨0, _⟩ => show win0_5.index _ (0 : Fin 3) * 1 ≤ (i 0).val ∧ (i 0).val < win0_5.index _ (0 : Fin 3) * 1 + 1; rw [e0]; show (64 * (i 0).val + 8 * ((i 1).val / 256) + 7) / 64 * 1 ≤ _ ∧ _ < (64 * (i 0).val + 8 * ((i 1).val / 256) + 7) / 64 * 1 + 1; omega
  | ⟨1, _⟩ => show win0_5.index _ (1 : Fin 3) * 256 ≤ (i 1).val ∧ (i 1).val < win0_5.index _ (1 : Fin 3) * 256 + 256; rw [e1]; show (64 * (i 0).val + 8 * ((i 1).val / 256) + 7) / 8 % 8 * 256 ≤ _ ∧ _ < (64 * (i 0).val + 8 * ((i 1).val / 256) + 7) / 8 % 8 * 256 + 256; omega
  | ⟨2, _⟩ => show win0_5.index _ (2 : Fin 3) * 64 ≤ (i 2).val ∧ (i 2).val < win0_5.index _ (2 : Fin 3) * 64 + 64; rw [e2]; omega

/-- THE OUTPUT ARRAY after the region: the layer's output over the launched arrays. -/
theorem final5 (c : Dev nD) : (dats m 0 c).arrAt 5 cfg0.N = G5 m c :=
  (dats m 0 c).arrAt_eq_of_cover 5 (G5 m c) (fun t hf => flushed5_eq m c t hf) (cover5)

/-- The program's result: the output array with a leading unit axis. -/
def kernelOut (c : Dev nD) : S1x16x2048x64.Idx → EReal := fun i =>
  Cert.Spec.outK (aQ m c) (aK m c) (aV m c) (aG m c) (aB m c) ⟨(i 1).val, (i 1).isLt⟩ ⟨(i 2).val, (i 2).isLt⟩ ⟨(i 3).val, (i 3).isLt⟩

theorem tail_eq (c : Dev nD) : Pipeline.afterTail₀ cfgs (dats m) 0 (V0 m) [hostOps1] c main_v6 = kernelOut m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5) = G5 m c :=
    (Pipeline.withArrays_arr spec0 launch0.win.arr_inj c _ _ 5).trans (final5 m c)
  rw [e]
  funext i
  obtain ⟨z, h, t, d, rfl⟩ : ∃ (z : Fin 1) (h : Fin 16) (t : Fin 2048) (d : Fin 64), i = ix4 z h t d := ⟨i 0, i 1, i 2, i 3, eq_ix4 i⟩
  refine (broadcastInDim_apply _ _ (G5 m c) (ix4 z h t d) (ix3 h t d) (fun a => ?_)).trans rfl
  match a with
  | ⟨0, _⟩ => rfl
  | ⟨1, _⟩ => rfl
  | ⟨2, _⟩ => rfl

/-- THE KERNEL'S RUN, READ: every weakly fair execution ends with the result array at the layer's output over the launched
    arrays and the argument arrays unchanged. -/
theorem kernel_run : θ_run (defs (F := Ideal)) (onTc (τ := τ) (main (F := Ideal))) ⟨m, fun _ => 0, ρ⟩ (fun r => ∀ c : Dev nD,
      r.2.mem ((c.tc : Thread nD τ).loc main_v6) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Hand

end
-- ==== Proof.RefTerm.lean ====
/- The reference program's result as a PURE function of its five argument
   arrays, stage by stage: each definition below is one value (or a few consecutive values) of the
   reference's @main, written with the same operations, shape records and side conditions, in the same
   operand order, over the earlier stages. Nothing here is evaluated: the arrays are large, and the
   definitions are only ever unfolded at an index. -/
import proofs.«123989_j65085934403863_1_alg».proof.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

/-- %0: the temperature, the scalar `64 ^ (1/2)`. -/
def temp : FVec F S_ .f32 :=
  Host.powf (constant S_ .f32 0x42800000#32) (constant S_ .f32 0x3F000000#32)

variable [Facts]

/-- %1 (@norm of the keys): per row, the square root of the sum of squares along the last axis, kept as
    an axis of size one. -/
def knorm (a1 : FVec F S1x16x2048x64 .f32) : FVec F S1x16x2048x1 .f32 :=
  Host.sqrt (broadcastInDim S1x16x2048x1 ![0, 1, 2] bcast_S1x16x2048_S1x16x2048x1_0_1_2
    (Host.reduceAdd (mulf a1 a1) (constant S_ .f32 0x00000000#32) reducesTo_S1x16x2048x64_S1x16x2048_d3 h_S_))

/-- %3: the norm floored at the scalar `1e-8`. -/
def knormFloor (a1 : FVec F S1x16x2048x64 .f32) : FVec F S1x16x2048x1 .f32 :=
  maximumf (knorm a1) (broadcastInDim S1x16x2048x1 ![] bcast_S_S1x16x2048x1 (constant S_ .f32 0x322BCC77#32))

/-- %5: the keys divided by their floored norm. -/
def khat (a1 : FVec F S1x16x2048x64 .f32) : FVec F S1x16x2048x64 .f32 :=
  Host.divf a1 (broadcastInDim S1x16x2048x64 ![0, 1, 2, 3] bcast_S1x16x2048x1_S1x16x2048x64_0_1_2_3 (knormFloor a1))

/-- %6: queries against normalised keys, contracted along the last axis of both. -/
def dots (a0 a1 : FVec F S1x16x2048x64 .f32) : FVec F S1x16x2048x2048 .f32 :=
  Host.dotGeneral dot_S1x16x2048x64_S1x16x2048x64_S1x16x2048x2048_3_3_2_2_01_01 none a0 (khat a1)

/-- %10: the current, `a3 * dots + a4` with the two per-row columns broadcast along the last axis. -/
def cur (a0 a1 : FVec F S1x16x2048x64 .f32) (a3 a4 : FVec F S1x16x2048x1 .f32) : FVec F S1x16x2048x2048 .f32 :=
  addf
    (mulf (broadcastInDim S1x16x2048x2048 ![0, 1, 2, 3] bcast_S1x16x2048x1_S1x16x2048x2048_0_1_2_3 a3) (dots a0 a1))
    (broadcastInDim S1x16x2048x2048 ![0, 1, 2, 3] bcast_S1x16x2048x1_S1x16x2048x2048_0_1_2_3 a4)

/-- %12: where the current exceeds the threshold scalar (ordered greater-than). -/
def good (a0 a1 : FVec F S1x16x2048x64 .f32) (a3 a4 : FVec F S1x16x2048x1 .f32) : IVec S1x16x2048x2048 1 :=
  cmpf .ogt (cur a0 a1 a3 a4)
    (broadcastInDim S1x16x2048x2048 ![] bcast_S_S1x16x2048x2048 (constant S_ .f32 0x3C23D776#32))

/-- %13: the current where it is good, the scalar one elsewhere. -/
def safe (a0 a1 : FVec F S1x16x2048x64 .f32) (a3 a4 : FVec F S1x16x2048x1 .f32) : FVec F S1x16x2048x2048 .f32 :=
  select (good a0 a1 a3 a4) (cur a0 a1 a3 a4)
    (broadcastInDim S1x16x2048x2048 ![] bcast_S_S1x16x2048x2048 (constant S_ .f32 0x3F800000#32))

/-- %16: `log1p (c / safe)` with `c` the scalar `-0.01`. -/
def lg (a0 a1 : FVec F S1x16x2048x64 .f32) (a3 a4 : FVec F S1x16x2048x1 .f32) : FVec F S1x16x2048x2048 .f32 :=
  Host.log1p (Host.divf
    (broadcastInDim S1x16x2048x2048 ![] bcast_S_S1x16x2048x2048 (constant S_ .f32 0xBC23D70A#32))
    (safe a0 a1 a3 a4))

/-- %20: the scalar `0.002` minus the scalar `0.02` times %16. -/
def gap (a0 a1 : FVec F S1x16x2048x64 .f32) (a3 a4 : FVec F S1x16x2048x1 .f32) : FVec F S1x16x2048x2048 .f32 :=
  subf
    (broadcastInDim S1x16x2048x2048 ![] bcast_S_S1x16x2048x2048 (constant S_ .f32 0x3B03126F#32))
    (mulf (broadcastInDim S1x16x2048x2048 ![] bcast_S_S1x16x2048x2048 (constant S_ .f32 0x3CA3D70A#32))
      (lg a0 a1 a3 a4))

/-- %22: the scalar one divided by %20. -/
def inv (a0 a1 : FVec F S1x16x2048x64 .f32) (a3 a4 : FVec F S1x16x2048x1 .f32) : FVec F S1x16x2048x2048 .f32 :=
  Host.divf
    (broadcastInDim S1x16x2048x2048 ![] bcast_S_S1x16x2048x2048 (constant S_ .f32 0x3F800000#32))
    (gap a0 a1 a3 a4)

/-- %23: %22 where the current is good, zero elsewhere. -/
def lif0 (a0 a1 : FVec F S1x16x2048x64 .f32) (a3 a4 : FVec F S1x16x2048x1 .f32) : FVec F S1x16x2048x2048 .f32 :=
  select (good a0 a1 a3 a4) (inv a0 a1 a3 a4)
    (broadcastInDim S1x16x2048x2048 ![] bcast_S_S1x16x2048x2048 (constant S_ .f32 0x00000000#32))

/-- @nan_to_num's first replacement: zero where the operand is unordered with itself. -/
def nanOut (x : FVec F S1x16x2048x2048 .f32) : FVec F S1x16x2048x2048 .f32 :=
  select (cmpf .une x x)
    (broadcastInDim S1x16x2048x2048 ![] bcast_S_S1x16x2048x2048 (constant S_ .f32 0x00000000#32)) x

/-- @nan_to_num's second replacement: where the operand equals plus infinity, the scalar plus infinity. -/
def posInfOut (x : FVec F S1x16x2048x2048 .f32) : FVec F S1x16x2048x2048 .f32 :=
  select (cmpf .oeq x (broadcastInDim S1x16x2048x2048 ![] bcast_S_S1x16x2048x2048 (constant S_ .f32 0x7F800000#32)))
    (broadcastInDim S1x16x2048x2048 ![] bcast_S_S1x16x2048x2048 (constant S_ .f32 0x7F800000#32)) x

/-- @nan_to_num's third replacement: where the operand equals minus infinity, zero. -/
def negInfOut (x : FVec F S1x16x2048x2048 .f32) : FVec F S1x16x2048x2048 .f32 :=
  select (cmpf .oeq x (broadcastInDim S1x16x2048x2048 ![] bcast_S_S1x16x2048x2048 (constant S_ .f32 0xFF800000#32)))
    (broadcastInDim S1x16x2048x2048 ![] bcast_S_S1x16x2048x2048 (constant S_ .f32 0x00000000#32)) x

/-- %24 (@nan_to_num of %23): the three replacements in turn. -/
def lif (a0 a1 : FVec F S1x16x2048x64 .f32) (a3 a4 : FVec F S1x16x2048x1 .f32) : FVec F S1x16x2048x2048 .f32 :=
  negInfOut (posInfOut (nanOut (lif0 a0 a1 a3 a4)))

/-- %26: %24 divided by the temperature. -/
def scores (a0 a1 : FVec F S1x16x2048x64 .f32) (a3 a4 : FVec F S1x16x2048x1 .f32) : FVec F S1x16x2048x2048 .f32 :=
  Host.divf (lif a0 a1 a3 a4) (broadcastInDim S1x16x2048x2048 ![] bcast_S_S1x16x2048x2048 (temp (F := F)))

/-- %28 (@tril of the all-true matrix): true where the row index, plus zero, is at least the column index. -/
def trilM : IVec S2048x2048 1 :=
  select
    (cmpi .sge
      (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 1#1))
    (broadcastInDim S2048x2048 ![] bcast_S_S2048x2048 (constantI S_ 1 0#1))

/-- %29: the lower-triangle mask with two leading axes of size one. -/
def tril : IVec S1x1x2048x2048 1 :=
  broadcastInDim S1x1x2048x2048 ![2, 3] bcast_S2048x2048_S1x1x2048x2048_2_3 trilM

/-- %30: the scores inside the lower triangle, zero outside. -/
def masked (a0 a1 : FVec F S1x16x2048x64 .f32) (a3 a4 : FVec F S1x16x2048x1 .f32) : FVec F S1x16x2048x2048 .f32 :=
  select (broadcastInDim S1x16x2048x2048 ![0, 1, 2, 3] bcast_S1x1x2048x2048_S1x16x2048x2048_0_1_2_3 tril)
    (scores a0 a1 a3 a4)
    (broadcastInDim S1x16x2048x2048 ![] bcast_S_S1x16x2048x2048 (constant S_ .f32 0x00000000#32))

/-- %32: the masked scores floored at zero. -/
def rates (a0 a1 : FVec F S1x16x2048x64 .f32) (a3 a4 : FVec F S1x16x2048x1 .f32) : FVec F S1x16x2048x2048 .f32 :=
  maximumf (masked a0 a1 a3 a4)
    (broadcastInDim S1x16x2048x2048 ![] bcast_S_S1x16x2048x2048 (constant S_ .f32 0x00000000#32))

/-- %35: per row, the sum of the squared rates along the last axis, kept as an axis of size one. -/
def sumsq (a0 a1 : FVec F S1x16x2048x64 .f32) (a3 a4 : FVec F S1x16x2048x1 .f32) : FVec F S1x16x2048x1 .f32 :=
  broadcastInDim S1x16x2048x1 ![0, 1, 2] bcast_S1x16x2048_S1x16x2048x1_0_1_2
    (Host.reduceAdd (mulf (rates a0 a1 a3 a4) (rates a0 a1 a3 a4)) (constant S_ .f32 0x00000000#32)
      reducesTo_S1x16x2048x2048_S1x16x2048_d3 h_S_)

/-- %40: the scalar `1e-3` plus the square root of (%35 plus the scalar `1e-20`). -/
def denom (a0 a1 : FVec F S1x16x2048x64 .f32) (a3 a4 : FVec F S1x16x2048x1 .f32) : FVec F S1x16x2048x1 .f32 :=
  addf
    (broadcastInDim S1x16x2048x1 ![] bcast_S_S1x16x2048x1 (constant S_ .f32 0x3A83126F#32))
    (Host.sqrt (addf (sumsq a0 a1 a3 a4)
      (broadcastInDim S1x16x2048x1 ![] bcast_S_S1x16x2048x1 (constant S_ .f32 0x1E3CE508#32))))

/-- %42: the rates divided by the row's denominator. -/
def normed (a0 a1 : FVec F S1x16x2048x64 .f32) (a3 a4 : FVec F S1x16x2048x1 .f32) : FVec F S1x16x2048x2048 .f32 :=
  Host.divf (rates a0 a1 a3 a4)
    (broadcastInDim S1x16x2048x2048 ![0, 1, 2, 3] bcast_S1x16x2048x1_S1x16x2048x2048_0_1_2_3 (denom a0 a1 a3 a4))

/-- %43: the normalised rates inside the lower triangle, zero outside. -/
def weights (a0 a1 : FVec F S1x16x2048x64 .f32) (a3 a4 : FVec F S1x16x2048x1 .f32) : FVec F S1x16x2048x2048 .f32 :=
  select (broadcastInDim S1x16x2048x2048 ![0, 1, 2, 3] bcast_S1x1x2048x2048_S1x16x2048x2048_0_1_2_3 tril)
    (normed a0 a1 a3 a4)
    (broadcastInDim S1x16x2048x2048 ![] bcast_S_S1x16x2048x2048 (constant S_ .f32 0x00000000#32))

/-- %44, the reference's result: the weights against the values, contracted along the weights' last axis
    and the values' row axis. -/
def refOut (a0 a1 a2 : FVec F S1x16x2048x64 .f32) (a3 a4 : FVec F S1x16x2048x1 .f32) : FVec F S1x16x2048x64 .f32 :=
  Host.dotGeneral dot_S1x16x2048x2048_S1x16x2048x64_S1x16x2048x64_3_2_2_3_01_01 none (weights a0 a1 a3 a4) a2

end Cert.ReferenceIdeal.Hand

end
-- ==== Proof.RefRun.lean ====
/- The run of the reference program's @main: its statements as ONE list of host
   operations, each call's body listed at its call site over that call's buffers, and the statement that
   every weakly fair execution ends with the result buffer at the pure term `refOut` of the five arguments'
   launch contents, the arguments unchanged. -/
import proofs.«123989_j65085934403863_1_alg».proof.Proof.RefTerm
import proofs.«123989_j65085934403863_1_alg».proof.Proof.Gen.ReferenceIdeal
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F] [Facts]

/-- @main's operations in order, the calls unfolded: @norm's five into the first call's buffers, each
    @_where's three, @nan_to_num's sixteen (its own ten and the three inner selections' two each), @tril's
    nine, each @_where_1's four, around @main's own fifty-eight. -/
abbrev ops : List (HloOp τ sig (Elt F)) :=
  [
    StableHlo.nullary main_cst (constant S_ .f32 0x42800000#32),
    StableHlo.nullary main_cst_0 (constant S_ .f32 0x3F000000#32),
    StableHlo.binary main_cst main_cst_0 main_v0 (Host.powf : (⟨S_, .f32⟩ : BufTy).Contents (Elt F) → (⟨S_, .f32⟩ : BufTy).Contents (Elt F) → (⟨S_, .f32⟩ : BufTy).Contents (Elt F)),
    StableHlo.TRef.binary (.of main_arg1 : StableHlo.TRef sig ⟨S1x16x2048x64, .f32⟩) (.of main_arg1 : StableHlo.TRef sig ⟨S1x16x2048x64, .f32⟩) main_call0.v0 mulf,
    StableHlo.TRef.nullary main_call0.cst (constant S_ .f32 0x00000000#32),
    StableHlo.TRef.binary main_call0.v0 main_call0.cst main_call0.v1 (fun x v => Host.reduceAdd x v reducesTo_S1x16x2048x64_S1x16x2048_d3 h_S_),
    StableHlo.TRef.unary main_call0.v1 main_call0.v2 (broadcastInDim S1x16x2048x1 ![0, 1, 2] bcast_S1x16x2048_S1x16x2048x1_0_1_2),
    StableHlo.TRef.unary main_call0.v2 main_call0.v3 Host.sqrt,
    StableHlo.nullary main_cst_1 (constant S_ .f32 0x322BCC77#32),
    StableHlo.unary main_cst_1 main_v2 (broadcastInDim S1x16x2048x1 ![] bcast_S_S1x16x2048x1 : (⟨S_, .f32⟩ : BufTy).Contents (Elt F) → (⟨S1x16x2048x1, .f32⟩ : BufTy).Contents (Elt F)),
    StableHlo.binary main_v1 main_v2 main_v3 (maximumf : (⟨S1x16x2048x1, .f32⟩ : BufTy).Contents (Elt F) → (⟨S1x16x2048x1, .f32⟩ : BufTy).Contents (Elt F) → (⟨S1x16x2048x1, .f32⟩ : BufTy).Contents (Elt F)),
    StableHlo.unary main_v3 main_v4 (broadcastInDim S1x16x2048x64 ![0, 1, 2, 3] bcast_S1x16x2048x1_S1x16x2048x64_0_1_2_3 : (⟨S1x16x2048x1, .f32⟩ : BufTy).Contents (Elt F) → (⟨S1x16x2048x64, .f32⟩ : BufTy).Contents (Elt F)),
    StableHlo.binary main_arg1 main_v4 main_v5 (Host.divf : (⟨S1x16x2048x64, .f32⟩ : BufTy).Contents (Elt F) → (⟨S1x16x2048x64, .f32⟩ : BufTy).Contents (Elt F) → (⟨S1x16x2048x64, .f32⟩ : BufTy).Contents (Elt F)),
    StableHlo.binary main_arg0 main_v5 main_v6 ((fun l r => Host.dotGeneral dot_S1x16x2048x64_S1x16x2048x64_S1x16x2048x2048_3_3_2_2_01_01 none l r) : (⟨S1x16x2048x64, .f32⟩ : BufTy).Contents (Elt F) → (⟨S1x16x2048x64, .f32⟩ : BufTy).Contents (Elt F) → (⟨S1x16x2048x2048, .f32⟩ : BufTy).Contents (Elt F)),
    StableHlo.unary main_arg3 main_v7 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    StableHlo.binary main_v7 main_v6 main_v8 (mulf : (⟨S1x16x2048x2048, .f32⟩ : BufTy).Contents (Elt F) → (⟨S1x16x2048x2048, .f32⟩ : BufTy).Contents (Elt F) → (⟨S1x16x2048x2048, .f32⟩ : BufTy).Contents (Elt F)),
    StableHlo.unary main_arg4 main_v9 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    StableHlo.binary main_v8 main_v9 main_v10 (addf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_2 (constant S_ .f32 0x3C23D776#32),
    StableHlo.unary main_cst_2 main_v11 (broadcastInDim S1x16x2048x2048 ![] bcast_S_S1x16x2048x2048 : (⟨S_, .f32⟩ : BufTy).Contents (Elt F) → (⟨S1x16x2048x2048, .f32⟩ : BufTy).Contents (Elt F)),
    StableHlo.binary main_v10 main_v11 main_v12 (cmpf .ogt : (⟨S1x16x2048x2048, .f32⟩ : BufTy).Contents (Elt F) → (⟨S1x16x2048x2048, .f32⟩ : BufTy).Contents (Elt F) → (⟨S1x16x2048x2048, .i1⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S1x16x2048x2048 ![] bcast_S_S1x16x2048x2048),
    StableHlo.TRef.ternary (.of main_v12 : StableHlo.TRef sig ⟨S1x16x2048x2048, .i1⟩) (.of main_v10 : StableHlo.TRef sig ⟨S1x16x2048x2048, .f32⟩) main_call1.v1 main_call1.v2 select,
    StableHlo.nullary main_cst_4 (constant S_ .f32 0xBC23D70A#32),
    StableHlo.unary main_cst_4 main_v14 (broadcastInDim S1x16x2048x2048 ![] bcast_S_S1x16x2048x2048 : (⟨S_, .f32⟩ : BufTy).Contents (Elt F) → (⟨S1x16x2048x2048, .f32⟩ : BufTy).Contents (Elt F)),
    StableHlo.binary main_v14 main_v13 main_v15 (Host.divf : (⟨S1x16x2048x2048, .f32⟩ : BufTy).Contents (Elt F) → (⟨S1x16x2048x2048, .f32⟩ : BufTy).Contents (Elt F) → (⟨S1x16x2048x2048, .f32⟩ : BufTy).Contents (Elt F)),
    StableHlo.unary main_v15 main_v16 (Host.log1p : (⟨S1x16x2048x2048, .f32⟩ : BufTy).Contents (Elt F) → (⟨S1x16x2048x2048, .f32⟩ : BufTy).Contents (Elt F)),
    StableHlo.nullary main_cst_5 (constant S_ .f32 0x3CA3D70A#32),
    StableHlo.unary main_cst_5 main_v17 (broadcastInDim S1x16x2048x2048 ![] bcast_S_S1x16x2048x2048 : (⟨S_, .f32⟩ : BufTy).Contents (Elt F) → (⟨S1x16x2048x2048, .f32⟩ : BufTy).Contents (Elt F)),
    StableHlo.binary main_v17 main_v16 main_v18 (mulf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_6 (constant S_ .f32 0x3B03126F#32),
    StableHlo.unary main_cst_6 main_v19 (broadcastInDim S1x16x2048x2048 ![] bcast_S_S1x16x2048x2048 : (⟨S_, .f32⟩ : BufTy).Contents (Elt F) → (⟨S1x16x2048x2048, .f32⟩ : BufTy).Contents (Elt F)),
    StableHlo.binary main_v19 main_v18 main_v20 (subf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_7 (constant S_ .f32 0x3F800000#32),
    StableHlo.unary main_cst_7 main_v21 (broadcastInDim S1x16x2048x2048 ![] bcast_S_S1x16x2048x2048 : (⟨S_, .f32⟩ : BufTy).Contents (Elt F) → (⟨S1x16x2048x2048, .f32⟩ : BufTy).Contents (Elt F)),
    StableHlo.binary main_v21 main_v20 main_v22 (Host.divf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_8 (constant S_ .f32 0x00000000#32),
    StableHlo.TRef.unary (.of main_cst_8 : StableHlo.TRef sig ⟨S_, .f32⟩) main_call2.v0 id,
    StableHlo.TRef.unary main_call2.v0 main_call2.v1 (broadcastInDim S1x16x2048x2048 ![] bcast_S_S1x16x2048x2048),
    StableHlo.TRef.ternary (.of main_v12 : StableHlo.TRef sig ⟨S1x16x2048x2048, .i1⟩) (.of main_v22 : StableHlo.TRef sig ⟨S1x16x2048x2048, .f32⟩) main_call2.v1 main_call2.v2 select,
    StableHlo.nullary main_cst_9 (constant S_ .f32 0x00000000#32),
    StableHlo.nullary main_cst_10 (constant S_ .f32 0x00000000#32),
    StableHlo.nullary main_cst_11 (constant S_ .f32 0x7F800000#32),
    StableHlo.TRef.binary (.of main_v23 : StableHlo.TRef sig ⟨S1x16x2048x2048, .f32⟩) (.of main_v23 : StableHlo.TRef sig ⟨S1x16x2048x2048, .f32⟩) main_call3.v0 (cmpf .une),
    StableHlo.TRef.unary (.of main_cst_9 : StableHlo.TRef sig ⟨S_, .f32⟩) main_call3.v1 id,
    StableHlo.TRef.unary main_call3.v1 main_call3.call0.v0 (broadcastInDim S1x16x2048x2048 ![] bcast_S_S1x16x2048x2048),
    StableHlo.TRef.ternary main_call3.v0 main_call3.call0.v0 (.of main_v23 : StableHlo.TRef sig ⟨S1x16x2048x2048, .f32⟩) main_call3.call0.v1 select,
    StableHlo.TRef.nullary main_call3.cst (constant S_ .f32 0x7F800000#32),
    StableHlo.TRef.unary main_call3.cst main_call3.v3 (broadcastInDim S1x16x2048x2048 ![] bcast_S_S1x16x2048x2048),
    StableHlo.TRef.binary main_call3.call0.v1 main_call3.v3 main_call3.v4 (cmpf .oeq),
    StableHlo.TRef.unary (.of main_cst_11 : StableHlo.TRef sig ⟨S_, .f32⟩) main_call3.v5 id,
    StableHlo.TRef.unary main_call3.v5 main_call3.call1.v0 (broadcastInDim S1x16x2048x2048 ![] bcast_S_S1x16x2048x2048),
    StableHlo.TRef.ternary main_call3.v4 main_call3.call1.v0 main_call3.call0.v1 main_call3.call1.v1 select,
    StableHlo.TRef.nullary main_call3.cst_0 (constant S_ .f32 0xFF800000#32),
    StableHlo.TRef.unary main_call3.cst_0 main_call3.v7 (broadcastInDim S1x16x2048x2048 ![] bcast_S_S1x16x2048x2048),
    StableHlo.TRef.binary main_call3.call1.v1 main_call3.v7 main_call3.v8 (cmpf .oeq),
    StableHlo.TRef.unary (.of main_cst_10 : StableHlo.TRef sig ⟨S_, .f32⟩) main_call3.v9 id,
    StableHlo.TRef.unary main_call3.v9 main_call3.call2.v0 (broadcastInDim S1x16x2048x2048 ![] bcast_S_S1x16x2048x2048),
    StableHlo.TRef.ternary main_call3.v8 main_call3.call2.v0 main_call3.call1.v1 main_call3.call2.v1 select,
    StableHlo.unary main_v0 main_v25 (broadcastInDim S1x16x2048x2048 ![] bcast_S_S1x16x2048x2048 : (⟨S_, .f32⟩ : BufTy).Contents (Elt F) → (⟨S1x16x2048x2048, .f32⟩ : BufTy).Contents (Elt F)),
    StableHlo.binary main_v24 main_v25 main_v26 (Host.divf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_c (constantI S_ 1 1#1),
    StableHlo.unary main_c main_v27 (broadcastInDim S2048x2048 ![] bcast_S_S2048x2048 : (⟨S_, .i1⟩ : BufTy).Contents (Elt F) → (⟨S2048x2048, .i1⟩ : BufTy).Contents (Elt F)),
    StableHlo.TRef.nullary main_call4.v0 (iotaInDim S2048x2048 32 0),
    StableHlo.TRef.nullary main_call4.c (constantI S_ 32 0#32),
    StableHlo.TRef.unary main_call4.c main_call4.v1 (broadcastInDim S2048x2048 ![] bcast_S_S2048x2048),
    StableHlo.TRef.binary main_call4.v0 main_call4.v1 main_call4.v2 addi,
    StableHlo.TRef.nullary main_call4.v3 (iotaInDim S2048x2048 32 1),
    StableHlo.TRef.binary main_call4.v2 main_call4.v3 main_call4.v4 (cmpi .sge),
    StableHlo.TRef.nullary main_call4.c_0 (constantI S_ 1 0#1),
    StableHlo.TRef.unary main_call4.c_0 main_call4.v5 (broadcastInDim S2048x2048 ![] bcast_S_S2048x2048),
    StableHlo.TRef.ternary main_call4.v4 (.of main_v27 : StableHlo.TRef sig ⟨S2048x2048, .i1⟩) main_call4.v5 main_call4.v6 select,
    StableHlo.unary main_v28 main_v29 (broadcastInDim S1x1x2048x2048 ![2, 3] bcast_S2048x2048_S1x1x2048x2048_2_3 : (⟨S2048x2048, .i1⟩ : BufTy).Contents (Elt F) → (⟨S1x1x2048x2048, .i1⟩ : BufTy).Contents (Elt F)),
    StableHlo.nullary main_cst_12 (constant S_ .f32 0x00000000#32),
    StableHlo.TRef.unary (.of main_cst_12 : StableHlo.TRef sig ⟨S_, .f32⟩) main_call5.v0 id,
    StableHlo.TRef.unary (.of main_v29 : StableHlo.TRef sig ⟨S1x1x2048x2048, .i1⟩) main_call5.v1 (broadcastInDim S1x16x2048x2048 ![0, 1, 2, 3] bcast_S1x1x2048x2048_S1x16x2048x2048_0_1_2_3),
    StableHlo.TRef.unary main_call5.v0 main_call5.v2 (broadcastInDim S1x16x2048x2048 ![] bcast_S_S1x16x2048x2048),
    StableHlo.TRef.ternary main_call5.v1 (.of main_v26 : StableHlo.TRef sig ⟨S1x16x2048x2048, .f32⟩) main_call5.v2 main_call5.v3 select,
    StableHlo.nullary main_cst_13 (constant S_ .f32 0x00000000#32),
    StableHlo.unary main_cst_13 main_v31 (broadcastInDim S1x16x2048x2048 ![] bcast_S_S1x16x2048x2048 : (⟨S_, .f32⟩ : BufTy).Contents (Elt F) → (⟨S1x16x2048x2048, .f32⟩ : BufTy).Contents (Elt F)),
    StableHlo.binary main_v30 main_v31 main_v32 (maximumf : (⟨S1x16x2048x2048, .f32⟩ : BufTy).Contents (Elt F) → (⟨S1x16x2048x2048, .f32⟩ : BufTy).Contents (Elt F) → (⟨S1x16x2048x2048, .f32⟩ : BufTy).Contents (Elt F)),
    StableHlo.binary main_v32 main_v32 main_v33 (mulf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_14 (constant S_ .f32 0x00000000#32),
    StableHlo.binary main_v33 main_cst_14 main_v34 ((fun x v => Host.reduceAdd x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    StableHlo.unary main_v34 main_v35 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    StableHlo.nullary main_cst_15 (constant S_ .f32 0x1E3CE508#32),
    StableHlo.unary main_cst_15 main_v36 (broadcastInDim S1x16x2048x1 ![] bcast_S_S1x16x2048x1 : (⟨S_, .f32⟩ : BufTy).Contents (Elt F) → (⟨S1x16x2048x1, .f32⟩ : BufTy).Contents (Elt F)),
    StableHlo.binary main_v35 main_v36 main_v37 (addf : (⟨S1x16x2048x1, .f32⟩ : BufTy).Contents (Elt F) → (⟨S1x16x2048x1, .f32⟩ : BufTy).Contents (Elt F) → (⟨S1x16x2048x1, .f32⟩ : BufTy).Contents (Elt F)),
    StableHlo.unary main_v37 main_v38 (Host.sqrt : (⟨S1x16x2048x1, .f32⟩ : BufTy).Contents (Elt F) → (⟨S1x16x2048x1, .f32⟩ : BufTy).Contents (Elt F)),
    StableHlo.nullary main_cst_16 (constant S_ .f32 0x3A83126F#32),
    StableHlo.unary main_cst_16 main_v39 (broadcastInDim S1x16x2048x1 ![] bcast_S_S1x16x2048x1 : (⟨S_, .f32⟩ : BufTy).Contents (Elt F) → (⟨S1x16x2048x1, .f32⟩ : BufTy).Contents (Elt F)),
    StableHlo.binary main_v39 main_v38 main_v40 (addf : (⟨S1x16x2048x1, .f32⟩ : BufTy).Contents (Elt F) → (⟨S1x16x2048x1, .f32⟩ : BufTy).Contents (Elt F) → (⟨S1x16x2048x1, .f32⟩ : BufTy).Contents (Elt F)),
    StableHlo.unary main_v40 main_v41 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    StableHlo.binary main_v32 main_v41 main_v42 (Host.divf : (⟨S1x16x2048x2048, .f32⟩ : BufTy).Contents (Elt F) → (⟨S1x16x2048x2048, .f32⟩ : BufTy).Contents (Elt F) → (⟨S1x16x2048x2048, .f32⟩ : BufTy).Contents (Elt F)),
    StableHlo.nullary main_cst_17 (constant S_ .f32 0x00000000#32),
    StableHlo.TRef.unary (.of main_cst_17 : StableHlo.TRef sig ⟨S_, .f32⟩) main_call6.v0 id,
    StableHlo.TRef.unary (.of main_v29 : StableHlo.TRef sig ⟨S1x1x2048x2048, .i1⟩) main_call6.v1 (broadcastInDim S1x16x2048x2048 ![0, 1, 2, 3] bcast_S1x1x2048x2048_S1x16x2048x2048_0_1_2_3),
    StableHlo.TRef.unary main_call6.v0 main_call6.v2 (broadcastInDim S1x16x2048x2048 ![] bcast_S_S1x16x2048x2048),
    StableHlo.TRef.ternary main_call6.v1 (.of main_v42 : StableHlo.TRef sig ⟨S1x16x2048x2048, .f32⟩) main_call6.v2 main_call6.v3 select,
    StableHlo.binary main_v43 main_arg2 main_v44 ((fun l r => Host.dotGeneral dot_S1x16x2048x2048_S1x16x2048x64_S1x16x2048x64_3_2_2_3_01_01 none l r) : (⟨S1x16x2048x2048, .f32⟩ : BufTy).Contents (Elt F) → (⟨S1x16x2048x64, .f32⟩ : BufTy).Contents (Elt F) → (⟨S1x16x2048x64, .f32⟩ : BufTy).Contents (Elt F)) ]

-- a hundred and two binds re-associated: the rewrite under the chain recurses once per statement
set_option maxRecDepth 4096 in
set_option maxHeartbeats 4000000 in
/-- @main is that straight line: with the two windows, the functions' definitions unfolded at their calls
    and the records at their fields, both sides are one chain of operation steps once sequencing is
    reassociated. -/
theorem main_eq (c : Dev nD) : main (F := F) c = seq ops := by
  simp only [main, main_part0, main_part1, fn_norm.body, fn_where.body, fn_where_0.body, fn_nan_to_num.body,
    fn_tril.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., binary_bufs_sub .., unary_bufs_sub .., binary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., nullary_bufs_sub .., nullary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., unary_bufs_sub .., binary_bufs_sub .., nullary_bufs_sub .., unary_bufs_sub .., nullary_bufs_sub ..,
    nullary_bufs_sub .., unary_bufs_sub .., binary_bufs_sub .., nullary_bufs_sub .., binary_bufs_sub .., nullary_bufs_sub ..,
    unary_bufs_sub .., ternary_bufs_sub .., unary_bufs_sub .., nullary_bufs_sub .., unary_bufs_sub .., unary_bufs_sub ..,
    unary_bufs_sub .., ternary_bufs_sub .., nullary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., nullary_bufs_sub .., unary_bufs_sub .., binary_bufs_sub .., unary_bufs_sub .., binary_bufs_sub ..,
    nullary_bufs_sub .., unary_bufs_sub .., unary_bufs_sub .., unary_bufs_sub .., ternary_bufs_sub .., binary_bufs_sub ..⟩

attribute [local irreducible] Host.reduceAdd Host.powf Host.divf Host.sqrt Host.log1p in
set_option maxRecDepth 8192 in
set_option maxHeartbeats 4000000 in
/-- The fold at the result buffer is `refOut` of the contents at the five arguments: each operation's
    result at its own buffer is its function of the operands' contents, at any other buffer what was
    there; the contractions, the row sums and the host's division, root, logarithm and power are kept
    folded meanwhile (the equation never looks inside them). -/
theorem out_eq (V : Valuation τ sig (Elt F)) :
    after ops V (Proc.devRef .tc main_v44)
      = refOut (V (Proc.devRef .tc main_arg0)) (V (Proc.devRef .tc main_arg1)) (V (Proc.devRef .tc main_arg2))
          (V (Proc.devRef .tc main_arg3)) (V (Proc.devRef .tc main_arg4)) := by
  after_results_simp
  rfl

set_option maxRecDepth 8192 in
set_option maxHeartbeats 4000000 in
theorem arg0_eq (V : Valuation τ sig (Elt F)) :
    after ops V (Proc.devRef .tc main_arg0) = V (Proc.devRef .tc main_arg0) := by
  after_results_simp

set_option maxRecDepth 8192 in
set_option maxHeartbeats 4000000 in
theorem arg1_eq (V : Valuation τ sig (Elt F)) :
    after ops V (Proc.devRef .tc main_arg1) = V (Proc.devRef .tc main_arg1) := by
  after_results_simp

set_option maxRecDepth 8192 in
set_option maxHeartbeats 4000000 in
theorem arg2_eq (V : Valuation τ sig (Elt F)) :
    after ops V (Proc.devRef .tc main_arg2) = V (Proc.devRef .tc main_arg2) := by
  after_results_simp

set_option maxRecDepth 8192 in
set_option maxHeartbeats 4000000 in
theorem arg3_eq (V : Valuation τ sig (Elt F)) :
    after ops V (Proc.devRef .tc main_arg3) = V (Proc.devRef .tc main_arg3) := by
  after_results_simp

set_option maxRecDepth 8192 in
set_option maxHeartbeats 4000000 in
theorem arg4_eq (V : Valuation τ sig (Elt F)) :
    after ops V (Proc.devRef .tc main_arg4) = V (Proc.devRef .tc main_arg4) := by
  after_results_simp

/-- At the compiled mesh, for any float values, from any memory with zero counters: every weakly fair
    execution of @main on the TensorCores terminates, and every final state has the result buffer at
    `refOut` of the five arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v44).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefDots.lean ====
/-
  The reference's two contractions read at an index, at the exact (extended-real) instance.

  Both contractions have batch axes (0, 1) and contract ONE axis, so each result entry is a plain sum over that
  axis's coordinate of a product of one left-operand entry and one right-operand entry:
    queries against keys, contracting the feature axis of both:  out (z, h, t, s) = ∑_d  x (z, h, t, d) · y (z, h, s, d);
    weights against values, contracting the key axis:             out (z, h, t, d) = ∑_s  w (z, h, t, s) · v (z, h, s, d).
  Each operand index is identified axis by axis: a batch axis reads the result's batch coordinate, a free axis the
  result's coordinate at its position, and the contracted axis the summation coordinate.
-/
import proofs.«123989_j65085934403863_1_alg».proof.Proof.RefTerm
import Idealize.ShloMosaic.Lib.ValueIdx
import Idealize.ShloMosaic.PureOps.Ideal.Laws

noncomputable section

open scoped BigOperators

namespace Cert.ReferenceIdeal.Hand

open Idealize.ShloMosaic Idealize.SL.Sem Idealize.ShloMosaic.ValueIdx
open Cert.ReferenceIdeal Cert.ReferenceIdeal.Facts₀ Cert.ReferenceIdeal.Facts

variable [Facts]

/-! ### The first contraction: queries against normalised keys

The dimension numbers are batch axes (0, 1), the free axis 2 on each side and the contracted axis 3 on each side, so
the result index (z, h, t, s) with contraction coordinate d reads the left operand at (z, h, t, d) and the right one
at (z, h, s, d). -/

abbrev dotQK := dot_S1x16x2048x64_S1x16x2048x64_S1x16x2048x2048_3_3_2_2_01_01

theorem dotQK_lhsBatch : (dotQK).lhsBatch = [0, 1] := rfl
theorem dotQK_rhsBatch : (dotQK).rhsBatch = [0, 1] := rfl
theorem dotQK_lhsNon : (dotQK).lhsNonContracting = [2] := rfl
theorem dotQK_rhsNon : (dotQK).rhsNonContracting = [2] := rfl

theorem lhsQK_0 (i : S1x16x2048x2048.Idx) (q : (dotQK).contr.Idx) : ((dotQK).lhsIdx i q 0).val = (i 0).val := by
  unfold DotDims.lhsIdx
  rw [dif_pos (show (0 : Fin S1x16x2048x64.rank) ∈ (dotQK).lhsBatch by rw [dotQK_lhsBatch]; decide)]
  rfl
theorem lhsQK_1 (i : S1x16x2048x2048.Idx) (q : (dotQK).contr.Idx) : ((dotQK).lhsIdx i q 1).val = (i 1).val := by
  unfold DotDims.lhsIdx
  rw [dif_pos (show (1 : Fin S1x16x2048x64.rank) ∈ (dotQK).lhsBatch by rw [dotQK_lhsBatch]; decide)]
  rfl
theorem lhsQK_2 (i : S1x16x2048x2048.Idx) (q : (dotQK).contr.Idx) : ((dotQK).lhsIdx i q 2).val = (i 2).val := by
  unfold DotDims.lhsIdx
  rw [dif_neg (show ¬(2 : Fin S1x16x2048x64.rank) ∈ (dotQK).lhsBatch by rw [dotQK_lhsBatch]; decide),
    dif_pos (show (2 : Fin S1x16x2048x64.rank) ∈ (dotQK).lhsNonContracting by rw [dotQK_lhsNon]; decide)]
  rfl
theorem lhsQK_3 (i : S1x16x2048x2048.Idx) (q : (dotQK).contr.Idx) :
    ((dotQK).lhsIdx i q 3).val = (q ⟨0, Nat.one_pos⟩).val :=
  (dotQK).lhsIdx_val_of_single rfl i q
theorem rhsQK_0 (i : S1x16x2048x2048.Idx) (q : (dotQK).contr.Idx) : ((dotQK).rhsIdx i q 0).val = (i 0).val := by
  unfold DotDims.rhsIdx
  rw [dif_pos (show (0 : Fin S1x16x2048x64.rank) ∈ (dotQK).rhsBatch by rw [dotQK_rhsBatch]; decide)]
  rfl
theorem rhsQK_1 (i : S1x16x2048x2048.Idx) (q : (dotQK).contr.Idx) : ((dotQK).rhsIdx i q 1).val = (i 1).val := by
  unfold DotDims.rhsIdx
  rw [dif_pos (show (1 : Fin S1x16x2048x64.rank) ∈ (dotQK).rhsBatch by rw [dotQK_rhsBatch]; decide)]
  rfl
theorem rhsQK_2 (i : S1x16x2048x2048.Idx) (q : (dotQK).contr.Idx) : ((dotQK).rhsIdx i q 2).val = (i 3).val := by
  unfold DotDims.rhsIdx
  rw [dif_neg (show ¬(2 : Fin S1x16x2048x64.rank) ∈ (dotQK).rhsBatch by rw [dotQK_rhsBatch]; decide),
    dif_pos (show (2 : Fin S1x16x2048x64.rank) ∈ (dotQK).rhsNonContracting by rw [dotQK_rhsNon]; decide)]
  rfl
theorem rhsQK_3 (i : S1x16x2048x2048.Idx) (q : (dotQK).contr.Idx) :
    ((dotQK).rhsIdx i q 3).val = (q ⟨0, Nat.one_pos⟩).val :=
  (dotQK).rhsIdx_val_of_single rfl i q

/-- The first contraction at an index: the sum over the 64 features of query entry times right-operand entry. -/
theorem dotQK_apply (x y : FVec Ideal S1x16x2048x64 .f32) (z : Fin 1) (h : Fin 16) (t s : Fin 2048) :
    Host.dotGeneral (F := Ideal) dotQK none x y (ix4 z h t s) = ∑ d : Fin 64, x (ix4 z h t d) * y (ix4 z h s d) := by
  simp only [Host.dotGeneral]
  rw [Ideal.dotGeneral_apply, ← Equiv.sum_comp (contrEquiv1 dotQK 64 rfl rfl).symm]
  refine Finset.sum_congr rfl fun k _ => ?_
  have hk := contrEquiv1_symm_val dotQK 64 rfl rfl k
  have el : (dotQK).lhsIdx (ix4 z h t s) ((contrEquiv1 dotQK 64 rfl rfl).symm k) = ix4 z h t k :=
    funext fun a => Fin.ext (by
      match a with
      | ⟨0, _⟩ => exact lhsQK_0 _ _
      | ⟨1, _⟩ => exact lhsQK_1 _ _
      | ⟨2, _⟩ => exact lhsQK_2 _ _
      | ⟨3, _⟩ => exact (lhsQK_3 _ _).trans hk)
  have er : (dotQK).rhsIdx (ix4 z h t s) ((contrEquiv1 dotQK 64 rfl rfl).symm k) = ix4 z h s k :=
    funext fun a => Fin.ext (by
      match a with
      | ⟨0, _⟩ => exact rhsQK_0 _ _
      | ⟨1, _⟩ => exact rhsQK_1 _ _
      | ⟨2, _⟩ => exact rhsQK_2 _ _
      | ⟨3, _⟩ => exact (rhsQK_3 _ _).trans hk)
  rw [el, er]

/-! ### The second contraction: weights against values

The dimension numbers are batch axes (0, 1), the left operand's free axis 2 and contracted axis 3, the right
operand's contracted axis 2 and free axis 3, so the result index (z, h, t, d) with contraction coordinate s reads the
left operand at (z, h, t, s) and the right one at (z, h, s, d). -/

abbrev dotWV := dot_S1x16x2048x2048_S1x16x2048x64_S1x16x2048x64_3_2_2_3_01_01

theorem dotWV_lhsBatch : (dotWV).lhsBatch = [0, 1] := rfl
theorem dotWV_rhsBatch : (dotWV).rhsBatch = [0, 1] := rfl
theorem dotWV_lhsNon : (dotWV).lhsNonContracting = [2] := rfl
theorem dotWV_rhsNon : (dotWV).rhsNonContracting = [3] := rfl

theorem lhsWV_0 (i : S1x16x2048x64.Idx) (q : (dotWV).contr.Idx) : ((dotWV).lhsIdx i q 0).val = (i 0).val := by
  unfold DotDims.lhsIdx
  rw [dif_pos (show (0 : Fin S1x16x2048x2048.rank) ∈ (dotWV).lhsBatch by rw [dotWV_lhsBatch]; decide)]
  rfl
theorem lhsWV_1 (i : S1x16x2048x64.Idx) (q : (dotWV).contr.Idx) : ((dotWV).lhsIdx i q 1).val = (i 1).val := by
  unfold DotDims.lhsIdx
  rw [dif_pos (show (1 : Fin S1x16x2048x2048.rank) ∈ (dotWV).lhsBatch by rw [dotWV_lhsBatch]; decide)]
  rfl
theorem lhsWV_2 (i : S1x16x2048x64.Idx) (q : (dotWV).contr.Idx) : ((dotWV).lhsIdx i q 2).val = (i 2).val := by
  unfold DotDims.lhsIdx
  rw [dif_neg (show ¬(2 : Fin S1x16x2048x2048.rank) ∈ (dotWV).lhsBatch by rw [dotWV_lhsBatch]; decide),
    dif_pos (show (2 : Fin S1x16x2048x2048.rank) ∈ (dotWV).lhsNonContracting by rw [dotWV_lhsNon]; decide)]
  rfl
theorem lhsWV_3 (i : S1x16x2048x64.Idx) (q : (dotWV).contr.Idx) :
    ((dotWV).lhsIdx i q 3).val = (q ⟨0, Nat.one_pos⟩).val :=
  (dotWV).lhsIdx_val_of_single rfl i q
theorem rhsWV_0 (i : S1x16x2048x64.Idx) (q : (dotWV).contr.Idx) : ((dotWV).rhsIdx i q 0).val = (i 0).val := by
  unfold DotDims.rhsIdx
  rw [dif_pos (show (0 : Fin S1x16x2048x64.rank) ∈ (dotWV).rhsBatch by rw [dotWV_rhsBatch]; decide)]
  rfl
theorem rhsWV_1 (i : S1x16x2048x64.Idx) (q : (dotWV).contr.Idx) : ((dotWV).rhsIdx i q 1).val = (i 1).val := by
  unfold DotDims.rhsIdx
  rw [dif_pos (show (1 : Fin S1x16x2048x64.rank) ∈ (dotWV).rhsBatch by rw [dotWV_rhsBatch]; decide)]
  rfl
theorem rhsWV_2 (i : S1x16x2048x64.Idx) (q : (dotWV).contr.Idx) :
    ((dotWV).rhsIdx i q 2).val = (q ⟨0, Nat.one_pos⟩).val :=
  (dotWV).rhsIdx_val_of_single rfl i q
theorem rhsWV_3 (i : S1x16x2048x64.Idx) (q : (dotWV).contr.Idx) : ((dotWV).rhsIdx i q 3).val = (i 3).val := by
  unfold DotDims.rhsIdx
  rw [dif_neg (show ¬(3 : Fin S1x16x2048x64.rank) ∈ (dotWV).rhsBatch by rw [dotWV_rhsBatch]; decide),
    dif_pos (show (3 : Fin S1x16x2048x64.rank) ∈ (dotWV).rhsNonContracting by rw [dotWV_rhsNon]; decide)]
  rfl

/-- The second contraction at an index: the sum over the 2048 keys of weight times value entry. -/
theorem dotWV_apply (w : FVec Ideal S1x16x2048x2048 .f32) (v : FVec Ideal S1x16x2048x64 .f32)
    (z : Fin 1) (h : Fin 16) (t : Fin 2048) (d : Fin 64) :
    Host.dotGeneral (F := Ideal) dotWV none w v (ix4 z h t d) = ∑ s : Fin 2048, w (ix4 z h t s) * v (ix4 z h s d) := by
  simp only [Host.dotGeneral]
  rw [Ideal.dotGeneral_apply, ← Equiv.sum_comp (contrEquiv1 dotWV 2048 rfl rfl).symm]
  refine Finset.sum_congr rfl fun k _ => ?_
  have hk := contrEquiv1_symm_val dotWV 2048 rfl rfl k
  have el : (dotWV).lhsIdx (ix4 z h t d) ((contrEquiv1 dotWV 2048 rfl rfl).symm k) = ix4 z h t k :=
    funext fun a => Fin.ext (by
      match a with
      | ⟨0, _⟩ => exact lhsWV_0 _ _
      | ⟨1, _⟩ => exact lhsWV_1 _ _
      | ⟨2, _⟩ => exact lhsWV_2 _ _
      | ⟨3, _⟩ => exact (lhsWV_3 _ _).trans hk)
  have er : (dotWV).rhsIdx (ix4 z h t d) ((contrEquiv1 dotWV 2048 rfl rfl).symm k) = ix4 z h k d :=
    funext fun a => Fin.ext (by
      match a with
      | ⟨0, _⟩ => exact rhsWV_0 _ _
      | ⟨1, _⟩ => exact rhsWV_1 _ _
      | ⟨2, _⟩ => exact (rhsWV_2 _ _).trans hk
      | ⟨3, _⟩ => exact rhsWV_3 _ _)
  rw [el, er]

end Cert.ReferenceIdeal.Hand

end
-- ==== Proof.RefReadA.lean ====
/-
  The reference's rates read at an index, at the exact (extended-real) instance.

  Stage by stage, each of the reference's values up to the rectified masked rates is read at an index (z, h, t, s)
  (z ranges over one value): the key row's norm is the square root of the row's sum of squares; the normalised key
  divides each entry by the floored norm; the dot product of query row t and normalised key row s is the
  specification's row product; the current is gain · product + bias with gain and bias read from their columns;
  the firing rate is the specification's function of the current (replacing a value that differs from itself, or
  +∞ by +∞, changes nothing on the extended reals); dividing by 64^(1/2) is multiplying by 1/8; the lower-triangle
  mask holds exactly where the key position is at most the query position (both positions are below 2048, so the
  signed comparison of their 32-bit words is the comparison of the numbers); and the rate is the maximum of the masked
  score and zero.  Together: the reference's rate at (z, h, t, s) is the specification's rate of head h, query t, key s.
-/
import proofs.«123989_j65085934403863_1_alg».proof.Proof.RefTerm
import proofs.«123989_j65085934403863_1_alg».proof.Proof.RefDots
import proofs.«123989_j65085934403863_1_alg».proof.Proof.Spec
import proofs.«123989_j65085934403863_1_alg».proof.Proof.SpecLaws
import Idealize.ShloMosaic.Lib.ValueIdx
import Idealize.ShloMosaic.Lib.IdealHost
import Idealize.ShloMosaic.Lib.Affine
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.SL.Sem Idealize.ShloMosaic.ValueIdx
open Cert.ReferenceIdeal Cert.ReferenceIdeal.Facts₀ Cert.ReferenceIdeal.Facts

variable [Facts]

/-! ## The normalised keys and the dot products -/

/-- The keys' row norm at an index: the square root of the row's sum of squares. -/
theorem knorm_apply (a1 : FVec Ideal S1x16x2048x64 .f32) (z : Fin 1) (h : Fin 16) (s : Fin 2048) (o : Fin 1) :
    knorm (F := Ideal) a1 (ix4 z h s o) = Ideal.sqrt (∑ d : Fin 64, a1 (ix4 z h s d) * a1 (ix4 z h s d)) := by
  unfold knorm
  show Ideal.sqrt _ = _
  refine congrArg Ideal.sqrt ?_
  rw [broadcastInDim_apply ![0, 1, 2] bcast_S1x16x2048_S1x16x2048x1_0_1_2 _ (ix4 z h s o) (ix3 z h s) (by
    intro a
    match a with
    | ⟨0, _⟩ => (obtain rfl : z = 0 := Subsingleton.elim _ _); rfl
    | ⟨1, _⟩ => rfl
    | ⟨2, _⟩ => rfl)]
  rw [hostReduceAdd_apply, Ideal.hostReduceAdd_single reducesTo_S1x16x2048x64_S1x16x2048_d3 (by decide)]
  show Ideal.ofBits .f32 0x00000000#32 + _ = _
  rw [Ideal.ofBits_zero_f32, zero_add]
  refine Finset.sum_congr rfl fun k _ => ?_
  have e : Shape.Reduces.lift (by decide : S1x16x2048x64.Reduces [3] S1x16x2048) (ix3 z h s) k = ix4 z h s k :=
    funext fun a => Fin.ext (by match a with | ⟨0, _⟩ => rfl | ⟨1, _⟩ => rfl | ⟨2, _⟩ => rfl | ⟨3, _⟩ => rfl)
  rw [e]; rfl

/-- The floored norm at an index is the specification's floored row norm. -/
theorem knormFloor_apply (a1 : FVec Ideal S1x16x2048x64 .f32) (z : Fin 1) (h : Fin 16) (s : Fin 2048) (o : Fin 1) :
    knormFloor (F := Ideal) a1 (ix4 z h s o) = Cert.Spec.knormRow (fun d => a1 (ix4 z h s d)) := by
  unfold knormFloor Cert.Spec.knormRow
  rw [maximumf_apply, knorm_apply, broadcastInDim_scalar_apply]
  rfl

/-- A normalised key entry at an index. -/
theorem khat_apply (a1 : FVec Ideal S1x16x2048x64 .f32) (z : Fin 1) (h : Fin 16) (s : Fin 2048) (d : Fin 64) :
    khat (F := Ideal) a1 (ix4 z h s d)
      = Ideal.div (a1 (ix4 z h s d)) (Cert.Spec.knormRow (fun d => a1 (ix4 z h s d))) := by
  unfold khat
  rw [hostDivf_apply, broadcastInDim_apply ![0, 1, 2, 3] bcast_S1x16x2048x1_S1x16x2048x64_0_1_2_3 _ (ix4 z h s d)
    (ix4 z h s (0 : Fin 1)) (by
      intro a
      match a with
      | ⟨0, _⟩ => (obtain rfl : z = 0 := Subsingleton.elim _ _); rfl
      | ⟨1, _⟩ => rfl
      | ⟨2, _⟩ => rfl
      | ⟨3, _⟩ => rfl), knormFloor_apply]

/-- The dot products at an index are the specification's row product. -/
theorem dots_apply (a0 a1 : FVec Ideal S1x16x2048x64 .f32) (z : Fin 1) (h : Fin 16) (t s : Fin 2048) :
    dots (F := Ideal) a0 a1 (ix4 z h t s)
      = Cert.Spec.dotRow (fun d => a0 (ix4 z h t d)) (fun d => a1 (ix4 z h s d)) := by
  unfold dots Cert.Spec.dotRow
  generalize hy : khat (F := Ideal) a1 = y
  rw [dotQK_apply]
  refine Finset.sum_congr rfl fun d _ => ?_
  rw [← hy, khat_apply]

/-! ## The current -/

/-- A per-row column broadcast along the key axis reads the column's entry of the row. -/
theorem bcastCol_apply {α : Type} (x : S1x16x2048x1.Idx → α) (z : Fin 1) (h : Fin 16) (t s : Fin 2048) :
    broadcastInDim S1x16x2048x2048 ![0, 1, 2, 3] bcast_S1x16x2048x1_S1x16x2048x2048_0_1_2_3 x (ix4 z h t s)
      = x (ix4 z h t (0 : Fin 1)) :=
  broadcastInDim_apply ![0, 1, 2, 3] bcast_S1x16x2048x1_S1x16x2048x2048_0_1_2_3 x (ix4 z h t s) (ix4 z h t (0 : Fin 1)) (by
    intro a
    match a with
    | ⟨0, _⟩ => (obtain rfl : z = 0 := Subsingleton.elim _ _); rfl
    | ⟨1, _⟩ => rfl
    | ⟨2, _⟩ => rfl
    | ⟨3, _⟩ => rfl)

/-- The current at an index: the row's gain times the row product, plus the row's bias. -/
theorem cur_apply (a0 a1 : FVec Ideal S1x16x2048x64 .f32) (a3 a4 : FVec Ideal S1x16x2048x1 .f32)
    (z : Fin 1) (h : Fin 16) (t s : Fin 2048) :
    cur (F := Ideal) a0 a1 a3 a4 (ix4 z h t s)
      = a3 (ix4 z h t (0 : Fin 1)) * Cert.Spec.dotRow (fun d => a0 (ix4 z h t d)) (fun d => a1 (ix4 z h s d))
        + a4 (ix4 z h t (0 : Fin 1)) := by
  unfold cur
  rw [addf_apply, mulf_apply, dots_apply, bcastCol_apply, bcastCol_apply]

/-! ## The firing rate and the score -/

/-- Replacing the entries that differ from themselves: on the extended reals there are none. -/
theorem nanOut_apply (x : FVec Ideal S1x16x2048x2048 .f32) (i : S1x16x2048x2048.Idx) : nanOut (F := Ideal) x i = x i := by
  show Scalar.select (FloatOps.cmpf (F := Ideal) (φ := .f32) .une (x i) (x i)) _ (x i) = x i
  rw [Cert.Spec.cmpf_une_self, select_zero]

/-- Replacing +∞ by +∞ changes nothing. -/
theorem posInfOut_apply (x : FVec Ideal S1x16x2048x2048 .f32) (i : S1x16x2048x2048.Idx) :
    posInfOut (F := Ideal) x i = x i :=
  Cert.Spec.select_posinf_self (x i)

/-- Replacing −∞ by zero, at an index. -/
theorem negInfOut_apply (x : FVec Ideal S1x16x2048x2048 .f32) (i : S1x16x2048x2048.Idx) :
    negInfOut (F := Ideal) x i
      = Scalar.select (FloatOps.cmpf (F := Ideal) (φ := .f32) .oeq (x i) (Cert.Spec.lit 0xFF800000#32)) 0 (x i) := by
  show Scalar.select _ (Cert.Spec.lit 0x00000000#32) _ = _
  rw [Cert.Spec.lit_zero]
  rfl

/-- The rate before the replacements, at an index, as a function of the current there. -/
theorem lif0_apply (a0 a1 : FVec Ideal S1x16x2048x64 .f32) (a3 a4 : FVec Ideal S1x16x2048x1 .f32)
    (i : S1x16x2048x2048.Idx) :
    lif0 (F := Ideal) a0 a1 a3 a4 i
      = Scalar.select (FloatOps.cmpf (F := Ideal) (φ := .f32) .ogt (cur (F := Ideal) a0 a1 a3 a4 i) (Cert.Spec.lit 0x3C23D776#32))
          (Ideal.div (Cert.Spec.lit 0x3F800000#32)
            (Cert.Spec.lit 0x3B03126F#32 - Cert.Spec.lit 0x3CA3D70A#32 * Ideal.log1p (Ideal.div (Cert.Spec.lit 0xBC23D70A#32)
              (Scalar.select (FloatOps.cmpf (F := Ideal) (φ := .f32) .ogt (cur (F := Ideal) a0 a1 a3 a4 i) (Cert.Spec.lit 0x3C23D776#32))
                (cur (F := Ideal) a0 a1 a3 a4 i) (Cert.Spec.lit 0x3F800000#32)))))
          0 := by
  unfold lif0 inv gap lg safe good
  generalize cur (F := Ideal) a0 a1 a3 a4 = c
  show Scalar.select _ _ (Cert.Spec.lit 0x00000000#32) = _
  rw [Cert.Spec.lit_zero]
  rfl

/-- The firing rate at an index is the specification's rate function of the current there. -/
theorem lif_apply (a0 a1 : FVec Ideal S1x16x2048x64 .f32) (a3 a4 : FVec Ideal S1x16x2048x1 .f32)
    (i : S1x16x2048x2048.Idx) :
    lif (F := Ideal) a0 a1 a3 a4 i = Cert.Spec.lif (cur (F := Ideal) a0 a1 a3 a4 i) := by
  unfold lif
  rw [negInfOut_apply, posInfOut_apply, nanOut_apply, lif0_apply]
  rfl

/-- The score at an index: the rate times 1/8. -/
theorem scores_apply (a0 a1 : FVec Ideal S1x16x2048x64 .f32) (a3 a4 : FVec Ideal S1x16x2048x1 .f32)
    (i : S1x16x2048x2048.Idx) :
    scores (F := Ideal) a0 a1 a3 a4 i = Cert.Spec.score (cur (F := Ideal) a0 a1 a3 a4 i) := by
  unfold scores Cert.Spec.score
  rw [hostDivf_apply, broadcastInDim_scalar_apply, lif_apply]
  exact Cert.Spec.div_temp _

/-! ## The lower-triangle mask -/

/-- A position below 2048, as a 32-bit word read signed, is the position. -/
theorem toInt_pos (t : Fin 2048) : (BitVec.ofNat 32 t.val).toInt = (t.val : Int) := by
  have := t.isLt
  rw [BitVec.toInt_ofNat']
  exact Int.bmod_eq_of_le (by omega) (by omega)

/-- The mask at (t, s) holds exactly where the key position s is at most the query position t. -/
theorem trilM_apply (t s : Fin 2048) : trilM (ix2 t s) = if s.val ≤ t.val then 1#1 else 0#1 := by
  show Scalar.select (IntOp.cmpi .sge (IntOp.addi (BitVec.ofNat 32 t.val) 0#32) (BitVec.ofNat 32 s.val)) 1#1 0#1 = _
  have hadd : IntOp.addi (BitVec.ofNat 32 t.val) 0#32 = BitVec.ofNat 32 t.val := BitVec.add_zero _
  rw [hadd]
  by_cases hs : s.val ≤ t.val
  · rw [if_pos hs, IntOp.cmpi_sge.mpr (by rw [toInt_pos, toInt_pos]; exact_mod_cast hs), select_one]
  · have hc : IntOp.cmpi .sge (BitVec.ofNat 32 t.val) (BitVec.ofNat 32 s.val) = 0#1 :=
      eq_zero_of_ne_one (fun h1 => hs (by
        have h2 := IntOp.cmpi_sge.mp h1
        rw [toInt_pos, toInt_pos] at h2
        exact_mod_cast h2))
    rw [if_neg hs, hc, select_zero]

/-- The mask broadcast over the heads, at an index. -/
theorem mask_apply (z : Fin 1) (h : Fin 16) (t s : Fin 2048) :
    broadcastInDim S1x16x2048x2048 ![0, 1, 2, 3] bcast_S1x1x2048x2048_S1x16x2048x2048_0_1_2_3 tril (ix4 z h t s)
      = if s.val ≤ t.val then 1#1 else 0#1 := by
  rw [broadcastInDim_apply ![0, 1, 2, 3] bcast_S1x1x2048x2048_S1x16x2048x2048_0_1_2_3 tril (ix4 z h t s)
    (ix4 (0 : Fin 1) (0 : Fin 1) t s) (by
      intro a
      match a with
      | ⟨0, _⟩ => rfl
      | ⟨1, _⟩ => rfl
      | ⟨2, _⟩ => rfl
      | ⟨3, _⟩ => rfl)]
  unfold tril
  rw [broadcastInDim_apply ![2, 3] bcast_S2048x2048_S1x1x2048x2048_2_3 trilM (ix4 (0 : Fin 1) (0 : Fin 1) t s) (ix2 t s) (by
      intro a
      match a with
      | ⟨0, _⟩ => rfl
      | ⟨1, _⟩ => rfl), trilM_apply]

/-! ## The masked scores and the rates -/

/-- The masked score at an index: the score where the key is not after the query, zero elsewhere. -/
theorem masked_apply (a0 a1 : FVec Ideal S1x16x2048x64 .f32) (a3 a4 : FVec Ideal S1x16x2048x1 .f32)
    (z : Fin 1) (h : Fin 16) (t s : Fin 2048) :
    masked (F := Ideal) a0 a1 a3 a4 (ix4 z h t s)
      = if s.val ≤ t.val then Cert.Spec.score (cur (F := Ideal) a0 a1 a3 a4 (ix4 z h t s)) else 0 := by
  unfold masked
  rw [select_apply, mask_apply, scores_apply, broadcastInDim_scalar_apply]
  by_cases hs : s.val ≤ t.val
  · rw [if_pos hs, if_pos hs, select_one]
  · rw [if_neg hs, if_neg hs, select_zero]
    exact Cert.Spec.lit_zero

/-- The reference's rate at (z, h, t, s) is the specification's rate of head h, query t and key s. -/
theorem rates_apply (a0 a1 : FVec Ideal S1x16x2048x64 .f32) (a3 a4 : FVec Ideal S1x16x2048x1 .f32)
    (z : Fin 1) (h : Fin 16) (t s : Fin 2048) :
    rates (F := Ideal) a0 a1 a3 a4 (ix4 z h t s) = Cert.Spec.rate a0 a1 a3 a4 h t s := by
  unfold rates
  rw [maximumf_apply, masked_apply, broadcastInDim_scalar_apply, cur_apply]
  obtain rfl : z = 0 := Subsingleton.elim _ _
  show max _ (Cert.Spec.lit 0x00000000#32) = _
  rw [Cert.Spec.lit_zero]
  rfl

end Cert.ReferenceIdeal.Hand

end
-- ==== Proof.RefReadB.lean ====
/-
  The reference's later stages read at an index, at the exact (extended-real) instance.

  Given the rates' reading  rates (z, h, t, s) = rate h t s,  each later stage is read entry by entry:
    the sum of squares   sumsq (z, h, t, o)   = ∑_s rate h t s · rate h t s       (a sum along the last axis from the
                                                                                   initial value 0, kept as a unit axis),
    the normaliser       denom (z, h, t, o)   = σ + sqrt(sumsq + ε),
    the weights          weights (z, h, t, s) = rate h t s / denom (z, h, t, 0) when s ≤ t, else 0
                                                (the mask is 1 exactly when the key is not after the query),
    the result           refOut (z, h, t, d)  = ∑_s weights (z, h, t, s) · V (z, h, s, d).
  A broadcast reads its operand at the coordinates the broadcast names, 0 on the operand's unit axes; the leading
  axis has one coordinate, 0.  Each reading is stated twice: with the rates' reading as a hypothesis, and with that
  hypothesis discharged by the reading of the earlier stages.
-/
import proofs.«123989_j65085934403863_1_alg».proof.Proof.RefTerm
import proofs.«123989_j65085934403863_1_alg».proof.Proof.RefDots
import proofs.«123989_j65085934403863_1_alg».proof.Proof.RefReadA
import proofs.«123989_j65085934403863_1_alg».proof.Proof.Spec
import proofs.«123989_j65085934403863_1_alg».proof.Proof.SpecLaws
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.Hand

open Idealize.ShloMosaic Idealize.SL.Sem Idealize.ShloMosaic.ValueIdx
open Cert.ReferenceIdeal Cert.ReferenceIdeal.Facts₀ Cert.ReferenceIdeal.Facts

variable [Facts]

/-! ## A row array given a trailing unit axis, and the sum along the last axis -/

/-- A row array given a trailing unit axis reads the row entry. -/
theorem keepLast_apply {α : Type} (x : S1x16x2048.Idx → α) (z : Fin 1) (h : Fin 16) (t : Fin 2048) (o : Fin 1) :
    broadcastInDim S1x16x2048x1 ![0, 1, 2] bcast_S1x16x2048_S1x16x2048x1_0_1_2 x (ix4 z h t o) = x (ix3 z h t) := by
  obtain rfl : z = 0 := Subsingleton.elim _ _
  refine broadcastInDim_apply _ _ x _ (ix3 0 h t) fun a => ?_
  match a with
  | ⟨0, _⟩ => rfl
  | ⟨1, _⟩ => rfl
  | ⟨2, _⟩ => rfl

/-- The host's sum along the last axis from the initial value 0, at a row: the sum of the row's 2048 entries. -/
theorem rowSum_apply (X : FVec Ideal S1x16x2048x2048 .f32) (z : Fin 1) (h : Fin 16) (t : Fin 2048) :
    Host.reduceAdd (F := Ideal) X (constant (F := Ideal) S_ .f32 0x00000000#32)
        reducesTo_S1x16x2048x2048_S1x16x2048_d3 h_S_ (ix3 z h t)
      = ∑ s : Fin 2048, X (ix4 z h t s) := by
  have hred : S1x16x2048x2048.Reduces [3] S1x16x2048 := by decide
  rw [hostReduceAdd_apply]
  refine (Ideal.hostReduceAdd_single reducesTo_S1x16x2048x2048_S1x16x2048_d3 hred X _ (ix3 z h t)).trans ?_
  rw [constant_apply, Ideal.ofBits_zero_f32, zero_add]
  show ∑ k : Fin 2048, X (hred.lift (ix3 z h t) k) = _
  refine Finset.sum_congr rfl fun k _ => congrArg X (funext fun c => Fin.ext ?_)
  match c with
  | ⟨0, _⟩ => rfl
  | ⟨1, _⟩ => rfl
  | ⟨2, _⟩ => rfl
  | ⟨3, _⟩ => rfl

/-! ## The stages after the rates, from the rates' reading as a hypothesis -/

section
variable (a0 a1 a2 : FVec Ideal S1x16x2048x64 .f32) (a3 a4 : FVec Ideal S1x16x2048x1 .f32)
  (hr : ∀ (z : Fin 1) (h : Fin 16) (t s : Fin 2048),
    rates (F := Ideal) a0 a1 a3 a4 (ix4 z h t s) = Cert.Spec.rate a0 a1 a3 a4 h t s)
include hr

/-- The sum of squares at a row: the sum over the keys of the squared rate. -/
theorem sumsq_apply_of (z : Fin 1) (h : Fin 16) (t : Fin 2048) (o : Fin 1) :
    sumsq (F := Ideal) a0 a1 a3 a4 (ix4 z h t o)
      = ∑ s : Fin 2048, Cert.Spec.rate a0 a1 a3 a4 h t s * Cert.Spec.rate a0 a1 a3 a4 h t s := by
  unfold sumsq
  rw [keepLast_apply, rowSum_apply]
  refine Finset.sum_congr rfl fun s _ => ?_
  rw [mulf_apply, hr]

/-- The normaliser at a row is the specification's. -/
theorem denom_apply_of (z : Fin 1) (h : Fin 16) (t : Fin 2048) (o : Fin 1) :
    denom (F := Ideal) a0 a1 a3 a4 (ix4 z h t o) = Cert.Spec.den a0 a1 a3 a4 h t := by
  have hsq : ∀ (x : FVec Ideal S1x16x2048x1 .f32) (i : S1x16x2048x1.Idx), Host.sqrt x i = Ideal.sqrt (x i) :=
    fun _ _ => rfl
  unfold denom
  rw [addf_apply, broadcastInDim_scalar_apply, constant_apply, hsq, addf_apply, broadcastInDim_scalar_apply,
    constant_apply, sumsq_apply_of a0 a1 a3 a4 hr]
  rfl

/-- The weights at a (query, key) pair: the rate over the row's normaliser when the key is not after the query,
    else 0. -/
theorem weights_apply_of (z : Fin 1) (h : Fin 16) (t s : Fin 2048) :
    weights (F := Ideal) a0 a1 a3 a4 (ix4 z h t s)
      = if s.val ≤ t.val then Ideal.div (Cert.Spec.rate a0 a1 a3 a4 h t s) (Cert.Spec.den a0 a1 a3 a4 h t) else 0 := by
  unfold weights
  rw [select_apply, mask_apply, broadcastInDim_scalar_apply, constant_apply, Ideal.ofBits_zero_f32]
  unfold normed
  rw [hostDivf_apply, hr, bcastCol_apply, denom_apply_of a0 a1 a3 a4 hr]
  by_cases hs : s.val ≤ t.val
  · rw [if_pos hs, if_pos hs, select_one]
  · rw [if_neg hs, if_neg hs, select_zero]

/-- The reference's result at an entry is the specification's sum of masked quotients against the values. -/
theorem refOut_apply_of (z : Fin 1) (h : Fin 16) (t : Fin 2048) (d : Fin 64) :
    refOut (F := Ideal) a0 a1 a2 a3 a4 (ix4 z h t d) = Cert.Spec.outR a0 a1 a2 a3 a4 h t d := by
  obtain rfl : z = 0 := Subsingleton.elim _ _
  unfold refOut
  rw [dotWV_apply]
  unfold Cert.Spec.outR
  refine Finset.sum_congr rfl fun s _ => ?_
  rw [weights_apply_of a0 a1 a3 a4 hr]

end

/-! ## The same readings with the rates' reading discharged -/

section
variable (a0 a1 a2 : FVec Ideal S1x16x2048x64 .f32) (a3 a4 : FVec Ideal S1x16x2048x1 .f32)

/-- The normaliser at a row is the specification's. -/
theorem denom_apply (z : Fin 1) (h : Fin 16) (t : Fin 2048) (o : Fin 1) :
    denom (F := Ideal) a0 a1 a3 a4 (ix4 z h t o) = Cert.Spec.den a0 a1 a3 a4 h t :=
  denom_apply_of a0 a1 a3 a4 (rates_apply a0 a1 a3 a4) z h t o

/-- The weights at a (query, key) pair. -/
theorem weights_apply (z : Fin 1) (h : Fin 16) (t s : Fin 2048) :
    weights (F := Ideal) a0 a1 a3 a4 (ix4 z h t s)
      = if s.val ≤ t.val then Ideal.div (Cert.Spec.rate a0 a1 a3 a4 h t s) (Cert.Spec.den a0 a1 a3 a4 h t) else 0 :=
  weights_apply_of a0 a1 a3 a4 (rates_apply a0 a1 a3 a4) z h t s

/-- The reference's result at an entry is the specification's. -/
theorem refOut_apply (z : Fin 1) (h : Fin 16) (t : Fin 2048) (d : Fin 64) :
    refOut (F := Ideal) a0 a1 a2 a3 a4 (ix4 z h t d) = Cert.Spec.outR a0 a1 a2 a3 a4 h t d :=
  refOut_apply_of a0 a1 a2 a3 a4 (rates_apply a0 a1 a3 a4) z h t d

end

end Cert.ReferenceIdeal.Hand

end
-- ==== Proof.lean ====
/-
  The certificate of the causal spiking-attention kernel against its reference.

  Both programs compute, for every head h, query t and feature d,
      (∑_s rate(h,t,s) · V(h,s,d)) / (σ + sqrt(∑_s rate(h,t,s)² + 1e-20)),
  with rate the masked, rectified firing rate of the current gain · ⟨q_t, k_s/‖k_s‖⟩ + bias. The kernel walks the keys
  block by block, carrying the two sums in scratch arrays, skips the key blocks after the query block (all their rates
  are masked to zero) and divides once at the end; the reference divides every rate by the normaliser and then sums.
  On the extended reals the normaliser is a positive real or +∞, its inverse a nonnegative real, and multiplying by a
  nonnegative real distributes over every sum: the two results are equal for all inputs (the precondition is not used).
  The frames are proved on the pipeline's launch theorem over the body's run at the five kinds of grid point; the
  reference's run is its straight line of host operations.
-/
import proofs.«123989_j65085934403863_1_alg».proof.Defs
import proofs.«123989_j65085934403863_1_alg».proof.Proof.Gen.Kernel
import proofs.«123989_j65085934403863_1_alg».proof.Proof.Gen.KernelIdeal
import proofs.«123989_j65085934403863_1_alg».proof.Proof.Gen.ReferenceIdeal
import proofs.«123989_j65085934403863_1_alg».proof.Proof.Gen.Pre_finite_inputs
import proofs.«123989_j65085934403863_1_alg».proof.Proof.KFrame
import proofs.«123989_j65085934403863_1_alg».proof.Proof.KIFrame
import proofs.«123989_j65085934403863_1_alg».proof.Proof.KIValue
import proofs.«123989_j65085934403863_1_alg».proof.Proof.RefRun
import proofs.«123989_j65085934403863_1_alg».proof.Proof.RefReadB
import proofs.«123989_j65085934403863_1_alg».proof.Proof.SpecLaws
import Idealize.ShloMosaic.Adequacy
import Idealize.ShloMosaic.Init

noncomputable section

namespace Cert.Proof

open Idealize.ShloMosaic Idealize.ShloMosaic.ValueIdx Idealize.SL.Sem

/-- The word-level kernel runs and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- From memories agreeing on the arguments both programs end at the layer's output: the kernel's run read block by
    block, the reference's run read index by index, and the two arrangements of the quotient equal. -/
theorem algebraic : Cert.algebraic_KernelIdeal_ReferenceIdeal := by
  intro m ρ m' ρ' _ hagree
  refine ⟨fun c => Cert.KernelIdeal.Hand.kernelOut m c, Cert.KernelIdeal.Hand.kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4⟩ := hagree c
  rw [e0, e1, e2, e3, e4]
  funext i
  obtain ⟨z, h, t, d, rfl⟩ : ∃ (z : Fin 1) (h : Fin 16) (t : Fin 2048) (d : Fin 64), i = ix4 z h t d :=
    ⟨i 0, i 1, i 2, i 3, eq_ix4 i⟩
  exact (Cert.ReferenceIdeal.Hand.refOut_apply _ _ _ _ _ z h t d).trans (Cert.Spec.outK_eq_outR _ _ _ _ _ h t d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
